-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8 : Shape := ⟨2, ![8192, 8]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg7 : FVec F S32x32 .f32) (main_arg8 : FVec F S32 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg4 : FVec F S32 .f32) (main_arg5 : FVec F S32x32 .f32) (main_arg6 : FVec F S32 .f32) (main_arg7 : FVec F S32x32 .f32) (main_arg8 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S8192x64 .f32) (main_arg1 : FVec F S8192x64 .f32) (main_arg2 : FVec F S8192x8 .f32) (main_arg3 : FVec F S64x32 .f32) (main_arg4 : FVec F S32 .f32) (main_arg5 : FVec F S32x32 .f32) (main_arg6 : FVec F S32 .f32) (main_arg7 : FVec F S32x32 .f32) (main_arg8 : FVec F S32 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x8 .f32 := Host.absf main_arg2
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_c_3 : IVec S_ 1 := constantI S_ 1 1#1
  let main_v12 : IVec S_ 1 := (fun x v => Host.reduce IntOp.andi x v reducesTo_S8192x8_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_arg7 main_arg8 main_v13 main_v16
-- ==== Kernel.lean ====
abbrev S8192x64 : Shape := ⟨2, ![8192, 64]⟩
abbrev S8192x8 : Shape := ⟨2, ![8192, 8]⟩
abbrev S64x32 : Shape := ⟨2, ![64, 32]⟩
abbrev S32 : Shape := ⟨1, ![32]⟩
abbrev S32x32 : Shape := ⟨2, ![32, 32]⟩
abbrev S8192x32 : Shape := ⟨2, ![8192, 32]⟩
abbrev S2048x64 : Shape := ⟨2, ![2048, 64]⟩
abbrev S2048x32 : Shape := ⟨2, ![2048, 32]⟩
abbrev S1x32 : Shape := ⟨2, ![1, 32]⟩
abbrev S1024x32 : Shape := ⟨2, ![1024, 32]⟩
abbrev S1024x8 : Shape := ⟨2, ![1024, 8]⟩
abbrev S2048x8 : Shape := ⟨2, ![2048, 8]⟩
abbrev S2048x1 : Shape := ⟨2, ![2048, 1]⟩
abbrev S32x1024 : Shape := ⟨2, ![32, 1024]⟩
abbrev S2048x1024 : Shape := ⟨2, ![2048, 1024]⟩
abbrev S1x1024 : Shape := ⟨2, ![1, 1024]⟩
abbrev S2048 : Shape := ⟨1, ![2048]⟩

abbrev nBuf : Space → Nat
  | .hbm => 12
  | .vmem => 30
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8, .f32⟩
  | .hbm, ⟨3, _⟩ => ⟨S64x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S8192x32, .f32⟩
  | .hbm, ⟨10, _⟩ => ⟨S8192x32, .f32⟩
  | .hbm, ⟨11, _⟩ => ⟨S8192x8, .f32⟩
  | .local _ .vmem, ⟨0, _⟩ => ⟨S2048x64, .f32⟩
  | .local _ .vmem, ⟨1, _⟩ => ⟨S2048x64, .f32⟩
  | .local _ .vmem, ⟨2, _⟩ => ⟨S64x32, .f32⟩
  | .local _ .vmem, ⟨3, _⟩ => ⟨S32, .f32⟩
  | .local _ .vmem, ⟨4, _⟩ => ⟨S32x32, .f32⟩
  | .local _ .vmem, ⟨5, _⟩ => ⟨S32, .f32⟩
  | .local _ .vmem, ⟨6, _⟩ => ⟨S32x32, .f32⟩
  | .local _ .vmem, ⟨7, _⟩ => ⟨S32, .f32⟩
  | .local _ .vmem, ⟨8, _⟩ => ⟨S2048x32, .f32⟩
  | .local _ .vmem, ⟨9, _⟩ => ⟨S2048x32, .f32⟩
  | .local _ .vmem, ⟨10, _⟩ => ⟨S2048x64, .f32⟩
  | .local _ .vmem, ⟨11, _⟩ => ⟨S2048x64, .f32⟩
  | .local _ .vmem, ⟨12, _⟩ => ⟨S64x32, .f32⟩
  | .local _ .vmem, ⟨13, _⟩ => ⟨S32, .f32⟩
  | .local _ .vmem, ⟨14, _⟩ => ⟨S32x32, .f32⟩
  | .local _ .vmem, ⟨15, _⟩ => ⟨S32, .f32⟩
  | .local _ .vmem, ⟨16, _⟩ => ⟨S32x32, .f32⟩
  | .local _ .vmem, ⟨17, _⟩ => ⟨S32, .f32⟩
  | .local _ .vmem, ⟨18, _⟩ => ⟨S2048x32, .f32⟩
  | .local _ .vmem, ⟨19, _⟩ => ⟨S2048x32, .f32⟩
  | .local _ .vmem, ⟨20, _⟩ => ⟨S2048x32, .f32⟩
  | .local _ .vmem, ⟨21, _⟩ => ⟨S2048x32, .f32⟩
  | .local _ .vmem, ⟨22, _⟩ => ⟨S1024x32, .f32⟩
  | .local _ .vmem, ⟨23, _⟩ => ⟨S1024x32, .f32⟩
  | .local _ .vmem, ⟨24, _⟩ => ⟨S1024x8, .f32⟩
  | .local _ .vmem, ⟨25, _⟩ => ⟨S1024x8, .f32⟩
  | .local _ .vmem, ⟨26, _⟩ => ⟨S2048x8, .f32⟩
  | .local _ .vmem, ⟨27, _⟩ => ⟨S2048x8, .f32⟩
  | .local _ .vmem, ⟨28, _⟩ => ⟨S2048x8, .f32⟩
  | .local _ .vmem, ⟨29, _⟩ => ⟨S2048x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc2_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_19 : BitVec 32 := 0#32
  let v39 : BitVec 1 := Scalar.cmpi .ne v38 c0_i32_19
  v39

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S2048x32 : S1x32.Broadcasts S2048x32
  inb_S32x32_S32x32_0_0 : ∀ a, (![0, 0] : Fin 2 → Nat) a + S32x32.size a ≤ S32x32.size a
  h_S32x32 : 0 < S32x32.numel
  inb_S2048x32_S2048x32_0_0 : ∀ a, (![0, 0] : Fin 2 → Nat) a + S2048x32.size a ≤ S2048x32.size a
  h_S2048x32 : 0 < S2048x32.numel
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  shapeCasts_S2048x32_S2048x32 : S2048x32.ShapeCasts S2048x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  transposes_S1024x32_p1_0_S32x1024 : S1024x32.Transposes [1, 0] S32x1024
  broadcasts_S1x1024_S2048x1024 : S1x1024.Broadcasts S2048x1024
  reduces_S2048x1024_S2048 : S2048x1024.Reduces [1] S2048
  shapeCasts_S2048_S2048x1 : S2048.ShapeCasts S2048x1
  inb_S1024x8_S1024x8_0_0 : ∀ a, (![0, 0] : Fin 2 → Nat) a + S1024x8.size a ≤ S1024x8.size a
  h_S1024x8 : 0 < S1024x8.numel
  broadcasts_S2048x1_S2048x8 : S2048x1.Broadcasts S2048x8
  dot_S2048x64_S64x32_S2048x32_1_0_0_1_n_n_wf : DotDims.WF S2048x64 S64x32 S2048x32 [1] [0] [0] [1] [] []
  dot_S2048x32_S32x32_S2048x32_1_0_0_1_n_n_wf : DotDims.WF S2048x32 S32x32 S2048x32 [1] [0] [0] [1] [] []
  dot_S2048x32_S32x1024_S2048x1024_1_0_0_1_n_n_wf : DotDims.WF S2048x32 S32x1024 S2048x1024 [1] [0] [0] [1] [] []
  dot_S1x32_S32x1024_S1x1024_1_0_0_1_n_n_wf : DotDims.WF S1x32 S32x1024 S1x1024 [1] [0] [0] [1] [] []
  dot_S2048x1024_S1024x8_S2048x8_1_0_0_1_n_n_wf : DotDims.WF S2048x1024 S1024x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x32.size a ≤ S8192x32.size a
  hwx0_7 : ∀ i : grid0.Coords, EltTy.bits .f32 = 32 ∨ (Rect.block (s := S8192x32) S2048x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S8192x64.size a
  hwx1_0 : ∀ i : grid1.Coords, EltTy.bits .f32 = 32 ∨ (Rect.block (s := S8192x64) S2048x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x32.size a ≤ S8192x32.size a
  hwx1_7 : ∀ i : grid1.Coords, EltTy.bits .f32 = 32 ∨ (Rect.block (s := S8192x32) S2048x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x32.size a ≤ S8192x32.size a
  hwx2_0 : ∀ i : grid2.Coords, EltTy.bits .f32 = 32 ∨ (Rect.block (s := S8192x32) S2048x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x32.size a ≤ S8192x32.size a
  hwx2_1 : ∀ i : grid2.Coords, EltTy.bits .f32 = 32 ∨ (Rect.block (s := S8192x32) S1024x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x8.size a ≤ S8192x8.size a
  hwx2_2 : ∀ i : grid2.Coords, EltTy.bits .f32 = 32 ∨ (Rect.block (s := S8192x8) S1024x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x8.size a ≤ S8192x8.size a
  hwx2_3 : ∀ i : grid2.Coords, EltTy.bits .f32 = 32 ∨ (Rect.block (s := S8192x8) S2048x8.size (cc2_transform_3 i) (hinb2_3 i)).WholeWords (EltTy.packing .f32)

variable [Facts₀]

def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x32_S32x1024_S2048x1024_1_0_0_1_n_n : DotDims S2048x32 S32x1024 S2048x1024 where
  lhsContracting := [1]
  rhsContracting := [0]
  lhsNonContracting := [0]
  rhsNonContracting := [1]
  lhsBatch := []
  rhsBatch := []
  wf := dot_S2048x32_S32x1024_S2048x1024_1_0_0_1_n_n_wf
def dot_S1x32_S32x1024_S1x1024_1_0_0_1_n_n : DotDims S1x32 S32x1024 S1x1024 where
  lhsContracting := [1]
  rhsContracting := [0]
  lhsNonContracting := [0]
  rhsNonContracting := [1]
  lhsBatch := []
  rhsBatch := []
  wf := dot_S1x32_S32x1024_S1x1024_1_0_0_1_n_n_wf
def dot_S2048x1024_S1024x8_S2048x8_1_0_0_1_n_n : DotDims S2048x1024 S1024x8 S2048x8 where
  lhsContracting := [1]
  rhsContracting := [0]
  lhsNonContracting := [0]
  rhsNonContracting := [1]
  lhsBatch := []
  rhsBatch := []
  wf := dot_S2048x1024_S1024x8_S2048x8_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2048x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S2048x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v0) S2048x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S1024x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S2048x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8 : Shape := ⟨2, ![8192, 8]⟩
abbrev S64x32 : Shape := ⟨2, ![64, 32]⟩
abbrev S32 : Shape := ⟨1, ![32]⟩
abbrev S32x32 : Shape := ⟨2, ![32, 32]⟩
abbrev S8192x32 : Shape := ⟨2, ![8192, 32]⟩
abbrev S1x32 : Shape := ⟨2, ![1, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩

abbrev nBuf : Space → Nat
  | .hbm => 82
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8, .f32⟩
  | .hbm, ⟨3, _⟩ => ⟨S64x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S8192x32, .f32⟩
  | .hbm, ⟨10, _⟩ => ⟨S1x32, .f32⟩
  | .hbm, ⟨11, _⟩ => ⟨S8192x32, .f32⟩
  | .hbm, ⟨12, _⟩ => ⟨S8192x32, .f32⟩
  | .hbm, ⟨13, _⟩ => ⟨S_, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S_, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S1x32, .f32⟩
  | .hbm, ⟨25, _⟩ => ⟨S8192x32, .f32⟩
  | .hbm, ⟨26, _⟩ => ⟨S8192x32, .f32⟩
  | .hbm, ⟨27, _⟩ => ⟨S_, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S1x32, .f32⟩
  | .hbm, ⟨32, _⟩ => ⟨S8192x32, .f32⟩
  | .hbm, ⟨33, _⟩ => ⟨S8192x32, .f32⟩
  | .hbm, ⟨34, _⟩ => ⟨S_, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S1x32, .f32⟩
  | .hbm, ⟨39, _⟩ => ⟨S8192x32, .f32⟩
  | .hbm, ⟨40, _⟩ => ⟨S8192x32, .f32⟩
  | .hbm, ⟨41, _⟩ => ⟨S_, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S1x32, .f32⟩
  | .hbm, ⟨46, _⟩ => ⟨S8192x32, .f32⟩
  | .hbm, ⟨47, _⟩ => ⟨S8192x32, .f32⟩
  | .hbm, ⟨48, _⟩ => ⟨S_, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x32, .f32⟩
  | .hbm, ⟨56, _⟩ => ⟨S_, .f32⟩
  | .hbm, ⟨57, _⟩ => ⟨S8192, .f32⟩
  | .hbm, ⟨58, _⟩ => ⟨S1x8192, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S32x8192, .f32⟩
  | .hbm, ⟨63, _⟩ => ⟨S8192x8192, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x8192, .f32⟩
  | .hbm, ⟨80, _⟩ => ⟨S8192x8192, .f32⟩
  | .hbm, ⟨81, _⟩ => ⟨S8192x8, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call3_cst : Ref sig .tc := ⟨.hbm, 34, rfl⟩
abbrev main_call3_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call4_cst : Ref sig .tc := ⟨.hbm, 41, rfl⟩
abbrev main_call4_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call5_cst : Ref sig .tc := ⟨.hbm, 48, rfl⟩
abbrev main_call5_v0 : Ref sig .tc := ⟨.hbm, 49, rfl⟩
abbrev main_v29 : Ref sig .tc := ⟨.hbm, 50, rfl⟩
abbrev main_v30 : Ref sig .tc := ⟨.hbm, 51, rfl⟩
abbrev main_cst : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_1 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_2 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_3 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_4 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  reducesTo_S8192x32_S8192_d1 : S8192x32.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x32_S32x8192_1_0 : S8192x32.Transposes [1, 0] S32x8192
  bcast_S_S8192x8192 : S_.BroadcastsInDim S8192x8192 (![] : Fin 0 → Fin S8192x8192.rank)
  reducesTo_S8192x8192_S8192_d1 : S8192x8192.ReducesTo [1] S8192
  dot_S8192x64_S64x32_S8192x32_1_0_0_1_n_n_wf : DotDims.WF S8192x64 S64x32 S8192x32 [1] [0] [0] [1] [] []
  dot_S8192x32_S32x32_S8192x32_1_0_0_1_n_n_wf : DotDims.WF S8192x32 S32x32 S8192x32 [1] [0] [0] [1] [] []
  dot_S8192x32_S32x8192_S8192x8192_1_0_0_1_n_n_wf : DotDims.WF S8192x32 S32x8192 S8192x8192 [1] [0] [0] [1] [] []
  dot_S8192x8192_S8192x8_S8192x8_1_0_0_1_n_n_wf : DotDims.WF S8192x8192 S8192x8 S8192x8 [1] [0] [0] [1] [] []

variable [Facts₀]

def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf
def dot_S8192x8192_S8192x8_S8192x8_1_0_0_1_n_n : DotDims S8192x8192 S8192x8 S8192x8 where
  lhsContracting := [1]
  rhsContracting := [0]
  lhsNonContracting := [0]
  rhsNonContracting := [1]
  lhsBatch := []
  rhsBatch := []
  wf := dot_S8192x8192_S8192x8_S8192x8_1_0_0_1_n_n_wf

class Facts : Prop extends Facts₀ where

variable [Facts]
-- ==== Proof.K.R0.lean ====
/-
  Region 0: one of the two launches of the three-layer perceptron. Its grid has four points; point `t` reads rows
  2048·t … 2048·t + 2047 of the input array and the six small parameter arrays whole, and stores the 2048 × 32 block of
  features. Here: what the body leaves in the output's staging buffer as a function of the blocks it is handed, the
  body's triple, and the pipeline's proof data at a parameter `V` (the buffers' contents when the region is entered).
-/
import proofs.«146112_j85014582657267_2_alg».proof.Proof.Gen.Kernel.Launch
import proofs.«146112_j85014582657267_2_alg».proof.Proof.Gen.Kernel.Skeleton
import proofs.«146112_j85014582657267_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x64 := Rect.unit (s := S2048x64) ![0, 0] S2048x64.size inb_S2048x64_S2048x64_0_0
abbrev r0_1 : Rect S64x32 := Rect.unit (s := S64x32) ![0, 0] S64x32.size inb_S64x32_S64x32_0_0
abbrev r0_2 : Rect S32 := Rect.unit (s := S32) ![0] S32.size inb_S32_S32_0
abbrev r0_3 : Rect S32x32 := Rect.unit (s := S32x32) ![0, 0] S32x32.size inb_S32x32_S32x32_0_0
abbrev r0_4 : Rect S32 := Rect.unit (s := S32) ![0] S32.size inb_S32_S32_0
abbrev r0_5 : Rect S32x32 := Rect.unit (s := S32x32) ![0, 0] S32x32.size inb_S32x32_S32x32_0_0
abbrev r0_6 : Rect S32 := Rect.unit (s := S32) ![0] S32.size inb_S32_S32_0
abbrev r0_7 : Rect S2048x32 := Rect.unit (s := S2048x32) ![0, 0] S2048x32.size inb_S2048x32_S2048x32_0_0

/-- The output's staging buffer after the body, from the input blocks: its one store as a piece. -/
def out0_7 (x0 : Vec F S2048x64 .f32) (x1 : Vec F S64x32 .f32) (x2 : Vec F S32 .f32) (x3 : Vec F S32x32 .f32) (x4 : Vec F S32 .f32) (x5 : Vec F S32x32 .f32) (x6 : Vec F S32 .f32) : Vec F S2048x32 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The store covers the buffer. -/
theorem cover0_7 (p0 : Vec F S2048x32 .f32) (y : S2048x32.Idx) :
    ∃ pc ∈ ([⟨r0_7, p0⟩] : List (View.Piece (Elt F) S2048x32 .f32)), y ∈ pc.1.set :=
  View.cover_of_tiled [⟨r0_7, p0⟩] S2048x32.size (by rfl) y

set_option maxHeartbeats 4000000 in
/-- The body on whole staging memrefs: the inputs at given contents, the output at anything, runs to the continuation
    holding the inputs as they were and the output at `out0_7` of them. -/
theorem sound_kernel0 (c : Dev nD) (E : Set ℕ) (i : grid0.Coords)
    (arg0 : Memref sig .tc .vmem S2048x64 .f32) (harg0 : arg0.IsWhole) (arg1 : Memref sig .tc .vmem S64x32 .f32) (harg1 : arg1.IsWhole) (arg2 : Memref sig .tc .vmem S32 .f32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S2048x32 .f32) (harg7 : arg7.IsWhole)
    (x0 : Vec F S2048x64 .f32) (x1 : Vec F S64x32 .f32) (x2 : Vec F S32 .f32) (x3 : Vec F S32x32 .f32) (x4 : Vec F S32 .f32) (x5 : Vec F S32x32 .f32) (x6 : Vec F S32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__mlp_kernel i arg0 harg0 arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The proof data of pipeline 0 on core `c`: the arrays as the region finds them; after the body at point `t` each
    input's buffer at its block and the output's at `out0_7` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1: one of the two launches of the three-layer perceptron. Its grid has four points; point `t` reads rows
  2048·t … 2048·t + 2047 of the input array and the six small parameter arrays whole, and stores the 2048 × 32 block of
  features. Here: what the body leaves in the output's staging buffer as a function of the blocks it is handed, the
  body's triple, and the pipeline's proof data at a parameter `V` (the buffers' contents when the region is entered).
-/
import proofs.«146112_j85014582657267_2_alg».proof.Proof.Gen.Kernel.Launch
import proofs.«146112_j85014582657267_2_alg».proof.Proof.Gen.Kernel.Skeleton
import proofs.«146112_j85014582657267_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2048x64 := Rect.unit (s := S2048x64) ![0, 0] S2048x64.size inb_S2048x64_S2048x64_0_0
abbrev r1_1 : Rect S64x32 := Rect.unit (s := S64x32) ![0, 0] S64x32.size inb_S64x32_S64x32_0_0
abbrev r1_2 : Rect S32 := Rect.unit (s := S32) ![0] S32.size inb_S32_S32_0
abbrev r1_3 : Rect S32x32 := Rect.unit (s := S32x32) ![0, 0] S32x32.size inb_S32x32_S32x32_0_0
abbrev r1_4 : Rect S32 := Rect.unit (s := S32) ![0] S32.size inb_S32_S32_0
abbrev r1_5 : Rect S32x32 := Rect.unit (s := S32x32) ![0, 0] S32x32.size inb_S32x32_S32x32_0_0
abbrev r1_6 : Rect S32 := Rect.unit (s := S32) ![0] S32.size inb_S32_S32_0
abbrev r1_7 : Rect S2048x32 := Rect.unit (s := S2048x32) ![0, 0] S2048x32.size inb_S2048x32_S2048x32_0_0

/-- The output's staging buffer after the body, from the input blocks: its one store as a piece. -/
def out1_7 (x0 : Vec F S2048x64 .f32) (x1 : Vec F S64x32 .f32) (x2 : Vec F S32 .f32) (x3 : Vec F S32x32 .f32) (x4 : Vec F S32 .f32) (x5 : Vec F S32x32 .f32) (x6 : Vec F S32 .f32) : Vec F S2048x32 .f32 :=
  View.canon [⟨r1_7, k1_pay1 (View.ld x0 r1_0) (View.ld x1 r1_1) (View.ld x2 r1_2) (View.ld x3 r1_3) (View.ld x4 r1_4) (View.ld x5 r1_5) (View.ld x6 r1_6)⟩]

/-- The store covers the buffer. -/
theorem cover1_7 (p0 : Vec F S2048x32 .f32) (y : S2048x32.Idx) :
    ∃ pc ∈ ([⟨r1_7, p0⟩] : List (View.Piece (Elt F) S2048x32 .f32)), y ∈ pc.1.set :=
  View.cover_of_tiled [⟨r1_7, p0⟩] S2048x32.size (by rfl) y

set_option maxHeartbeats 4000000 in
/-- The body on whole staging memrefs: the inputs at given contents, the output at anything, runs to the continuation
    holding the inputs as they were and the output at `out1_7` of them. -/
theorem sound_kernel1 (c : Dev nD) (E : Set ℕ) (i : grid1.Coords)
    (arg0 : Memref sig .tc .vmem S2048x64 .f32) (harg0 : arg0.IsWhole) (arg1 : Memref sig .tc .vmem S64x32 .f32) (harg1 : arg1.IsWhole) (arg2 : Memref sig .tc .vmem S32 .f32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S2048x32 .f32) (harg7 : arg7.IsWhole)
    (x0 : Vec F S2048x64 .f32) (x1 : Vec F S64x32 .f32) (x2 : Vec F S32 .f32) (x3 : Vec F S32x32 .f32) (x4 : Vec F S32 .f32) (x5 : Vec F S32x32 .f32) (x6 : Vec F S32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp_kernel i arg0 harg0 arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of pipeline 1 on core `c`: the arrays as the region finds them; after the body at point `t` each
    input's buffer at its block and the output's at `out1_7` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Defs.lean ====
/-
  Region 2, the weighting stage: what its three kinds of grid point share. The grid is 4 × 8; point t = 8·i + j handles
  rows 2048·i … of the first feature array against rows 1024·j … of the second and of the targets. The body resets its
  two running sums (kept in scratch between points) when j = 0, adds block j's contribution at every point, and
  stores their quotient into the output block when j = 7. So a point is of one of three kinds: first of a row of the
  grid (j = 0), middle (0 < j < 7), last (j = 7).
-/
import proofs.«146112_j85014582657267_2_alg».proof.Proof.Gen.Kernel.Launch
import proofs.«146112_j85014582657267_2_alg».proof.Proof.Gen.Kernel.Skeleton
import proofs.«146112_j85014582657267_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- "j = 0", as the body computes it from the grid coordinates. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- "j = 7", as the body computes it. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from j = 7 the output window is idle and not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At j = 7 it is live. -/
theorem liveAt2_3 : ∀ t : Fin cfg2.N, cond2_1 (grid2.coords t) → cfg2.idle 3 (grid2.coords t) = false := by decide +kernel

/-! ## The memrefs the body is called with -/

abbrev VO2_3 : View sig .tc .vmem S2048x8 .f32 := (Memref.whole cc2_stg3_0 : Memref sig .tc .vmem S2048x8 .f32).view
abbrev ms2_0 (t : Fin cfg2.N) : Memref sig .tc .vmem S2048x32 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x8 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x8 .f32 := win2_3.stage (cfg2.slots t 3)
abbrev hs2_3 (t : Fin cfg2.N) : (ms2_3 t).IsWhole := hstage2_3 ((cfg2.slots t 3).cast nbuf2_3)
/-- The two running sums' scratch buffers. -/
abbrev scM2_0 : Memref sig .tc .vmem S2048x8 .f32 := Memref.whole cc2_scratch0
abbrev scM2_1 : Memref sig .tc .vmem S2048x1 .f32 := Memref.whole cc2_scratch1
abbrev VS2_0 : View sig .tc .vmem S2048x8 .f32 := scM2_0.view
abbrev VS2_1 : View sig .tc .vmem S2048x1 .f32 := scM2_1.view

/-- The other scoped buffers of the core (the two other regions' staging buffers), which this region never touches. -/
abbrev others2 (c : Dev nD) : sProp 𝕄 :=
  Pipeline.scopedRestBut (Ix := Unit) (Name := ℕ) (U := UR sig nD τ) (Lvl := ℕ) (Val := Elt F) spec2 c [cc2_scratch0, cc2_scratch1]

/-- The region's entry invariant with the two scratch buffers split off as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ others2 c) ∗ (∃ r, prngReg c r)) := by
  unfold Pipeline.ΦA
  rw [Pipeline.scopedRest_split_of_list (win := spec2) (c := c) [cc2_scratch0, cc2_scratch1] (by decide) (by decide)]
  simp only [scM2_0, scM2_1, owns_whole]
  rfl

end Cert.Kernel.Hand

end
-- ==== Proof.K.R2RunA.lean ====
/-
  Region 2, the first point of a row of the grid (j = 0): the two running sums are reset, then block 0's contribution is added. The body's triple on whole memrefs, the pieces each buffer ends with found by running the body.
-/
import proofs.«146112_j85014582657267_2_alg».proof.Proof.Gen.Kernel.Launch
import proofs.«146112_j85014582657267_2_alg».proof.Proof.Gen.Kernel.Skeleton
import proofs.«146112_j85014582657267_2_alg».proof.Proof.Gen.Kernel.Points
import proofs.«146112_j85014582657267_2_alg».proof.Proof.K.R2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave (last first), with the proof that on whole memrefs — the three inputs at their
    contents, the output, which this kind of point does not store into, at contents handed back untouched, the two scratch buffers at anything — the body runs to the continuation holding the
    inputs as they were and each stored buffer with its pieces written. -/
noncomputable def kernelRun2_A (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : cond2_0 i) (hc1 : ¬cond2_1 i)
    (x0 : Vec F S2048x32 .f32) (x1 : Vec F S1024x32 .f32) (x2 : Vec F S1024x8 .f32) :
    Σ' (LS0 : List (View.Piece (Elt F) S2048x8 .f32)), { LS1 : List (View.Piece (Elt F) S2048x1 .f32) //
      ∀ (xi3 : Vec F S2048x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__attn_kernel i arg2 harg2 arg3 harg3 arg4 harg4 arg5 harg5 arg6 harg6 arg7 harg7) K } := by
  refine ⟨?_, ?_, fun xi3 E K => ?run⟩
  case run =>
    simp only [cc2__attn_kernel_eq_skeleton]; unfold cc2__attn_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.R2RunB.lean ====
/-
  Region 2, a middle point (0 < j < 7): block j's contribution is added to the two running sums. The body's triple on whole memrefs, the pieces each buffer ends with found by running the body.
-/
import proofs.«146112_j85014582657267_2_alg».proof.Proof.Gen.Kernel.Launch
import proofs.«146112_j85014582657267_2_alg».proof.Proof.Gen.Kernel.Skeleton
import proofs.«146112_j85014582657267_2_alg».proof.Proof.Gen.Kernel.Points
import proofs.«146112_j85014582657267_2_alg».proof.Proof.K.R2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave (last first), with the proof that on whole memrefs — the three inputs at their
    contents, the output, which this kind of point does not store into, at contents handed back untouched, the two scratch buffers at what the point before left — the body runs to the continuation holding the
    inputs as they were and each stored buffer with its pieces written. -/
noncomputable def kernelRun2_B (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : ¬cond2_0 i) (hc1 : ¬cond2_1 i)
    (x0 : Vec F S2048x32 .f32) (x1 : Vec F S1024x32 .f32) (x2 : Vec F S1024x8 .f32) (xs0 : Vec F S2048x8 .f32) (xs1 : Vec F S2048x1 .f32) :
    Σ' (LS0 : List (View.Piece (Elt F) S2048x8 .f32)), { LS1 : List (View.Piece (Elt F) S2048x1 .f32) //
      ∀ (xi3 : Vec F S2048x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__attn_kernel i arg2 harg2 arg3 harg3 arg4 harg4 arg5 harg5 arg6 harg6 arg7 harg7) K } := by
  refine ⟨?_, ?_, fun xi3 E K => ?run⟩
  case run =>
    simp only [cc2__attn_kernel_eq_skeleton]; unfold cc2__attn_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.R2RunC.lean ====
/-
  Region 2, the last point of a row of the grid (j = 7): block 7's contribution is added and the quotient of the two sums is stored into the output block. The body's triple on whole memrefs, the pieces each buffer ends with found by running the body.
-/
import proofs.«146112_j85014582657267_2_alg».proof.Proof.Gen.Kernel.Launch
import proofs.«146112_j85014582657267_2_alg».proof.Proof.Gen.Kernel.Skeleton
import proofs.«146112_j85014582657267_2_alg».proof.Proof.Gen.Kernel.Points
import proofs.«146112_j85014582657267_2_alg».proof.Proof.K.R2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave (last first), with the proof that on whole memrefs — the three inputs at their
    contents, the output at anything, the two scratch buffers at what the point before left — the body runs to the continuation holding the
    inputs as they were and each stored buffer with its pieces written. -/
noncomputable def kernelRun2_C (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : ¬cond2_0 i) (hc1 : cond2_1 i)
    (x0 : Vec F S2048x32 .f32) (x1 : Vec F S1024x32 .f32) (x2 : Vec F S1024x8 .f32) (xs0 : Vec F S2048x8 .f32) (xs1 : Vec F S2048x1 .f32) :
    Σ' (L3 : List (View.Piece (Elt F) S2048x8 .f32)), Σ' (LS0 : List (View.Piece (Elt F) S2048x8 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__attn_kernel i arg2 harg2 arg3 harg3 arg4 harg4 arg5 harg5 arg6 harg6 arg7 harg7) K } := by
  refine ⟨?_, ?_, ?_, fun E K => ?run⟩
  case run =>
    simp only [cc2__attn_kernel_eq_skeleton]; unfold cc2__attn_kernel_skel
    simp only [k2_part1_eq_skeleton]; unfold k2_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]; · iexists _; iexact HS0
    iexists _; iexact HS1

end Cert.Kernel.Hand

end
-- ==== Proof.K.R2.lean ====
/-
  Region 2, the weighting stage, assembled: what each kind of point leaves in the two running sums and in the output
  block as explicit functions of the blocks it is handed and of what the point before left; the contents point by
  point by recursion on the point; the pipeline's proof data, whose invariant carries the two running sums from one
  point to the next; and the body obligation.
-/
import proofs.«146112_j85014582657267_2_alg».proof.Proof.Gen.Kernel.Launch
import proofs.«146112_j85014582657267_2_alg».proof.Proof.Gen.Kernel.Skeleton
import proofs.«146112_j85014582657267_2_alg».proof.Proof.Gen.Kernel.Points
import proofs.«146112_j85014582657267_2_alg».proof.Proof.K.R2RunA
import proofs.«146112_j85014582657267_2_alg».proof.Proof.K.R2RunB
import proofs.«146112_j85014582657267_2_alg».proof.Proof.K.R2RunC
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## What one point leaves, as functions of what it is handed -/

/-- The weighted targets' running sum after a first point: zero plus block 0's contribution. -/
def accA (x0 : Vec F S2048x32 .f32) (x1 : Vec F S1024x32 .f32) (x2 : Vec F S1024x8 .f32) : Vec F S2048x8 .f32 :=
  k2_pay1 (k2_pay7 x0 x1 (k2_pay3 (F := F)) x2)
/-- The weights' running sum after a first point. -/
def lA (x0 : Vec F S2048x32 .f32) (x1 : Vec F S1024x32 .f32) : Vec F S2048x1 .f32 := k2_pay6 x0 x1 (k2_pay4 (F := F))
/-- The weighted targets' running sum after a later point: what the point before left plus this block's contribution. -/
def accB (x0 : Vec F S2048x32 .f32) (x1 : Vec F S1024x32 .f32) (x2 : Vec F S1024x8 .f32) (xs0 : Vec F S2048x8 .f32) : Vec F S2048x8 .f32 :=
  k2_pay1 (k2_pay7 x0 x1 xs0 x2)
/-- The weights' running sum after a later point. -/
def lB (x0 : Vec F S2048x32 .f32) (x1 : Vec F S1024x32 .f32) (xs1 : Vec F S2048x1 .f32) : Vec F S2048x1 .f32 := k2_pay6 x0 x1 xs1
/-- The output block a last point stores: the quotient of the two running sums. -/
def outC (x0 : Vec F S2048x32 .f32) (x1 : Vec F S1024x32 .f32) (x2 : Vec F S1024x8 .f32) (xs0 : Vec F S2048x8 .f32) (xs1 : Vec F S2048x1 .f32) : Vec F S2048x8 .f32 :=
  k2_pay2 (accB x0 x1 x2 xs0) (lB x0 x1 xs1)

/-! ## The pieces the runs found, read back, are those functions -/

theorem pieceA_0 (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : cond2_0 i) (hc1 : ¬cond2_1 i)
    (x0 : Vec F S2048x32 .f32) (x1 : Vec F S1024x32 .f32) (x2 : Vec F S1024x8 .f32)
    (v : View sig .tc .vmem S2048x8 .f32) (f : v.ty.Contents (Elt F)) :
    v.read (Elt F) (v.writes (Elt F) f (kernelRun2_A c i arg2 harg2 arg3 harg3 arg4 harg4 arg5 harg5 arg6 harg6 arg7 harg7 hc0 hc1 x0 x1 x2).1) = accA x0 x1 x2 := by
  unfold kernelRun2_A
  dsimp only
  sl_unfold_words
  rw [View.read_writes_eq_canon _ _ _ (fun y => ⟨_, List.mem_cons_self, View.mem_set_unit_zero hz inb_S2048x8_S2048x8_0_0 y⟩)]
  rw [View.canon_cons_unit_zero hz]
  simp only [View.readCov_unit_zero (S := S2048x8) _ hz, View.readCov_unit_zero (S := S2048x1) _ hz, View.readAt_eq_ld, Memref.IsWhole.read_unread, View.ld_unit_zero (S := S2048x32) hz, View.ld_unit_zero (S := S1024x32) hz, View.ld_unit_zero (S := S1024x8) hz, View.ld_unit_zero (S := S2048x8) hz, View.ld_unit_zero (S := S2048x1) hz]
  try rfl

theorem pieceA_1 (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : cond2_0 i) (hc1 : ¬cond2_1 i)
    (x0 : Vec F S2048x32 .f32) (x1 : Vec F S1024x32 .f32) (x2 : Vec F S1024x8 .f32)
    (v : View sig .tc .vmem S2048x1 .f32) (f : v.ty.Contents (Elt F)) :
    v.read (Elt F) (v.writes (Elt F) f (kernelRun2_A c i arg2 harg2 arg3 harg3 arg4 harg4 arg5 harg5 arg6 harg6 arg7 harg7 hc0 hc1 x0 x1 x2).2.1) = lA x0 x1 := by
  unfold kernelRun2_A
  dsimp only
  sl_unfold_words
  rw [View.read_writes_eq_canon _ _ _ (fun y => ⟨_, List.mem_cons_self, View.mem_set_unit_zero hz inb_S2048x1_S2048x1_0_0 y⟩)]
  rw [View.canon_cons_unit_zero hz]
  simp only [View.readCov_unit_zero (S := S2048x8) _ hz, View.readCov_unit_zero (S := S2048x1) _ hz, View.readAt_eq_ld, Memref.IsWhole.read_unread, View.ld_unit_zero (S := S2048x32) hz, View.ld_unit_zero (S := S1024x32) hz, View.ld_unit_zero (S := S1024x8) hz, View.ld_unit_zero (S := S2048x8) hz, View.ld_unit_zero (S := S2048x1) hz]
  try rfl

theorem pieceB_0 (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : ¬cond2_0 i) (hc1 : ¬cond2_1 i)
    (x0 : Vec F S2048x32 .f32) (x1 : Vec F S1024x32 .f32) (x2 : Vec F S1024x8 .f32) (xs0 : Vec F S2048x8 .f32) (xs1 : Vec F S2048x1 .f32)
    (v : View sig .tc .vmem S2048x8 .f32) (f : v.ty.Contents (Elt F)) :
    v.read (Elt F) (v.writes (Elt F) f (kernelRun2_B c i arg2 harg2 arg3 harg3 arg4 harg4 arg5 harg5 arg6 harg6 arg7 harg7 hc0 hc1 x0 x1 x2 xs0 xs1).1) = accB x0 x1 x2 xs0 := by
  unfold kernelRun2_B
  dsimp only
  sl_unfold_words
  rw [View.read_writes_eq_canon _ _ _ (fun y => ⟨_, List.mem_cons_self, View.mem_set_unit_zero hz inb_S2048x8_S2048x8_0_0 y⟩)]
  rw [View.canon_cons_unit_zero hz]
  simp only [View.readCov_unit_zero (S := S2048x8) _ hz, View.readCov_unit_zero (S := S2048x1) _ hz, View.readAt_eq_ld, Memref.IsWhole.read_unread, View.ld_unit_zero (S := S2048x32) hz, View.ld_unit_zero (S := S1024x32) hz, View.ld_unit_zero (S := S1024x8) hz, View.ld_unit_zero (S := S2048x8) hz, View.ld_unit_zero (S := S2048x1) hz]
  try rfl

theorem pieceB_1 (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : ¬cond2_0 i) (hc1 : ¬cond2_1 i)
    (x0 : Vec F S2048x32 .f32) (x1 : Vec F S1024x32 .f32) (x2 : Vec F S1024x8 .f32) (xs0 : Vec F S2048x8 .f32) (xs1 : Vec F S2048x1 .f32)
    (v : View sig .tc .vmem S2048x1 .f32) (f : v.ty.Contents (Elt F)) :
    v.read (Elt F) (v.writes (Elt F) f (kernelRun2_B c i arg2 harg2 arg3 harg3 arg4 harg4 arg5 harg5 arg6 harg6 arg7 harg7 hc0 hc1 x0 x1 x2 xs0 xs1).2.1) = lB x0 x1 xs1 := by
  unfold kernelRun2_B
  dsimp only
  sl_unfold_words
  rw [View.read_writes_eq_canon _ _ _ (fun y => ⟨_, List.mem_cons_self, View.mem_set_unit_zero hz inb_S2048x1_S2048x1_0_0 y⟩)]
  rw [View.canon_cons_unit_zero hz]
  simp only [View.readCov_unit_zero (S := S2048x8) _ hz, View.readCov_unit_zero (S := S2048x1) _ hz, View.readAt_eq_ld, Memref.IsWhole.read_unread, View.ld_unit_zero (S := S2048x32) hz, View.ld_unit_zero (S := S1024x32) hz, View.ld_unit_zero (S := S1024x8) hz, View.ld_unit_zero (S := S2048x8) hz, View.ld_unit_zero (S := S2048x1) hz]
  try rfl

theorem pieceC_3 (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : ¬cond2_0 i) (hc1 : cond2_1 i)
    (x0 : Vec F S2048x32 .f32) (x1 : Vec F S1024x32 .f32) (x2 : Vec F S1024x8 .f32) (xs0 : Vec F S2048x8 .f32) (xs1 : Vec F S2048x1 .f32)
    (v : View sig .tc .vmem S2048x8 .f32) (f : v.ty.Contents (Elt F)) :
    v.read (Elt F) (v.writes (Elt F) f (kernelRun2_C c i arg2 harg2 arg3 harg3 arg4 harg4 arg5 harg5 arg6 harg6 arg7 harg7 hc0 hc1 x0 x1 x2 xs0 xs1).1) = outC x0 x1 x2 xs0 xs1 := by
  unfold kernelRun2_C
  dsimp only
  sl_unfold_words
  rw [View.read_writes_eq_canon _ _ _ (fun y => ⟨_, List.mem_cons_self, View.mem_set_unit_zero hz inb_S2048x8_S2048x8_0_0 y⟩)]
  rw [View.canon_cons_unit_zero hz]
  simp only [View.readCov_unit_zero (S := S2048x8) _ hz, View.readCov_unit_zero (S := S2048x1) _ hz, View.readAt_eq_ld, Memref.IsWhole.read_unread, View.ld_unit_zero (S := S2048x32) hz, View.ld_unit_zero (S := S1024x32) hz, View.ld_unit_zero (S := S1024x8) hz, View.ld_unit_zero (S := S2048x8) hz, View.ld_unit_zero (S := S2048x1) hz]
  try rfl

theorem pieceC_0 (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : ¬cond2_0 i) (hc1 : cond2_1 i)
    (x0 : Vec F S2048x32 .f32) (x1 : Vec F S1024x32 .f32) (x2 : Vec F S1024x8 .f32) (xs0 : Vec F S2048x8 .f32) (xs1 : Vec F S2048x1 .f32)
    (v : View sig .tc .vmem S2048x8 .f32) (f : v.ty.Contents (Elt F)) :
    v.read (Elt F) (v.writes (Elt F) f (kernelRun2_C c i arg2 harg2 arg3 harg3 arg4 harg4 arg5 harg5 arg6 harg6 arg7 harg7 hc0 hc1 x0 x1 x2 xs0 xs1).2.1) = accB x0 x1 x2 xs0 := by
  unfold kernelRun2_C
  dsimp only
  sl_unfold_words
  rw [View.read_writes_eq_canon _ _ _ (fun y => ⟨_, List.mem_cons_self, View.mem_set_unit_zero hz inb_S2048x8_S2048x8_0_0 y⟩)]
  rw [View.canon_cons_unit_zero hz]
  simp only [View.readCov_unit_zero (S := S2048x8) _ hz, View.readCov_unit_zero (S := S2048x1) _ hz, View.readAt_eq_ld, Memref.IsWhole.read_unread, View.ld_unit_zero (S := S2048x32) hz, View.ld_unit_zero (S := S1024x32) hz, View.ld_unit_zero (S := S1024x8) hz, View.ld_unit_zero (S := S2048x8) hz, View.ld_unit_zero (S := S2048x1) hz]
  try rfl

theorem pieceC_1 (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : ¬cond2_0 i) (hc1 : cond2_1 i)
    (x0 : Vec F S2048x32 .f32) (x1 : Vec F S1024x32 .f32) (x2 : Vec F S1024x8 .f32) (xs0 : Vec F S2048x8 .f32) (xs1 : Vec F S2048x1 .f32)
    (v : View sig .tc .vmem S2048x1 .f32) (f : v.ty.Contents (Elt F)) :
    v.read (Elt F) (v.writes (Elt F) f (kernelRun2_C c i arg2 harg2 arg3 harg3 arg4 harg4 arg5 harg5 arg6 harg6 arg7 harg7 hc0 hc1 x0 x1 x2 xs0 xs1).2.2.1) = lB x0 x1 xs1 := by
  unfold kernelRun2_C
  dsimp only
  sl_unfold_words
  rw [View.read_writes_eq_canon _ _ _ (fun y => ⟨_, List.mem_cons_self, View.mem_set_unit_zero hz inb_S2048x1_S2048x1_0_0 y⟩)]
  rw [View.canon_cons_unit_zero hz]
  simp only [View.readCov_unit_zero (S := S2048x8) _ hz, View.readCov_unit_zero (S := S2048x1) _ hz, View.readAt_eq_ld, Memref.IsWhole.read_unread, View.ld_unit_zero (S := S2048x32) hz, View.ld_unit_zero (S := S1024x32) hz, View.ld_unit_zero (S := S1024x8) hz, View.ld_unit_zero (S := S2048x8) hz, View.ld_unit_zero (S := S2048x1) hz]
  try rfl

variable (V : (c : Dev nD) → (b : Ref sig .tc) → Buf (Elt F) ((c : Thread nD τ).loc b))

/-! ## The contents point by point -/

/-- A value for the output's staging buffer at the points that do not store into it (never consulted). -/
def junk3 : Vec F S2048x8 .f32 := VO2_3.read (Elt F) VO2_3.junk

/-- What the output's staging buffer and the two running sums hold after the body at position `n`: a first point
    (n ≡ 0 mod 8) starts the sums from zero, a later one continues from what position n − 1 left, a last one
    (n ≡ 7 mod 8) also stores the quotient. -/
def outsAt2 (c : Dev nD) : (n : ℕ) → n < cfg2.N → Vec F S2048x8 .f32 × Vec F S2048x8 .f32 × Vec F S2048x1 .f32
  | 0, hn => (junk3, accA (iblk2 V c 0 ⟨0, hn⟩) (iblk2 V c 1 ⟨0, hn⟩) (iblk2 V c 2 ⟨0, hn⟩), lA (iblk2 V c 0 ⟨0, hn⟩) (iblk2 V c 1 ⟨0, hn⟩))
  | n + 1, hn =>
    if (n + 1) % 8 = 0 then
      (junk3, accA (iblk2 V c 0 ⟨n + 1, hn⟩) (iblk2 V c 1 ⟨n + 1, hn⟩) (iblk2 V c 2 ⟨n + 1, hn⟩), lA (iblk2 V c 0 ⟨n + 1, hn⟩) (iblk2 V c 1 ⟨n + 1, hn⟩))
    else
      ((if (n + 1) % 8 = 7 then outC (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2 else junk3),
        accB (iblk2 V c 0 ⟨n + 1, hn⟩) (iblk2 V c 1 ⟨n + 1, hn⟩) (iblk2 V c 2 ⟨n + 1, hn⟩) (outsAt2 c n (Nat.lt_of_succ_lt hn)).2.1,
        lB (iblk2 V c 0 ⟨n + 1, hn⟩) (iblk2 V c 1 ⟨n + 1, hn⟩) (outsAt2 c n (Nat.lt_of_succ_lt hn)).2.2)

theorem outsAt2_first (c : Dev nD) (t : Fin cfg2.N) (h0 : t.val % 8 = 0) :
    outsAt2 V c t.val t.isLt = (junk3, accA (iblk2 V c 0 t) (iblk2 V c 1 t) (iblk2 V c 2 t), lA (iblk2 V c 0 t) (iblk2 V c 1 t)) := by
  obtain ⟨n, hn⟩ := t
  cases n with
  | zero => rfl
  | succ n => exact if_pos h0

theorem outsAt2_later (c : Dev nD) (t : Fin cfg2.N) (h0 : ¬t.val % 8 = 0) :
    outsAt2 V c t.val t.isLt = ((if t.val % 8 = 7 then outC (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2 else junk3),
      accB (iblk2 V c 0 t) (iblk2 V c 1 t) (iblk2 V c 2 t) (outsAt2 V c (t.val - 1) (Nat.lt_of_le_of_lt (Nat.sub_le _ _) t.isLt)).2.1,
      lB (iblk2 V c 0 t) (iblk2 V c 1 t) (outsAt2 V c (t.val - 1) (Nat.lt_of_le_of_lt (Nat.sub_le _ _) t.isLt)).2.2) := by
  obtain ⟨n, hn⟩ := t
  cases n with
  | zero => exact absurd (Nat.zero_mod _) h0
  | succ n => exact if_neg h0

/-- The region's invariant before position `n`: at entry the scoped rest at anything; afterwards the two running sums'
    scratch buffers at what position n − 1 left, the other scoped buffers at anything, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.1 ∗ owns (c : Thread nD τ) scM2_1 fullShare (outsAt2 V c n hn).2.2) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare (outsAt2 V c n hn).2.1 ∗ owns (c : Thread nD τ) scM2_1 fullShare (outsAt2 V c n hn).2.2) ∗ others2 c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.1 ∗ owns (c : Thread nD τ) scM2_1 fullShare (outsAt2 V c (n - 1) (by omega)).2.2) ∗ others2 c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 8000000 in
/-- The body at any point: the inputs' memrefs hold their blocks; the position modulo 8 says which kind of point it
    is; the invariant hands the body the two running sums at what the point before left (at anything at the very first
    point) and takes them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0,
    show (dat2 V c).leavesExact 1 t = owns (c : Thread nD τ) (ms2_1 t) fullShare ((dat2 V c).after 1 t) from by
      unfold Dat.leavesExact; rw [liveAt2_1 t], after2_1,
    show (dat2 V c).leavesExact 2 t = owns (c : Thread nD τ) (ms2_2 t) fullShare ((dat2 V c).after 2 t) from by
      unfold Dat.leavesExact; rw [liveAt2_2 t], after2_2]
  have hN : t.val < 32 := lt_of_lt_of_eq t.isLt (show cfg2.N = 32 from N_2)
  by_cases h0 : t.val % 8 = 0
  · -- a first point
    have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1)]
    rw [outsAt2_first V c t h0]
    dsimp only
    by_cases hz : t.val = 0
    · rw [PhiS2_castSucc V c t, PhiS2_zero V c _ _ hz, PhiA2_eq]
      iintro ⟨⟨⟨⟨HS0, HS1⟩, Hoth⟩, Hg⟩, Ho, ⟨%d0, H0⟩, ⟨%d1, H1⟩, ⟨%d2, H2⟩, ⟨%d3, H3⟩⟩
      iapply ((kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact pieceA_0 c _ _ _ _ _ _ _ _ _ _ _ _ _ hc0 hc1 _ _ _ _ _
            · unfold owns; iexists _; isplitr
              swap; · iexact HS1
              ipureintro; exact pieceA_1 c _ _ _ _ _ _ _ _ _ _ _ _ _ hc0 hc1 _ _ _ _ _
          iexact Hoth
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨⟨HS0, HS1⟩, Hoth⟩, Hg⟩, Ho, ⟨%d0, H0⟩, ⟨%d1, H1⟩, ⟨%d2, H2⟩, ⟨%d3, H3⟩⟩
      iapply ((kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact pieceA_0 c _ _ _ _ _ _ _ _ _ _ _ _ _ hc0 hc1 _ _ _ _ _
            · unfold owns; iexists _; isplitr
              swap; · iexact HS1
              ipureintro; exact pieceA_1 c _ _ _ _ _ _ _ _ _ _ _ _ _ hc0 hc1 _ _ _ _ _
          iexact Hoth
        iexact Hg
      isplitl [Ho]; · iexact Ho
      isplitl [H0]; · iexact H0
      isplitl [H1]; · iexact H1
      isplitl [H2]; · iexact H2
      iexists _; iexact H3
  · have hc0 : ¬cond2_0 (grid2.coords t) := fun h => h0 ((hcond2_0 t).mp h)
    have hz : t.val ≠ 0 := fun h => h0 (by rw [h])
    rw [PhiS2_castSucc V c t, PhiS2_pos V c _ _ hz]
    rw [outsAt2_later V c t h0]
    by_cases h7 : t.val % 8 = 7
    · -- a last point
      have hc1 : cond2_1 (grid2.coords t) := (hcond2_1 t).mpr h7
      rw [show (dat2 V c).leavesExact 3 t = owns (c : Thread nD τ) (ms2_3 t) fullShare ((dat2 V c).after 3 t) from by
        unfold Dat.leavesExact; rw [liveAt2_3 t hc1], after2_3, outsAt2_later V c t h0]
      simp only [if_pos h7]
      iintro ⟨⟨⟨⟨HS0, HS1⟩, Hoth⟩, Hg⟩, Ho, ⟨%d0, H0⟩, ⟨%d1, H1⟩, ⟨%d2, H2⟩, ⟨%d3, H3⟩⟩
      iapply ((kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) hc0 hc1 (iblk2 V c 0 t) (iblk2 V c 1 t) (iblk2 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact pieceC_0 c _ _ _ _ _ _ _ _ _ _ _ _ _ hc0 hc1 _ _ _ _ _ _ _
            · unfold owns; iexists _; isplitr
              swap; · iexact HS1
              ipureintro; exact pieceC_1 c _ _ _ _ _ _ _ _ _ _ _ _ _ hc0 hc1 _ _ _ _ _ _ _
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact pieceC_3 c _ _ _ _ _ _ _ _ _ _ _ _ _ hc0 hc1 _ _ _ _ _ _ _
    · -- a middle point
      have hc1 : ¬cond2_1 (grid2.coords t) := fun h => h7 ((hcond2_1 t).mp h)
      rw [Dat.leavesExact_idle (dat2 V c) 3 t (idleAt2_3 t hc1) (noFlush2_3 t hc1)]
      dsimp only
      iintro ⟨⟨⟨⟨HS0, HS1⟩, Hoth⟩, Hg⟩, Ho, ⟨%d0, H0⟩, ⟨%d1, H1⟩, ⟨%d2, H2⟩, ⟨%d3, H3⟩⟩
      iapply ((kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) hc0 hc1 (iblk2 V c 0 t) (iblk2 V c 1 t) (iblk2 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact pieceB_0 c _ _ _ _ _ _ _ _ _ _ _ _ _ hc0 hc1 _ _ _ _ _ _ _
            · unfold owns; iexists _; isplitr
              swap; · iexact HS1
              ipureintro; exact pieceB_1 c _ _ _ _ _ _ _ _ _ _ _ _ _ hc0 hc1 _ _ _ _ _ _ _
          iexact Hoth
        iexact Hg
      isplitl [Ho]; · iexact Ho
      isplitl [H0]; · iexact H0
      isplitl [H1]; · iexact H1
      isplitl [H2]; · iexact H2
      iexists _; iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the entry invariant back: the running sums' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨⟨HS0, HS1⟩, Hoth⟩, Hg⟩
  isplitl [HS0 HS1 Hoth]
  · isplitl [HS0 HS1]
    · isplitl [HS0]
      · iexists _; iexact HS0
      · iexists _; iexact HS1
    iexact Hoth
  iexact Hg

end Cert.Kernel.Hand

end
-- ==== Proof.K.Run.lean ====
/-
  The whole run: the three regions in @main's order, each entered from the buffers' contents the one before left.
  The result: every weakly fair execution terminates without a fault, and afterwards every unscoped buffer holds what
  the fold through the three regions says (`W3`): the arguments untouched, each region's output array at what its
  pipeline's write-backs leave.
-/
import proofs.«146112_j85014582657267_2_alg».proof.Proof.Gen.Kernel.Launch
import proofs.«146112_j85014582657267_2_alg».proof.Proof.Gen.Kernel.Skeleton
import proofs.«146112_j85014582657267_2_alg».proof.Proof.Gen.Kernel.Points
import proofs.«146112_j85014582657267_2_alg».proof.Proof.K.R0
import proofs.«146112_j85014582657267_2_alg».proof.Proof.K.R1
import proofs.«146112_j85014582657267_2_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what the pipeline leaves (the inputs as entered, the output's write-backs folded),
    every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what the pipeline leaves (the inputs as entered, the output's write-backs folded),
    every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what the pipeline leaves (the inputs as entered, the output's write-backs folded),
    every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
abbrev L : GSem nD τ sig → Finset Unit := fun _ => ∅
abbrev lv : GSem nD τ sig → Unit → ℕ := fun _ _ => 0
/-- What rides beside the buffers through every region: the generator register at some state and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Region 0 over the thread state "every unscoped buffer at the boundary's contents, the generator register at some
    state, nothing owed": its arrays split out of the unscoped buffers and put back at what the pipeline leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers and put back at what the pipeline leaves. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays split out of the unscoped buffers and put back at what the pipeline leaves. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V2 m ρ) c).Φ 0 from rfl]
    have h := hin2 (V2 m ρ) c
    unfold Pipeline.ΦA at h
    iintro ⟨Hp, -, Hr⟩
    iapply h
    isplitl [Hr]; · iexact Hr
    iexact Hp
  hout c := by
    rw [Pipeline.ownSems0_none, show (pdats m ρ 2 c).Φ (Fin.last _) = (dat2 (V2 m ρ) c).Φ (Fin.last cfg2.N) from rfl]
    have h := hout2 (V2 m ρ) c
    unfold Pipeline.ΦA at h
    iintro Hq
    ihave Hq2 := h $$ Hq
    icases Hq2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ), .region (reg1 m ρ), .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.Kernel.Hand

end
-- ==== Proof.K.FrameMain.lean ====
/-
  The arguments after the whole run. The fold of the buffers' contents through the three regions, read at an
  argument's buffer, walks back to the launch memory: a region either does not stage the array, or stages it as
  an input window, whose array is never written back. With the run this gives the frame statement: every weakly
  fair execution terminates and leaves the nine argument arrays as they were.
-/
import proofs.«146112_j85014582657267_2_alg».proof.Proof.K.Run

set_option maxRecDepth 16384

noncomputable section

namespace Cert.Kernel.Hand

open Cert.Kernel Cert.Kernel.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-! ## Each argument's buffer at the end of the fold -/

/-- The first input: region 0 reads it through an input window, regions 1 and 2 do not stage it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The second input: region 1 reads it through an input window, regions 0 and 2 do not stage it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

/-- The targets: region 2 reads them through an input window, regions 0 and 1 do not stage them. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 2).trans (((dat2 (V2 m ρ) c).arrAt_in 2 rfl _).trans (A_eq2 (V2 m ρ) c 2))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- The first weight matrix: regions 0 and 1 read it whole through an input window, region 2 does not stage it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 1).trans (((dat1 (V1 m ρ) c).arrAt_in 1 rfl _).trans (A_eq1 (V1 m ρ) c 1))
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl

/-- The first bias: regions 0 and 1 read it whole through an input window, region 2 does not stage it. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 2).trans (((dat1 (V1 m ρ) c).arrAt_in 2 rfl _).trans (A_eq1 (V1 m ρ) c 2))
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl

/-- The second weight matrix: regions 0 and 1 read it whole through an input window, region 2 does not stage it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 3).trans (((dat1 (V1 m ρ) c).arrAt_in 3 rfl _).trans (A_eq1 (V1 m ρ) c 3))
    _ = W0 m ρ c (Proc.devRef .tc main_arg5) := (W1_arr m ρ c 3).trans (((dat0 (V0 m ρ) c).arrAt_in 3 rfl _).trans (A_eq0 (V0 m ρ) c 3))
    _ = m ((c : Thread nD τ).loc main_arg5) := rfl

/-- The second bias: regions 0 and 1 read it whole through an input window, region 2 does not stage it. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 4).trans (((dat1 (V1 m ρ) c).arrAt_in 4 rfl _).trans (A_eq1 (V1 m ρ) c 4))
    _ = W0 m ρ c (Proc.devRef .tc main_arg6) := (W1_arr m ρ c 4).trans (((dat0 (V0 m ρ) c).arrAt_in 4 rfl _).trans (A_eq0 (V0 m ρ) c 4))
    _ = m ((c : Thread nD τ).loc main_arg6) := rfl

/-- The third weight matrix: regions 0 and 1 read it whole through an input window, region 2 does not stage it. -/
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 5).trans (((dat1 (V1 m ρ) c).arrAt_in 5 rfl _).trans (A_eq1 (V1 m ρ) c 5))
    _ = W0 m ρ c (Proc.devRef .tc main_arg7) := (W1_arr m ρ c 5).trans (((dat0 (V0 m ρ) c).arrAt_in 5 rfl _).trans (A_eq0 (V0 m ρ) c 5))
    _ = m ((c : Thread nD τ).loc main_arg7) := rfl

/-- The third bias: regions 0 and 1 read it whole through an input window, region 2 does not stage it. -/
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := (W2_arr m ρ c 6).trans (((dat1 (V1 m ρ) c).arrAt_in 6 rfl _).trans (A_eq1 (V1 m ρ) c 6))
    _ = W0 m ρ c (Proc.devRef .tc main_arg8) := (W1_arr m ρ c 6).trans (((dat0 (V0 m ρ) c).arrAt_in 6 rfl _).trans (A_eq0 (V0 m ρ) c 6))
    _ = m ((c : Thread nD τ).loc main_arg8) := rfl

/-! ## The frame statement -/

/-- Every weakly fair execution terminates without a fault and leaves the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c)⟩)
    (run_all m ρ)

end Cert.Kernel.Hand

end
-- ==== Proof.KI.R0.lean ====
/-
  Region 0: one of the two launches of the three-layer perceptron. Its grid has four points; point `t` reads rows
  2048·t … 2048·t + 2047 of the input array and the six small parameter arrays whole, and stores the 2048 × 32 block of
  features. Here: what the body leaves in the output's staging buffer as a function of the blocks it is handed, the
  body's triple, and the pipeline's proof data at a parameter `V` (the buffers' contents when the region is entered).
-/
import proofs.«146112_j85014582657267_2_alg».proof.Proof.Gen.KernelIdeal.Launch
import proofs.«146112_j85014582657267_2_alg».proof.Proof.Gen.KernelIdeal.Skeleton
import proofs.«146112_j85014582657267_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x64 := Rect.unit (s := S2048x64) ![0, 0] S2048x64.size inb_S2048x64_S2048x64_0_0
abbrev r0_1 : Rect S64x32 := Rect.unit (s := S64x32) ![0, 0] S64x32.size inb_S64x32_S64x32_0_0
abbrev r0_2 : Rect S32 := Rect.unit (s := S32) ![0] S32.size inb_S32_S32_0
abbrev r0_3 : Rect S32x32 := Rect.unit (s := S32x32) ![0, 0] S32x32.size inb_S32x32_S32x32_0_0
abbrev r0_4 : Rect S32 := Rect.unit (s := S32) ![0] S32.size inb_S32_S32_0
abbrev r0_5 : Rect S32x32 := Rect.unit (s := S32x32) ![0, 0] S32x32.size inb_S32x32_S32x32_0_0
abbrev r0_6 : Rect S32 := Rect.unit (s := S32) ![0] S32.size inb_S32_S32_0
abbrev r0_7 : Rect S2048x32 := Rect.unit (s := S2048x32) ![0, 0] S2048x32.size inb_S2048x32_S2048x32_0_0

/-- The output's staging buffer after the body, from the input blocks: its one store as a piece. -/
def out0_7 (x0 : Vec F S2048x64 .f32) (x1 : Vec F S64x32 .f32) (x2 : Vec F S32 .f32) (x3 : Vec F S32x32 .f32) (x4 : Vec F S32 .f32) (x5 : Vec F S32x32 .f32) (x6 : Vec F S32 .f32) : Vec F S2048x32 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The store covers the buffer. -/
theorem cover0_7 (p0 : Vec F S2048x32 .f32) (y : S2048x32.Idx) :
    ∃ pc ∈ ([⟨r0_7, p0⟩] : List (View.Piece (Elt F) S2048x32 .f32)), y ∈ pc.1.set :=
  View.cover_of_tiled [⟨r0_7, p0⟩] S2048x32.size (by rfl) y

set_option maxHeartbeats 4000000 in
/-- The body on whole staging memrefs: the inputs at given contents, the output at anything, runs to the continuation
    holding the inputs as they were and the output at `out0_7` of them. -/
theorem sound_kernel0 (c : Dev nD) (E : Set ℕ) (i : grid0.Coords)
    (arg0 : Memref sig .tc .vmem S2048x64 .f32) (harg0 : arg0.IsWhole) (arg1 : Memref sig .tc .vmem S64x32 .f32) (harg1 : arg1.IsWhole) (arg2 : Memref sig .tc .vmem S32 .f32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S2048x32 .f32) (harg7 : arg7.IsWhole)
    (x0 : Vec F S2048x64 .f32) (x1 : Vec F S64x32 .f32) (x2 : Vec F S32 .f32) (x3 : Vec F S32x32 .f32) (x4 : Vec F S32 .f32) (x5 : Vec F S32x32 .f32) (x6 : Vec F S32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__mlp_kernel i arg0 harg0 arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The proof data of pipeline 0 on core `c`: the arrays as the region finds them; after the body at point `t` each
    input's buffer at its block and the output's at `out0_7` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1: one of the two launches of the three-layer perceptron. Its grid has four points; point `t` reads rows
  2048·t … 2048·t + 2047 of the input array and the six small parameter arrays whole, and stores the 2048 × 32 block of
  features. Here: what the body leaves in the output's staging buffer as a function of the blocks it is handed, the
  body's triple, and the pipeline's proof data at a parameter `V` (the buffers' contents when the region is entered).
-/
import proofs.«146112_j85014582657267_2_alg».proof.Proof.Gen.KernelIdeal.Launch
import proofs.«146112_j85014582657267_2_alg».proof.Proof.Gen.KernelIdeal.Skeleton
import proofs.«146112_j85014582657267_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2048x64 := Rect.unit (s := S2048x64) ![0, 0] S2048x64.size inb_S2048x64_S2048x64_0_0
abbrev r1_1 : Rect S64x32 := Rect.unit (s := S64x32) ![0, 0] S64x32.size inb_S64x32_S64x32_0_0
abbrev r1_2 : Rect S32 := Rect.unit (s := S32) ![0] S32.size inb_S32_S32_0
abbrev r1_3 : Rect S32x32 := Rect.unit (s := S32x32) ![0, 0] S32x32.size inb_S32x32_S32x32_0_0
abbrev r1_4 : Rect S32 := Rect.unit (s := S32) ![0] S32.size inb_S32_S32_0
abbrev r1_5 : Rect S32x32 := Rect.unit (s := S32x32) ![0, 0] S32x32.size inb_S32x32_S32x32_0_0
abbrev r1_6 : Rect S32 := Rect.unit (s := S32) ![0] S32.size inb_S32_S32_0
abbrev r1_7 : Rect S2048x32 := Rect.unit (s := S2048x32) ![0, 0] S2048x32.size inb_S2048x32_S2048x32_0_0

/-- The output's staging buffer after the body, from the input blocks: its one store as a piece. -/
def out1_7 (x0 : Vec F S2048x64 .f32) (x1 : Vec F S64x32 .f32) (x2 : Vec F S32 .f32) (x3 : Vec F S32x32 .f32) (x4 : Vec F S32 .f32) (x5 : Vec F S32x32 .f32) (x6 : Vec F S32 .f32) : Vec F S2048x32 .f32 :=
  View.canon [⟨r1_7, k1_pay1 (View.ld x0 r1_0) (View.ld x1 r1_1) (View.ld x2 r1_2) (View.ld x3 r1_3) (View.ld x4 r1_4) (View.ld x5 r1_5) (View.ld x6 r1_6)⟩]

/-- The store covers the buffer. -/
theorem cover1_7 (p0 : Vec F S2048x32 .f32) (y : S2048x32.Idx) :
    ∃ pc ∈ ([⟨r1_7, p0⟩] : List (View.Piece (Elt F) S2048x32 .f32)), y ∈ pc.1.set :=
  View.cover_of_tiled [⟨r1_7, p0⟩] S2048x32.size (by rfl) y

set_option maxHeartbeats 4000000 in
/-- The body on whole staging memrefs: the inputs at given contents, the output at anything, runs to the continuation
    holding the inputs as they were and the output at `out1_7` of them. -/
theorem sound_kernel1 (c : Dev nD) (E : Set ℕ) (i : grid1.Coords)
    (arg0 : Memref sig .tc .vmem S2048x64 .f32) (harg0 : arg0.IsWhole) (arg1 : Memref sig .tc .vmem S64x32 .f32) (harg1 : arg1.IsWhole) (arg2 : Memref sig .tc .vmem S32 .f32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S2048x32 .f32) (harg7 : arg7.IsWhole)
    (x0 : Vec F S2048x64 .f32) (x1 : Vec F S64x32 .f32) (x2 : Vec F S32 .f32) (x3 : Vec F S32x32 .f32) (x4 : Vec F S32 .f32) (x5 : Vec F S32x32 .f32) (x6 : Vec F S32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__mlp_kernel i arg0 harg0 arg1 harg1 arg2 harg2 arg3 harg3 arg4 harg4 arg5 harg5 arg6 harg6 arg7 harg7) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of pipeline 1 on core `c`: the arrays as the region finds them; after the body at point `t` each
    input's buffer at its block and the output's at `out1_7` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Defs.lean ====
/-
  Region 2, the weighting stage: what its three kinds of grid point share. The grid is 4 × 8; point t = 8·i + j handles
  rows 2048·i … of the first feature array against rows 1024·j … of the second and of the targets. The body resets its
  two running sums (kept in scratch between points) when j = 0, adds block j's contribution at every point, and
  stores their quotient into the output block when j = 7. So a point is of one of three kinds: first of a row of the
  grid (j = 0), middle (0 < j < 7), last (j = 7).
-/
import proofs.«146112_j85014582657267_2_alg».proof.Proof.Gen.KernelIdeal.Launch
import proofs.«146112_j85014582657267_2_alg».proof.Proof.Gen.KernelIdeal.Skeleton
import proofs.«146112_j85014582657267_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- "j = 0", as the body computes it from the grid coordinates. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- "j = 7", as the body computes it. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from j = 7 the output window is idle and not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At j = 7 it is live. -/
theorem liveAt2_3 : ∀ t : Fin cfg2.N, cond2_1 (grid2.coords t) → cfg2.idle 3 (grid2.coords t) = false := by decide +kernel

/-! ## The memrefs the body is called with -/

abbrev VO2_3 : View sig .tc .vmem S2048x8 .f32 := (Memref.whole cc2_stg3_0 : Memref sig .tc .vmem S2048x8 .f32).view
abbrev ms2_0 (t : Fin cfg2.N) : Memref sig .tc .vmem S2048x32 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x8 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x8 .f32 := win2_3.stage (cfg2.slots t 3)
abbrev hs2_3 (t : Fin cfg2.N) : (ms2_3 t).IsWhole := hstage2_3 ((cfg2.slots t 3).cast nbuf2_3)
/-- The two running sums' scratch buffers. -/
abbrev scM2_0 : Memref sig .tc .vmem S2048x8 .f32 := Memref.whole cc2_scratch0
abbrev scM2_1 : Memref sig .tc .vmem S2048x1 .f32 := Memref.whole cc2_scratch1
abbrev VS2_0 : View sig .tc .vmem S2048x8 .f32 := scM2_0.view
abbrev VS2_1 : View sig .tc .vmem S2048x1 .f32 := scM2_1.view

/-- The other scoped buffers of the core (the two other regions' staging buffers), which this region never touches. -/
abbrev others2 (c : Dev nD) : sProp 𝕄 :=
  Pipeline.scopedRestBut (Ix := Unit) (Name := ℕ) (U := UR sig nD τ) (Lvl := ℕ) (Val := Elt F) spec2 c [cc2_scratch0, cc2_scratch1]

/-- The region's entry invariant with the two scratch buffers split off as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ others2 c) ∗ (∃ r, prngReg c r)) := by
  unfold Pipeline.ΦA
  rw [Pipeline.scopedRest_split_of_list (win := spec2) (c := c) [cc2_scratch0, cc2_scratch1] (by decide) (by decide)]
  simp only [scM2_0, scM2_1, owns_whole]
  rfl

end Cert.KernelIdeal.Hand

end
-- ==== Proof.KI.R2RunA.lean ====
/-
  Region 2, the first point of a row of the grid (j = 0): the two running sums are reset, then block 0's contribution is added. The body's triple on whole memrefs, the pieces each buffer ends with found by running the body.
-/
import proofs.«146112_j85014582657267_2_alg».proof.Proof.Gen.KernelIdeal.Launch
import proofs.«146112_j85014582657267_2_alg».proof.Proof.Gen.KernelIdeal.Skeleton
import proofs.«146112_j85014582657267_2_alg».proof.Proof.Gen.KernelIdeal.Points
import proofs.«146112_j85014582657267_2_alg».proof.Proof.KI.R2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave (last first), with the proof that on whole memrefs — the three inputs at their
    contents, the output, which this kind of point does not store into, at contents handed back untouched, the two scratch buffers at anything — the body runs to the continuation holding the
    inputs as they were and each stored buffer with its pieces written. -/
noncomputable def kernelRun2_A (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : cond2_0 i) (hc1 : ¬cond2_1 i)
    (x0 : Vec F S2048x32 .f32) (x1 : Vec F S1024x32 .f32) (x2 : Vec F S1024x8 .f32) :
    Σ' (LS0 : List (View.Piece (Elt F) S2048x8 .f32)), { LS1 : List (View.Piece (Elt F) S2048x1 .f32) //
      ∀ (xi3 : Vec F S2048x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__attn_kernel i arg2 harg2 arg3 harg3 arg4 harg4 arg5 harg5 arg6 harg6 arg7 harg7) K } := by
  refine ⟨?_, ?_, fun xi3 E K => ?run⟩
  case run =>
    simp only [cc2__attn_kernel_eq_skeleton]; unfold cc2__attn_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.R2RunB.lean ====
/-
  Region 2, a middle point (0 < j < 7): block j's contribution is added to the two running sums. The body's triple on whole memrefs, the pieces each buffer ends with found by running the body.
-/
import proofs.«146112_j85014582657267_2_alg».proof.Proof.Gen.KernelIdeal.Launch
import proofs.«146112_j85014582657267_2_alg».proof.Proof.Gen.KernelIdeal.Skeleton
import proofs.«146112_j85014582657267_2_alg».proof.Proof.Gen.KernelIdeal.Points
import proofs.«146112_j85014582657267_2_alg».proof.Proof.KI.R2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave (last first), with the proof that on whole memrefs — the three inputs at their
    contents, the output, which this kind of point does not store into, at contents handed back untouched, the two scratch buffers at what the point before left — the body runs to the continuation holding the
    inputs as they were and each stored buffer with its pieces written. -/
noncomputable def kernelRun2_B (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : ¬cond2_0 i) (hc1 : ¬cond2_1 i)
    (x0 : Vec F S2048x32 .f32) (x1 : Vec F S1024x32 .f32) (x2 : Vec F S1024x8 .f32) (xs0 : Vec F S2048x8 .f32) (xs1 : Vec F S2048x1 .f32) :
    Σ' (LS0 : List (View.Piece (Elt F) S2048x8 .f32)), { LS1 : List (View.Piece (Elt F) S2048x1 .f32) //
      ∀ (xi3 : Vec F S2048x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__attn_kernel i arg2 harg2 arg3 harg3 arg4 harg4 arg5 harg5 arg6 harg6 arg7 harg7) K } := by
  refine ⟨?_, ?_, fun xi3 E K => ?run⟩
  case run =>
    simp only [cc2__attn_kernel_eq_skeleton]; unfold cc2__attn_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.R2RunC.lean ====
/-
  Region 2, the last point of a row of the grid (j = 7): block 7's contribution is added and the quotient of the two sums is stored into the output block. The body's triple on whole memrefs, the pieces each buffer ends with found by running the body.
-/
import proofs.«146112_j85014582657267_2_alg».proof.Proof.Gen.KernelIdeal.Launch
import proofs.«146112_j85014582657267_2_alg».proof.Proof.Gen.KernelIdeal.Skeleton
import proofs.«146112_j85014582657267_2_alg».proof.Proof.Gen.KernelIdeal.Points
import proofs.«146112_j85014582657267_2_alg».proof.Proof.KI.R2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave (last first), with the proof that on whole memrefs — the three inputs at their
    contents, the output at anything, the two scratch buffers at what the point before left — the body runs to the continuation holding the
    inputs as they were and each stored buffer with its pieces written. -/
noncomputable def kernelRun2_C (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : ¬cond2_0 i) (hc1 : cond2_1 i)
    (x0 : Vec F S2048x32 .f32) (x1 : Vec F S1024x32 .f32) (x2 : Vec F S1024x8 .f32) (xs0 : Vec F S2048x8 .f32) (xs1 : Vec F S2048x1 .f32) :
    Σ' (L3 : List (View.Piece (Elt F) S2048x8 .f32)), Σ' (LS0 : List (View.Piece (Elt F) S2048x8 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc2__attn_kernel i arg2 harg2 arg3 harg3 arg4 harg4 arg5 harg5 arg6 harg6 arg7 harg7) K } := by
  refine ⟨?_, ?_, ?_, fun E K => ?run⟩
  case run =>
    simp only [cc2__attn_kernel_eq_skeleton]; unfold cc2__attn_kernel_skel
    simp only [k2_part1_eq_skeleton]; unfold k2_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]; · iexists _; iexact HS0
    iexists _; iexact HS1

end Cert.KernelIdeal.Hand

end
-- ==== Proof.KI.R2.lean ====
/-
  Region 2, the weighting stage, assembled: what each kind of point leaves in the two running sums and in the output
  block as explicit functions of the blocks it is handed and of what the point before left; the contents point by
  point by recursion on the point; the pipeline's proof data, whose invariant carries the two running sums from one
  point to the next; and the body obligation.
-/
import proofs.«146112_j85014582657267_2_alg».proof.Proof.Gen.KernelIdeal.Launch
import proofs.«146112_j85014582657267_2_alg».proof.Proof.Gen.KernelIdeal.Skeleton
import proofs.«146112_j85014582657267_2_alg».proof.Proof.Gen.KernelIdeal.Points
import proofs.«146112_j85014582657267_2_alg».proof.Proof.KI.R2RunA
import proofs.«146112_j85014582657267_2_alg».proof.Proof.KI.R2RunB
import proofs.«146112_j85014582657267_2_alg».proof.Proof.KI.R2RunC
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## What one point leaves, as functions of what it is handed -/

/-- The weighted targets' running sum after a first point: zero plus block 0's contribution. -/
def accA (x0 : Vec F S2048x32 .f32) (x1 : Vec F S1024x32 .f32) (x2 : Vec F S1024x8 .f32) : Vec F S2048x8 .f32 :=
  k2_pay1 (k2_pay7 x0 x1 (k2_pay3 (F := F)) x2)
/-- The weights' running sum after a first point. -/
def lA (x0 : Vec F S2048x32 .f32) (x1 : Vec F S1024x32 .f32) : Vec F S2048x1 .f32 := k2_pay6 x0 x1 (k2_pay4 (F := F))
/-- The weighted targets' running sum after a later point: what the point before left plus this block's contribution. -/
def accB (x0 : Vec F S2048x32 .f32) (x1 : Vec F S1024x32 .f32) (x2 : Vec F S1024x8 .f32) (xs0 : Vec F S2048x8 .f32) : Vec F S2048x8 .f32 :=
  k2_pay1 (k2_pay7 x0 x1 xs0 x2)
/-- The weights' running sum after a later point. -/
def lB (x0 : Vec F S2048x32 .f32) (x1 : Vec F S1024x32 .f32) (xs1 : Vec F S2048x1 .f32) : Vec F S2048x1 .f32 := k2_pay6 x0 x1 xs1
/-- The output block a last point stores: the quotient of the two running sums. -/
def outC (x0 : Vec F S2048x32 .f32) (x1 : Vec F S1024x32 .f32) (x2 : Vec F S1024x8 .f32) (xs0 : Vec F S2048x8 .f32) (xs1 : Vec F S2048x1 .f32) : Vec F S2048x8 .f32 :=
  k2_pay2 (accB x0 x1 x2 xs0) (lB x0 x1 xs1)

/-! ## The pieces the runs found, read back, are those functions -/

theorem pieceA_0 (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : cond2_0 i) (hc1 : ¬cond2_1 i)
    (x0 : Vec F S2048x32 .f32) (x1 : Vec F S1024x32 .f32) (x2 : Vec F S1024x8 .f32)
    (v : View sig .tc .vmem S2048x8 .f32) (f : v.ty.Contents (Elt F)) :
    v.read (Elt F) (v.writes (Elt F) f (kernelRun2_A c i arg2 harg2 arg3 harg3 arg4 harg4 arg5 harg5 arg6 harg6 arg7 harg7 hc0 hc1 x0 x1 x2).1) = accA x0 x1 x2 := by
  unfold kernelRun2_A
  dsimp only
  sl_unfold_words
  rw [View.read_writes_eq_canon _ _ _ (fun y => ⟨_, List.mem_cons_self, View.mem_set_unit_zero hz inb_S2048x8_S2048x8_0_0 y⟩)]
  rw [View.canon_cons_unit_zero hz]
  simp only [View.readCov_unit_zero (S := S2048x8) _ hz, View.readCov_unit_zero (S := S2048x1) _ hz, View.readAt_eq_ld, Memref.IsWhole.read_unread, View.ld_unit_zero (S := S2048x32) hz, View.ld_unit_zero (S := S1024x32) hz, View.ld_unit_zero (S := S1024x8) hz, View.ld_unit_zero (S := S2048x8) hz, View.ld_unit_zero (S := S2048x1) hz]
  try rfl

theorem pieceA_1 (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : cond2_0 i) (hc1 : ¬cond2_1 i)
    (x0 : Vec F S2048x32 .f32) (x1 : Vec F S1024x32 .f32) (x2 : Vec F S1024x8 .f32)
    (v : View sig .tc .vmem S2048x1 .f32) (f : v.ty.Contents (Elt F)) :
    v.read (Elt F) (v.writes (Elt F) f (kernelRun2_A c i arg2 harg2 arg3 harg3 arg4 harg4 arg5 harg5 arg6 harg6 arg7 harg7 hc0 hc1 x0 x1 x2).2.1) = lA x0 x1 := by
  unfold kernelRun2_A
  dsimp only
  sl_unfold_words
  rw [View.read_writes_eq_canon _ _ _ (fun y => ⟨_, List.mem_cons_self, View.mem_set_unit_zero hz inb_S2048x1_S2048x1_0_0 y⟩)]
  rw [View.canon_cons_unit_zero hz]
  simp only [View.readCov_unit_zero (S := S2048x8) _ hz, View.readCov_unit_zero (S := S2048x1) _ hz, View.readAt_eq_ld, Memref.IsWhole.read_unread, View.ld_unit_zero (S := S2048x32) hz, View.ld_unit_zero (S := S1024x32) hz, View.ld_unit_zero (S := S1024x8) hz, View.ld_unit_zero (S := S2048x8) hz, View.ld_unit_zero (S := S2048x1) hz]
  try rfl

theorem pieceB_0 (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : ¬cond2_0 i) (hc1 : ¬cond2_1 i)
    (x0 : Vec F S2048x32 .f32) (x1 : Vec F S1024x32 .f32) (x2 : Vec F S1024x8 .f32) (xs0 : Vec F S2048x8 .f32) (xs1 : Vec F S2048x1 .f32)
    (v : View sig .tc .vmem S2048x8 .f32) (f : v.ty.Contents (Elt F)) :
    v.read (Elt F) (v.writes (Elt F) f (kernelRun2_B c i arg2 harg2 arg3 harg3 arg4 harg4 arg5 harg5 arg6 harg6 arg7 harg7 hc0 hc1 x0 x1 x2 xs0 xs1).1) = accB x0 x1 x2 xs0 := by
  unfold kernelRun2_B
  dsimp only
  sl_unfold_words
  rw [View.read_writes_eq_canon _ _ _ (fun y => ⟨_, List.mem_cons_self, View.mem_set_unit_zero hz inb_S2048x8_S2048x8_0_0 y⟩)]
  rw [View.canon_cons_unit_zero hz]
  simp only [View.readCov_unit_zero (S := S2048x8) _ hz, View.readCov_unit_zero (S := S2048x1) _ hz, View.readAt_eq_ld, Memref.IsWhole.read_unread, View.ld_unit_zero (S := S2048x32) hz, View.ld_unit_zero (S := S1024x32) hz, View.ld_unit_zero (S := S1024x8) hz, View.ld_unit_zero (S := S2048x8) hz, View.ld_unit_zero (S := S2048x1) hz]
  try rfl

theorem pieceB_1 (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : ¬cond2_0 i) (hc1 : ¬cond2_1 i)
    (x0 : Vec F S2048x32 .f32) (x1 : Vec F S1024x32 .f32) (x2 : Vec F S1024x8 .f32) (xs0 : Vec F S2048x8 .f32) (xs1 : Vec F S2048x1 .f32)
    (v : View sig .tc .vmem S2048x1 .f32) (f : v.ty.Contents (Elt F)) :
    v.read (Elt F) (v.writes (Elt F) f (kernelRun2_B c i arg2 harg2 arg3 harg3 arg4 harg4 arg5 harg5 arg6 harg6 arg7 harg7 hc0 hc1 x0 x1 x2 xs0 xs1).2.1) = lB x0 x1 xs1 := by
  unfold kernelRun2_B
  dsimp only
  sl_unfold_words
  rw [View.read_writes_eq_canon _ _ _ (fun y => ⟨_, List.mem_cons_self, View.mem_set_unit_zero hz inb_S2048x1_S2048x1_0_0 y⟩)]
  rw [View.canon_cons_unit_zero hz]
  simp only [View.readCov_unit_zero (S := S2048x8) _ hz, View.readCov_unit_zero (S := S2048x1) _ hz, View.readAt_eq_ld, Memref.IsWhole.read_unread, View.ld_unit_zero (S := S2048x32) hz, View.ld_unit_zero (S := S1024x32) hz, View.ld_unit_zero (S := S1024x8) hz, View.ld_unit_zero (S := S2048x8) hz, View.ld_unit_zero (S := S2048x1) hz]
  try rfl

theorem pieceC_3 (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : ¬cond2_0 i) (hc1 : cond2_1 i)
    (x0 : Vec F S2048x32 .f32) (x1 : Vec F S1024x32 .f32) (x2 : Vec F S1024x8 .f32) (xs0 : Vec F S2048x8 .f32) (xs1 : Vec F S2048x1 .f32)
    (v : View sig .tc .vmem S2048x8 .f32) (f : v.ty.Contents (Elt F)) :
    v.read (Elt F) (v.writes (Elt F) f (kernelRun2_C c i arg2 harg2 arg3 harg3 arg4 harg4 arg5 harg5 arg6 harg6 arg7 harg7 hc0 hc1 x0 x1 x2 xs0 xs1).1) = outC x0 x1 x2 xs0 xs1 := by
  unfold kernelRun2_C
  dsimp only
  sl_unfold_words
  rw [View.read_writes_eq_canon _ _ _ (fun y => ⟨_, List.mem_cons_self, View.mem_set_unit_zero hz inb_S2048x8_S2048x8_0_0 y⟩)]
  rw [View.canon_cons_unit_zero hz]
  simp only [View.readCov_unit_zero (S := S2048x8) _ hz, View.readCov_unit_zero (S := S2048x1) _ hz, View.readAt_eq_ld, Memref.IsWhole.read_unread, View.ld_unit_zero (S := S2048x32) hz, View.ld_unit_zero (S := S1024x32) hz, View.ld_unit_zero (S := S1024x8) hz, View.ld_unit_zero (S := S2048x8) hz, View.ld_unit_zero (S := S2048x1) hz]
  try rfl

theorem pieceC_0 (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : ¬cond2_0 i) (hc1 : cond2_1 i)
    (x0 : Vec F S2048x32 .f32) (x1 : Vec F S1024x32 .f32) (x2 : Vec F S1024x8 .f32) (xs0 : Vec F S2048x8 .f32) (xs1 : Vec F S2048x1 .f32)
    (v : View sig .tc .vmem S2048x8 .f32) (f : v.ty.Contents (Elt F)) :
    v.read (Elt F) (v.writes (Elt F) f (kernelRun2_C c i arg2 harg2 arg3 harg3 arg4 harg4 arg5 harg5 arg6 harg6 arg7 harg7 hc0 hc1 x0 x1 x2 xs0 xs1).2.1) = accB x0 x1 x2 xs0 := by
  unfold kernelRun2_C
  dsimp only
  sl_unfold_words
  rw [View.read_writes_eq_canon _ _ _ (fun y => ⟨_, List.mem_cons_self, View.mem_set_unit_zero hz inb_S2048x8_S2048x8_0_0 y⟩)]
  rw [View.canon_cons_unit_zero hz]
  simp only [View.readCov_unit_zero (S := S2048x8) _ hz, View.readCov_unit_zero (S := S2048x1) _ hz, View.readAt_eq_ld, Memref.IsWhole.read_unread, View.ld_unit_zero (S := S2048x32) hz, View.ld_unit_zero (S := S1024x32) hz, View.ld_unit_zero (S := S1024x8) hz, View.ld_unit_zero (S := S2048x8) hz, View.ld_unit_zero (S := S2048x1) hz]
  try rfl

theorem pieceC_1 (c : Dev nD) (i : grid2.Coords) (arg2 : Memref sig .tc .vmem S2048x32 .f32) (harg2 : arg2.IsWhole) (arg3 : Memref sig .tc .vmem S1024x32 .f32) (harg3 : arg3.IsWhole) (arg4 : Memref sig .tc .vmem S1024x8 .f32) (harg4 : arg4.IsWhole) (arg5 : Memref sig .tc .vmem S2048x8 .f32) (harg5 : arg5.IsWhole) (arg6 : Memref sig .tc .vmem S2048x8 .f32) (harg6 : arg6.IsWhole) (arg7 : Memref sig .tc .vmem S2048x1 .f32) (harg7 : arg7.IsWhole) (hc0 : ¬cond2_0 i) (hc1 : cond2_1 i)
    (x0 : Vec F S2048x32 .f32) (x1 : Vec F S1024x32 .f32) (x2 : Vec F S1024x8 .f32) (xs0 : Vec F S2048x8 .f32) (xs1 : Vec F S2048x1 .f32)
    (v : View sig .tc .vmem S2048x1 .f32) (f : v.ty.Contents (Elt F)) :
    v.read (Elt F) (v.writes (Elt F) f (kernelRun2_C c i arg2 harg2 arg3 harg3 arg4 harg4 arg5 harg5 arg6 harg6 arg7 harg7 hc0 hc1 x0 x1 x2 xs0 xs1).2.2.1) = lB x0 x1 xs1 := by
  unfold kernelRun2_C
  dsimp only
  sl_unfold_words
  rw [View.read_writes_eq_canon _ _ _ (fun y => ⟨_, List.mem_cons_self, View.mem_set_unit_zero hz inb_S2048x1_S2048x1_0_0 y⟩)]
  rw [View.canon_cons_unit_zero hz]
  simp only [View.readCov_unit_zero (S := S2048x8) _ hz, View.readCov_unit_zero (S := S2048x1) _ hz, View.readAt_eq_ld, Memref.IsWhole.read_unread, View.ld_unit_zero (S := S2048x32) hz, View.ld_unit_zero (S := S1024x32) hz, View.ld_unit_zero (S := S1024x8) hz, View.ld_unit_zero (S := S2048x8) hz, View.ld_unit_zero (S := S2048x1) hz]
  try rfl

variable (V : (c : Dev nD) → (b : Ref sig .tc) → Buf (Elt F) ((c : Thread nD τ).loc b))

/-! ## The contents point by point -/

/-- A value for the output's staging buffer at the points that do not store into it (never consulted). -/
def junk3 : Vec F S2048x8 .f32 := VO2_3.read (Elt F) VO2_3.junk

/-- What the output's staging buffer and the two running sums hold after the body at position `n`: a first point
    (n ≡ 0 mod 8) starts the sums from zero, a later one continues from what position n − 1 left, a last one
    (n ≡ 7 mod 8) also stores the quotient. -/
def outsAt2 (c : Dev nD) : (n : ℕ) → n < cfg2.N → Vec F S2048x8 .f32 × Vec F S2048x8 .f32 × Vec F S2048x1 .f32
  | 0, hn => (junk3, accA (iblk2 V c 0 ⟨0, hn⟩) (iblk2 V c 1 ⟨0, hn⟩) (iblk2 V c 2 ⟨0, hn⟩), lA (iblk2 V c 0 ⟨0, hn⟩) (iblk2 V c 1 ⟨0, hn⟩))
  | n + 1, hn =>
    if (n + 1) % 8 = 0 then
      (junk3, accA (iblk2 V c 0 ⟨n + 1, hn⟩) (iblk2 V c 1 ⟨n + 1, hn⟩) (iblk2 V c 2 ⟨n + 1, hn⟩), lA (iblk2 V c 0 ⟨n + 1, hn⟩) (iblk2 V c 1 ⟨n + 1, hn⟩))
    else
      ((if (n + 1) % 8 = 7 then outC (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2 else junk3),
        accB (iblk2 V c 0 ⟨n + 1, hn⟩) (iblk2 V c 1 ⟨n + 1, hn⟩) (iblk2 V c 2 ⟨n + 1, hn⟩) (outsAt2 c n (Nat.lt_of_succ_lt hn)).2.1,
        lB (iblk2 V c 0 ⟨n + 1, hn⟩) (iblk2 V c 1 ⟨n + 1, hn⟩) (outsAt2 c n (Nat.lt_of_succ_lt hn)).2.2)

theorem outsAt2_first (c : Dev nD) (t : Fin cfg2.N) (h0 : t.val % 8 = 0) :
    outsAt2 V c t.val t.isLt = (junk3, accA (iblk2 V c 0 t) (iblk2 V c 1 t) (iblk2 V c 2 t), lA (iblk2 V c 0 t) (iblk2 V c 1 t)) := by
  obtain ⟨n, hn⟩ := t
  cases n with
  | zero => rfl
  | succ n => exact if_pos h0

theorem outsAt2_later (c : Dev nD) (t : Fin cfg2.N) (h0 : ¬t.val % 8 = 0) :
    outsAt2 V c t.val t.isLt = ((if t.val % 8 = 7 then outC (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2 else junk3),
      accB (iblk2 V c 0 t) (iblk2 V c 1 t) (iblk2 V c 2 t) (outsAt2 V c (t.val - 1) (Nat.lt_of_le_of_lt (Nat.sub_le _ _) t.isLt)).2.1,
      lB (iblk2 V c 0 t) (iblk2 V c 1 t) (outsAt2 V c (t.val - 1) (Nat.lt_of_le_of_lt (Nat.sub_le _ _) t.isLt)).2.2) := by
  obtain ⟨n, hn⟩ := t
  cases n with
  | zero => exact absurd (Nat.zero_mod _) h0
  | succ n => exact if_neg h0

/-- The region's invariant before position `n`: at entry the scoped rest at anything; afterwards the two running sums'
    scratch buffers at what position n − 1 left, the other scoped buffers at anything, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.1 ∗ owns (c : Thread nD τ) scM2_1 fullShare (outsAt2 V c n hn).2.2) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare (outsAt2 V c n hn).2.1 ∗ owns (c : Thread nD τ) scM2_1 fullShare (outsAt2 V c n hn).2.2) ∗ others2 c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.1 ∗ owns (c : Thread nD τ) scM2_1 fullShare (outsAt2 V c (n - 1) (by omega)).2.2) ∗ others2 c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 8000000 in
/-- The body at any point: the inputs' memrefs hold their blocks; the position modulo 8 says which kind of point it
    is; the invariant hands the body the two running sums at what the point before left (at anything at the very first
    point) and takes them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0,
    show (dat2 V c).leavesExact 1 t = owns (c : Thread nD τ) (ms2_1 t) fullShare ((dat2 V c).after 1 t) from by
      unfold Dat.leavesExact; rw [liveAt2_1 t], after2_1,
    show (dat2 V c).leavesExact 2 t = owns (c : Thread nD τ) (ms2_2 t) fullShare ((dat2 V c).after 2 t) from by
      unfold Dat.leavesExact; rw [liveAt2_2 t], after2_2]
  have hN : t.val < 32 := lt_of_lt_of_eq t.isLt (show cfg2.N = 32 from N_2)
  by_cases h0 : t.val % 8 = 0
  · -- a first point
    have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1)]
    rw [outsAt2_first V c t h0]
    dsimp only
    by_cases hz : t.val = 0
    · rw [PhiS2_castSucc V c t, PhiS2_zero V c _ _ hz, PhiA2_eq]
      iintro ⟨⟨⟨⟨HS0, HS1⟩, Hoth⟩, Hg⟩, Ho, ⟨%d0, H0⟩, ⟨%d1, H1⟩, ⟨%d2, H2⟩, ⟨%d3, H3⟩⟩
      iapply ((kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact pieceA_0 c _ _ _ _ _ _ _ _ _ _ _ _ _ hc0 hc1 _ _ _ _ _
            · unfold owns; iexists _; isplitr
              swap; · iexact HS1
              ipureintro; exact pieceA_1 c _ _ _ _ _ _ _ _ _ _ _ _ _ hc0 hc1 _ _ _ _ _
          iexact Hoth
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨⟨HS0, HS1⟩, Hoth⟩, Hg⟩, Ho, ⟨%d0, H0⟩, ⟨%d1, H1⟩, ⟨%d2, H2⟩, ⟨%d3, H3⟩⟩
      iapply ((kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact pieceA_0 c _ _ _ _ _ _ _ _ _ _ _ _ _ hc0 hc1 _ _ _ _ _
            · unfold owns; iexists _; isplitr
              swap; · iexact HS1
              ipureintro; exact pieceA_1 c _ _ _ _ _ _ _ _ _ _ _ _ _ hc0 hc1 _ _ _ _ _
          iexact Hoth
        iexact Hg
      isplitl [Ho]; · iexact Ho
      isplitl [H0]; · iexact H0
      isplitl [H1]; · iexact H1
      isplitl [H2]; · iexact H2
      iexists _; iexact H3
  · have hc0 : ¬cond2_0 (grid2.coords t) := fun h => h0 ((hcond2_0 t).mp h)
    have hz : t.val ≠ 0 := fun h => h0 (by rw [h])
    rw [PhiS2_castSucc V c t, PhiS2_pos V c _ _ hz]
    rw [outsAt2_later V c t h0]
    by_cases h7 : t.val % 8 = 7
    · -- a last point
      have hc1 : cond2_1 (grid2.coords t) := (hcond2_1 t).mpr h7
      rw [show (dat2 V c).leavesExact 3 t = owns (c : Thread nD τ) (ms2_3 t) fullShare ((dat2 V c).after 3 t) from by
        unfold Dat.leavesExact; rw [liveAt2_3 t hc1], after2_3, outsAt2_later V c t h0]
      simp only [if_pos h7]
      iintro ⟨⟨⟨⟨HS0, HS1⟩, Hoth⟩, Hg⟩, Ho, ⟨%d0, H0⟩, ⟨%d1, H1⟩, ⟨%d2, H2⟩, ⟨%d3, H3⟩⟩
      iapply ((kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) hc0 hc1 (iblk2 V c 0 t) (iblk2 V c 1 t) (iblk2 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact pieceC_0 c _ _ _ _ _ _ _ _ _ _ _ _ _ hc0 hc1 _ _ _ _ _ _ _
            · unfold owns; iexists _; isplitr
              swap; · iexact HS1
              ipureintro; exact pieceC_1 c _ _ _ _ _ _ _ _ _ _ _ _ _ hc0 hc1 _ _ _ _ _ _ _
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact pieceC_3 c _ _ _ _ _ _ _ _ _ _ _ _ _ hc0 hc1 _ _ _ _ _ _ _
    · -- a middle point
      have hc1 : ¬cond2_1 (grid2.coords t) := fun h => h7 ((hcond2_1 t).mp h)
      rw [Dat.leavesExact_idle (dat2 V c) 3 t (idleAt2_3 t hc1) (noFlush2_3 t hc1)]
      dsimp only
      iintro ⟨⟨⟨⟨HS0, HS1⟩, Hoth⟩, Hg⟩, Ho, ⟨%d0, H0⟩, ⟨%d1, H1⟩, ⟨%d2, H2⟩, ⟨%d3, H3⟩⟩
      iapply ((kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) hc0 hc1 (iblk2 V c 0 t) (iblk2 V c 1 t) (iblk2 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact pieceB_0 c _ _ _ _ _ _ _ _ _ _ _ _ _ hc0 hc1 _ _ _ _ _ _ _
            · unfold owns; iexists _; isplitr
              swap; · iexact HS1
              ipureintro; exact pieceB_1 c _ _ _ _ _ _ _ _ _ _ _ _ _ hc0 hc1 _ _ _ _ _ _ _
          iexact Hoth
        iexact Hg
      isplitl [Ho]; · iexact Ho
      isplitl [H0]; · iexact H0
      isplitl [H1]; · iexact H1
      isplitl [H2]; · iexact H2
      iexists _; iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the entry invariant back: the running sums' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨⟨HS0, HS1⟩, Hoth⟩, Hg⟩
  isplitl [HS0 HS1 Hoth]
  · isplitl [HS0 HS1]
    · isplitl [HS0]
      · iexists _; iexact HS0
      · iexists _; iexact HS1
    iexact Hoth
  iexact Hg

end Cert.KernelIdeal.Hand

end
-- ==== Proof.KI.Run.lean ====
/-
  The whole run: the three regions in @main's order, each entered from the buffers' contents the one before left.
  The result: every weakly fair execution terminates without a fault, and afterwards every unscoped buffer holds what
  the fold through the three regions says (`W3`): the arguments untouched, each region's output array at what its
  pipeline's write-backs leave.
-/
import proofs.«146112_j85014582657267_2_alg».proof.Proof.Gen.KernelIdeal.Launch
import proofs.«146112_j85014582657267_2_alg».proof.Proof.Gen.KernelIdeal.Skeleton
import proofs.«146112_j85014582657267_2_alg».proof.Proof.Gen.KernelIdeal.Points
import proofs.«146112_j85014582657267_2_alg».proof.Proof.KI.R0
import proofs.«146112_j85014582657267_2_alg».proof.Proof.KI.R1
import proofs.«146112_j85014582657267_2_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what the pipeline leaves (the inputs as entered, the output's write-backs folded),
    every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what the pipeline leaves (the inputs as entered, the output's write-backs folded),
    every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what the pipeline leaves (the inputs as entered, the output's write-backs folded),
    every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
abbrev L : GSem nD τ sig → Finset Unit := fun _ => ∅
abbrev lv : GSem nD τ sig → Unit → ℕ := fun _ _ => 0
/-- What rides beside the buffers through every region: the generator register at some state and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Region 0 over the thread state "every unscoped buffer at the boundary's contents, the generator register at some
    state, nothing owed": its arrays split out of the unscoped buffers and put back at what the pipeline leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers and put back at what the pipeline leaves. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays split out of the unscoped buffers and put back at what the pipeline leaves. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V2 m ρ) c).Φ 0 from rfl]
    have h := hin2 (V2 m ρ) c
    unfold Pipeline.ΦA at h
    iintro ⟨Hp, -, Hr⟩
    iapply h
    isplitl [Hr]; · iexact Hr
    iexact Hp
  hout c := by
    rw [Pipeline.ownSems0_none, show (pdats m ρ 2 c).Φ (Fin.last _) = (dat2 (V2 m ρ) c).Φ (Fin.last cfg2.N) from rfl]
    have h := hout2 (V2 m ρ) c
    unfold Pipeline.ΦA at h
    iintro Hq
    ihave Hq2 := h $$ Hq
    icases Hq2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ), .region (reg1 m ρ), .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Hand

end
-- ==== Proof.KI.FrameMain.lean ====
/-
  The arguments after the whole run. The fold of the buffers' contents through the three regions, read at an
  argument's buffer, walks back to the launch memory: a region either does not stage the array, or stages it as
  an input window, whose array is never written back. With the run this gives the frame statement: every weakly
  fair execution terminates and leaves the nine argument arrays as they were.
-/
import proofs.«146112_j85014582657267_2_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-! ## Each argument's buffer at the end of the fold -/

/-- The first input: region 0 reads it through an input window, regions 1 and 2 do not stage it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The second input: region 1 reads it through an input window, regions 0 and 2 do not stage it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

/-- The targets: region 2 reads them through an input window, regions 0 and 1 do not stage them. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 2).trans (((dat2 (V2 m ρ) c).arrAt_in 2 rfl _).trans (A_eq2 (V2 m ρ) c 2))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- The first weight matrix: regions 0 and 1 read it whole through an input window, region 2 does not stage it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 1).trans (((dat1 (V1 m ρ) c).arrAt_in 1 rfl _).trans (A_eq1 (V1 m ρ) c 1))
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl

/-- The first bias: regions 0 and 1 read it whole through an input window, region 2 does not stage it. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 2).trans (((dat1 (V1 m ρ) c).arrAt_in 2 rfl _).trans (A_eq1 (V1 m ρ) c 2))
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl

/-- The second weight matrix: regions 0 and 1 read it whole through an input window, region 2 does not stage it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 3).trans (((dat1 (V1 m ρ) c).arrAt_in 3 rfl _).trans (A_eq1 (V1 m ρ) c 3))
    _ = W0 m ρ c (Proc.devRef .tc main_arg5) := (W1_arr m ρ c 3).trans (((dat0 (V0 m ρ) c).arrAt_in 3 rfl _).trans (A_eq0 (V0 m ρ) c 3))
    _ = m ((c : Thread nD τ).loc main_arg5) := rfl

/-- The second bias: regions 0 and 1 read it whole through an input window, region 2 does not stage it. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 4).trans (((dat1 (V1 m ρ) c).arrAt_in 4 rfl _).trans (A_eq1 (V1 m ρ) c 4))
    _ = W0 m ρ c (Proc.devRef .tc main_arg6) := (W1_arr m ρ c 4).trans (((dat0 (V0 m ρ) c).arrAt_in 4 rfl _).trans (A_eq0 (V0 m ρ) c 4))
    _ = m ((c : Thread nD τ).loc main_arg6) := rfl

/-- The third weight matrix: regions 0 and 1 read it whole through an input window, region 2 does not stage it. -/
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 5).trans (((dat1 (V1 m ρ) c).arrAt_in 5 rfl _).trans (A_eq1 (V1 m ρ) c 5))
    _ = W0 m ρ c (Proc.devRef .tc main_arg7) := (W1_arr m ρ c 5).trans (((dat0 (V0 m ρ) c).arrAt_in 5 rfl _).trans (A_eq0 (V0 m ρ) c 5))
    _ = m ((c : Thread nD τ).loc main_arg7) := rfl

/-- The third bias: regions 0 and 1 read it whole through an input window, region 2 does not stage it. -/
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := (W2_arr m ρ c 6).trans (((dat1 (V1 m ρ) c).arrAt_in 6 rfl _).trans (A_eq1 (V1 m ρ) c 6))
    _ = W0 m ρ c (Proc.devRef .tc main_arg8) := (W1_arr m ρ c 6).trans (((dat0 (V0 m ρ) c).arrAt_in 6 rfl _).trans (A_eq0 (V0 m ρ) c 6))
    _ = m ((c : Thread nD τ).loc main_arg8) := rfl

/-! ## The frame statement -/

/-- Every weakly fair execution terminates without a fault and leaves the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c)⟩)
    (run_all m ρ)

end Cert.KernelIdeal.Hand

end
-- ==== Proof.Spec.lean ====
/-
  The mathematics of the certificate, with no program in sight.

  Both programs first send every row of X and of Y through the same three dense layers with a relu after each
  (`mlp`), giving feature rows x_i and y_j of length 32. The kernel then weighs y_j for x_i by
  `kw x y = exp (x·y - (1/2)·|y|²)`, sums the weights and the weighted target rows block by block over eight
  blocks of 1024 rows of Y (`accum`), and divides the two sums at the end (`kerOut`). The reference weighs by
  `refw x y = exp (-(max (|x|² + |y|² - 2 x·y) 0) / 2)`, divides each weight by the row's total and then sums the
  weighted targets (`refOut`). Since |x|² + |y|² - 2 x·y = |x - y|² ≥ 0 the clamp never acts and
  `refw x y = exp (-|x|²/2) · kw x y`: the factor `exp (-|x|²/2)` is positive, does not depend on j, and cancels in
  the quotient. That identity needs every entry to be a real number, which is what the precondition gives.
-/
import Idealize.ShloMosaic.PureOps.Ideal
import Idealize.ShloMosaic.Lib.ValueIdx

noncomputable section

namespace Cert.Attn

open Idealize.ShloMosaic

/-- One dense layer followed by a relu, on one row: `max (x·W + b) 0`. -/
def dense {K N : ℕ} (x : Fin K → EReal) (W : Fin K → Fin N → EReal) (b : Fin N → EReal) (n : Fin N) : EReal :=
  max ((∑ k : Fin K, x k * W k n) + b n) 0

/-- The three layers. -/
def mlp (W1 : Fin 64 → Fin 32 → EReal) (b1 : Fin 32 → EReal) (W2 : Fin 32 → Fin 32 → EReal) (b2 : Fin 32 → EReal)
    (W3 : Fin 32 → Fin 32 → EReal) (b3 : Fin 32 → EReal) (x : Fin 64 → EReal) : Fin 32 → EReal :=
  dense (dense (dense x W1 b1) W2 b2) W3 b3

/-- The kernel's weight of feature row `y` for feature row `x`: `exp (x·y - (1/2)·|y|²)`. -/
def kw (x y : Fin 32 → EReal) : EReal :=
  Ideal.exp ((∑ h : Fin 32, x h * y h) - ((1 / 2 : ℝ) : EReal) * (∑ h : Fin 32, y h * y h))

/-- Row `q` of block `J` of the 8192 rows of Y (eight blocks of 1024 rows). -/
def blkIdx (J : ℕ) (q : Fin 1024) : Fin 8192 :=
  ⟨(J % 8) * 1024 + q.val, by have := q.isLt; have := Nat.mod_lt J (show 8 > 0 by norm_num); omega⟩

/-- A running sum that starts from zero at block 0 and adds one block's contribution per step. -/
def accum (S : ℕ → EReal) : ℕ → EReal
  | 0 => 0 + S 0
  | n + 1 => accum S n + S (n + 1)

/-- The kernel's result for feature row `x` at target column `t`: the weighted targets' running sum over the
    eight blocks divided by the weights' running sum. -/
def kerOut (x : Fin 32 → EReal) (yf : Fin 8192 → Fin 32 → EReal) (yt : Fin 8192 → Fin 8 → EReal) (t : Fin 8) : EReal :=
  Ideal.div (accum (fun J => ∑ q : Fin 1024, kw x (yf (blkIdx J q)) * yt (blkIdx J q) t) 7)
    (accum (fun J => ∑ q : Fin 1024, kw x (yf (blkIdx J q))) 7)

/-- The reference's weight: `exp (-(max (|x|² + |y|² - 2 x·y) 0) / 2)`. -/
def refw (x y : Fin 32 → EReal) : EReal :=
  Ideal.exp (Ideal.div (-(max (((0 + ∑ h : Fin 32, x h * x h) + (0 + ∑ h : Fin 32, y h * y h))
    - ((2 : ℝ) : EReal) * (∑ h : Fin 32, x h * y h)) 0)) ((2 : ℝ) : EReal))

/-- The reference's result: each weight divided by the row's total, times the target, summed over all rows of Y. -/
def refOut (x : Fin 32 → EReal) (yf : Fin 8192 → Fin 32 → EReal) (yt : Fin 8192 → Fin 8 → EReal) (t : Fin 8) : EReal :=
  ∑ j : Fin 8192, Ideal.div (refw x (yf j)) (0 + ∑ j' : Fin 8192, refw x (yf j')) * yt j t

/-- The whole function of the nine argument arrays, read through row functions. -/
def G (X Y : Fin 8192 → Fin 64 → EReal) (Yt : Fin 8192 → Fin 8 → EReal)
    (W1 : Fin 64 → Fin 32 → EReal) (b1 : Fin 32 → EReal) (W2 : Fin 32 → Fin 32 → EReal) (b2 : Fin 32 → EReal)
    (W3 : Fin 32 → Fin 32 → EReal) (b3 : Fin 32 → EReal) (i : Fin 8192) (t : Fin 8) : EReal :=
  kerOut (mlp W1 b1 W2 b2 W3 b3 (X i)) (fun j => mlp W1 b1 W2 b2 W3 b3 (Y j)) Yt t

/-- The same with the reference's arrangement. -/
def Gref (X Y : Fin 8192 → Fin 64 → EReal) (Yt : Fin 8192 → Fin 8 → EReal)
    (W1 : Fin 64 → Fin 32 → EReal) (b1 : Fin 32 → EReal) (W2 : Fin 32 → Fin 32 → EReal) (b2 : Fin 32 → EReal)
    (W3 : Fin 32 → Fin 32 → EReal) (b3 : Fin 32 → EReal) (i : Fin 8192) (t : Fin 8) : EReal :=
  refOut (mlp W1 b1 W2 b2 W3 b3 (X i)) (fun j => mlp W1 b1 W2 b2 W3 b3 (Y j)) Yt t

end Cert.Attn

end
-- ==== Proof.Consts.lean ====
/-
  The float constants the two programs spell, as the extended reals their bit patterns denote: one half and two
  in single precision, and one in the sixteen-bit brain format. One module states them all, so that the unfolding
  of the pattern reader happens in a single place.
-/
import Idealize.ShloMosaic.PureOps.Ideal

noncomputable section

namespace Cert.Attn.Consts

open Idealize.ShloMosaic

/-- The single-precision pattern of `0.5` denotes the real `1/2`. -/
theorem ofBits_half : Ideal.ofBits .f32 0x3F000000#32 = ((1 / 2 : ℝ) : EReal) := by
  simp [Ideal.ofBits, Ideal.ieee, -EReal.coe_mul]; norm_num

/-- The single-precision pattern of `2.0` denotes the real `2`. -/
theorem ofBits_two : Ideal.ofBits .f32 0x40000000#32 = ((2 : ℝ) : EReal) := by
  simp [Ideal.ofBits, Ideal.ieee, -EReal.coe_mul]; norm_num

/-- The sixteen-bit pattern of `1.0` denotes `1`. -/
theorem ofBits_bf16_one : Ideal.ofBits .bf16 0x3F80#16 = 1 := by
  simp [Ideal.ofBits, Ideal.ieee, -EReal.coe_mul]; norm_num

end Cert.Attn.Consts

end
-- ==== Proof.KI.MlpValue.lean ====
/-
  The perceptron block, read entry by entry. Each of the two launches of the perceptron hands its body one block of
  2048 input rows and the six parameter arrays whole, and the body stores the 2048 × 32 block of features. Here that
  stored block at row `p` and column `n` is shown to be the three-layer function `Cert.Attn.mlp` of row `p` of
  the input block, at `n`.

  One layer is: a change of number format (which does nothing to an extended real), the matrix product into a zero
  accumulator, the bias row added to every row, and the maximum with zero. At an entry the matrix product is the sum
  over the one contracted coordinate of the products of the two operands' entries; the bias row, first given a
  leading axis of length one and then repeated down the rows, is at `(p, n)` the bias at `n`; and the pattern of
  zero denotes `0`. So a layer at `(p, n)` is `max (∑ k, a p k * w k n + b n) 0`, which is `Cert.Attn.dense` of
  row `p`. The second and third layers take the previous layer's whole block as their input, so its row `p` is,
  column by column, the previous `dense`.
-/
import proofs.«146112_j85014582657267_2_alg».proof.Proof.KI.R0
import proofs.«146112_j85014582657267_2_alg».proof.Proof.KI.R1
import proofs.«146112_j85014582657267_2_alg».proof.Proof.Spec
import proofs.«146112_j85014582657267_2_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-- The dimension numbers of the first layer's product: [2048, 64] times [64, 32], contracting the 64. -/
abbrev D64 : DotDims S2048x64 S64x32 S2048x32 := dot_S2048x64_S64x32_S2048x32_1_0_0_1_n_n
/-- The dimension numbers of the second and third layers' product: [2048, 32] times [32, 32], contracting the first 32. -/
abbrev D32 : DotDims S2048x32 S32x32 S2048x32 := dot_S2048x32_S32x32_S2048x32_1_0_0_1_n_n

/-- The offsets of a whole-array rectangle of rank two are zero on every axis. -/
theorem zeros2 : (![0, 0] : Fin 2 → Nat) = fun _ => 0 := funext fun a => by fin_cases a <;> rfl
/-- The same at rank one. -/
theorem zeros1 : (![0] : Fin 1 → Nat) = fun _ => 0 := funext fun a => by fin_cases a; rfl

/-- The bias row [32], given a leading axis of length one and then repeated down 2048 rows, is at `(p, n)` the bias at `n`. -/
theorem bias_apply {α : Type} (b : S32.Idx → α) (p : Fin 2048) (n : Fin 32) :
    broadcastTo S2048x32 (shapeCast S1x32 b shapeCasts_S32_S1x32) broadcasts_S1x32_S2048x32 (ix2 p n) = b (ix1 n) := by
  refine (broadcastTo_apply _ broadcasts_S1x32_S2048x32 (ix2 p n) (ix2 (0 : Fin 1) n) (fun a => ?_)).trans ?_
  · match a with
    | ⟨0, _⟩ => rfl
    | ⟨1, _⟩ => rfl
  · refine (shapeCast_addUnit_apply ![32] b shapeCasts_S32_S1x32 (ix2 (0 : Fin 1) n)).trans ?_
    exact congrArg b (funext fun a => match a with | ⟨0, _⟩ => rfl)

/-! ### The first layer's product: where its operands are read

At result index `i` and contraction index `q` the left operand is read at (row of `i`, `q`) and the right at (`q`, column of `i`). -/

theorem lhs64_0 (i : S2048x32.Idx) (q : D64.contr.Idx) : (D64.lhsIdx i q 0).val = (i 0).val := by
  unfold DotDims.lhsIdx
  rw [dif_neg (show ¬(0 : Fin S2048x64.rank) ∈ D64.lhsBatch by decide), dif_pos (show (0 : Fin S2048x64.rank) ∈ D64.lhsNonContracting by decide)]
  rfl
theorem lhs64_1 (i : S2048x32.Idx) (q : D64.contr.Idx) : (D64.lhsIdx i q 1).val = (q ⟨0, by decide⟩).val :=
  D64.lhsIdx_val_of_single rfl i q
theorem rhs64_0 (i : S2048x32.Idx) (q : D64.contr.Idx) : (D64.rhsIdx i q 0).val = (q ⟨0, by decide⟩).val :=
  D64.rhsIdx_val_of_single rfl i q
theorem rhs64_1 (i : S2048x32.Idx) (q : D64.contr.Idx) : (D64.rhsIdx i q 1).val = (i 1).val := by
  unfold DotDims.rhsIdx
  rw [dif_neg (show ¬(1 : Fin S64x32.rank) ∈ D64.rhsBatch by decide), dif_pos (show (1 : Fin S64x32.rank) ∈ D64.rhsNonContracting by decide)]
  rfl

/-- The first layer's product into a zero accumulator, at `(p, n)`: the sum over the 64 contracted positions. -/
theorem matmul64_apply (a : FVec Ideal S2048x64 .bf16) (w : FVec Ideal S64x32 .bf16) (p : Fin 2048) (n : Fin 32) :
    matmul D64 none a w (constant (F := Ideal) S2048x32 .f32 0x00000000#32) (ix2 p n)
      = ∑ k : Fin 64, a (ix2 p k) * w (ix2 k n) := by
  refine (Ideal.matmul_constant_zero_apply D64 none a w (ix2 p n)).trans ?_
  rw [← Equiv.sum_comp (contrEquiv1 D64 64 rfl rfl).symm]
  refine Finset.sum_congr rfl fun k _ => ?_
  have hk := contrEquiv1_symm_val D64 64 rfl rfl k
  have el : D64.lhsIdx (ix2 p n) ((contrEquiv1 D64 64 rfl rfl).symm k) = ix2 p k := funext fun a => Fin.ext (by
    match a with
    | ⟨0, _⟩ => exact lhs64_0 _ _
    | ⟨1, _⟩ => exact (lhs64_1 _ _).trans hk)
  have er : D64.rhsIdx (ix2 p n) ((contrEquiv1 D64 64 rfl rfl).symm k) = ix2 k n := funext fun a => Fin.ext (by
    match a with
    | ⟨0, _⟩ => exact (rhs64_0 _ _).trans hk
    | ⟨1, _⟩ => exact rhs64_1 _ _)
  rw [el, er]

/-! ### The later layers' product: the same facts for the 32-wide contraction -/

theorem lhs32_0 (i : S2048x32.Idx) (q : D32.contr.Idx) : (D32.lhsIdx i q 0).val = (i 0).val := by
  unfold DotDims.lhsIdx
  rw [dif_neg (show ¬(0 : Fin S2048x32.rank) ∈ D32.lhsBatch by decide), dif_pos (show (0 : Fin S2048x32.rank) ∈ D32.lhsNonContracting by decide)]
  rfl
theorem lhs32_1 (i : S2048x32.Idx) (q : D32.contr.Idx) : (D32.lhsIdx i q 1).val = (q ⟨0, by decide⟩).val :=
  D32.lhsIdx_val_of_single rfl i q
theorem rhs32_0 (i : S2048x32.Idx) (q : D32.contr.Idx) : (D32.rhsIdx i q 0).val = (q ⟨0, by decide⟩).val :=
  D32.rhsIdx_val_of_single rfl i q
theorem rhs32_1 (i : S2048x32.Idx) (q : D32.contr.Idx) : (D32.rhsIdx i q 1).val = (i 1).val := by
  unfold DotDims.rhsIdx
  rw [dif_neg (show ¬(1 : Fin S32x32.rank) ∈ D32.rhsBatch by decide), dif_pos (show (1 : Fin S32x32.rank) ∈ D32.rhsNonContracting by decide)]
  rfl

/-- The later layers' product into a zero accumulator, at `(p, n)`: the sum over the 32 contracted positions. -/
theorem matmul32_apply (a : FVec Ideal S2048x32 .bf16) (w : FVec Ideal S32x32 .bf16) (p : Fin 2048) (n : Fin 32) :
    matmul D32 none a w (constant (F := Ideal) S2048x32 .f32 0x00000000#32) (ix2 p n)
      = ∑ k : Fin 32, a (ix2 p k) * w (ix2 k n) := by
  refine (Ideal.matmul_constant_zero_apply D32 none a w (ix2 p n)).trans ?_
  rw [← Equiv.sum_comp (contrEquiv1 D32 32 rfl rfl).symm]
  refine Finset.sum_congr rfl fun k _ => ?_
  have hk := contrEquiv1_symm_val D32 32 rfl rfl k
  have el : D32.lhsIdx (ix2 p n) ((contrEquiv1 D32 32 rfl rfl).symm k) = ix2 p k := funext fun a => Fin.ext (by
    match a with
    | ⟨0, _⟩ => exact lhs32_0 _ _
    | ⟨1, _⟩ => exact (lhs32_1 _ _).trans hk)
  have er : D32.rhsIdx (ix2 p n) ((contrEquiv1 D32 32 rfl rfl).symm k) = ix2 k n := funext fun a => Fin.ext (by
    match a with
    | ⟨0, _⟩ => exact (rhs32_0 _ _).trans hk
    | ⟨1, _⟩ => exact rhs32_1 _ _)
  rw [el, er]

/-- The first layer at `(p, n)` is `dense` of row `p` of its input: `max (∑ k, a p k * w k n + b n) 0`. -/
theorem layer64_apply (a : FVec Ideal S2048x64 .f32) (w : FVec Ideal S64x32 .f32) (b : FVec Ideal S32 .f32) (p : Fin 2048) (n : Fin 32) :
    maximumf (addf (matmul D64 none (truncf .bf16 a bitsLt_bf16_f32) (truncf .bf16 w bitsLt_bf16_f32) (constant (F := Ideal) S2048x32 .f32 0x00000000#32))
        (broadcastTo S2048x32 (shapeCast S1x32 b shapeCasts_S32_S1x32) broadcasts_S1x32_S2048x32))
      (broadcast S2048x32 (Scalar.ofBits (F := Ideal) .f32 0x00000000#32)) (ix2 p n)
    = Cert.Attn.dense (fun k => a (ix2 p k)) (fun k n => w (ix2 k n)) (fun n => b (ix1 n)) n := by
  rw [maximumf_apply, addf_apply, broadcast_apply, matmul64_apply, bias_apply]
  show max ((∑ k : Fin 64, a (ix2 p k) * w (ix2 k n)) + b (ix1 n)) (Ideal.ofBits .f32 0x00000000#32) = _
  rw [Ideal.ofBits_zero_f32]
  rfl

/-- A later layer at `(p, n)` is `dense` of row `p` of its input. -/
theorem layer32_apply (a : FVec Ideal S2048x32 .f32) (w : FVec Ideal S32x32 .f32) (b : FVec Ideal S32 .f32) (p : Fin 2048) (n : Fin 32) :
    maximumf (addf (matmul D32 none (truncf .bf16 a bitsLt_bf16_f32) (truncf .bf16 w bitsLt_bf16_f32) (constant (F := Ideal) S2048x32 .f32 0x00000000#32))
        (broadcastTo S2048x32 (shapeCast S1x32 b shapeCasts_S32_S1x32) broadcasts_S1x32_S2048x32))
      (broadcast S2048x32 (Scalar.ofBits (F := Ideal) .f32 0x00000000#32)) (ix2 p n)
    = Cert.Attn.dense (fun k => a (ix2 p k)) (fun k n => w (ix2 k n)) (fun n => b (ix1 n)) n := by
  rw [maximumf_apply, addf_apply, broadcast_apply, matmul32_apply, bias_apply]
  show max ((∑ k : Fin 32, a (ix2 p k) * w (ix2 k n)) + b (ix1 n)) (Ideal.ofBits .f32 0x00000000#32) = _
  rw [Ideal.ofBits_zero_f32]
  rfl

/-- The value the first launch's body stores, at `(p, n)`: the three layers of row `p`. The outer layer's input row is
    the middle layer's output row, and that one's is the first layer's, each column by column. -/
theorem pay0_apply (x0 : Vec Ideal S2048x64 .f32) (x1 : Vec Ideal S64x32 .f32) (x2 : Vec Ideal S32 .f32) (x3 : Vec Ideal S32x32 .f32)
    (x4 : Vec Ideal S32 .f32) (x5 : Vec Ideal S32x32 .f32) (x6 : Vec Ideal S32 .f32) (p : Fin 2048) (n : Fin 32) :
    k0_pay1 (F := Ideal) x0 x1 x2 x3 x4 x5 x6 (ix2 p n)
      = Cert.Attn.mlp (fun k n => x1 (ix2 k n)) (fun n => x2 (ix1 n)) (fun k n => x3 (ix2 k n)) (fun n => x4 (ix1 n))
          (fun k n => x5 (ix2 k n)) (fun n => x6 (ix1 n)) (fun k => x0 (ix2 p k)) n := by
  unfold k0_pay1 Cert.Attn.mlp
  refine (layer32_apply _ x5 x6 p n).trans ?_
  refine congrArg (fun r => Cert.Attn.dense r (fun k n => x5 (ix2 k n)) (fun n => x6 (ix1 n)) n) (funext fun k => ?_)
  refine (layer32_apply _ x3 x4 p k).trans ?_
  refine congrArg (fun r => Cert.Attn.dense r (fun k n => x3 (ix2 k n)) (fun n => x4 (ix1 n)) k) (funext fun k' => ?_)
  exact layer64_apply x0 x1 x2 p k'

/-- The first launch's output block at `(p, n)`. The one store covers the block and every load reads a whole array, so
    the block is the stored value of the blocks handed in. -/
theorem out0_7_apply (x0 : Vec Ideal S2048x64 .f32) (x1 : Vec Ideal S64x32 .f32) (x2 : Vec Ideal S32 .f32) (x3 : Vec Ideal S32x32 .f32)
    (x4 : Vec Ideal S32 .f32) (x5 : Vec Ideal S32x32 .f32) (x6 : Vec Ideal S32 .f32) (p : Fin 2048) (n : Fin 32) :
    out0_7 (F := Ideal) x0 x1 x2 x3 x4 x5 x6 (ix2 p n)
      = Cert.Attn.mlp (fun k n => x1 (ix2 k n)) (fun n => x2 (ix1 n)) (fun k n => x3 (ix2 k n)) (fun n => x4 (ix1 n))
          (fun k n => x5 (ix2 k n)) (fun n => x6 (ix1 n)) (fun k => x0 (ix2 p k)) n := by
  unfold out0_7
  rw [View.canon_unit_zero zeros2]
  simp only [View.ld_unit_zero (S := S2048x64) zeros2, View.ld_unit_zero (S := S64x32) zeros2, View.ld_unit_zero (S := S32x32) zeros2,
    View.ld_unit_zero (S := S32) zeros1]
  exact pay0_apply x0 x1 x2 x3 x4 x5 x6 p n

/-- The value the second launch's body stores, at `(p, n)`: the three layers of row `p`. The outer layer's input row is
    the middle layer's output row, and that one's is the first layer's, each column by column. -/
theorem pay1_apply (x0 : Vec Ideal S2048x64 .f32) (x1 : Vec Ideal S64x32 .f32) (x2 : Vec Ideal S32 .f32) (x3 : Vec Ideal S32x32 .f32)
    (x4 : Vec Ideal S32 .f32) (x5 : Vec Ideal S32x32 .f32) (x6 : Vec Ideal S32 .f32) (p : Fin 2048) (n : Fin 32) :
    k1_pay1 (F := Ideal) x0 x1 x2 x3 x4 x5 x6 (ix2 p n)
      = Cert.Attn.mlp (fun k n => x1 (ix2 k n)) (fun n => x2 (ix1 n)) (fun k n => x3 (ix2 k n)) (fun n => x4 (ix1 n))
          (fun k n => x5 (ix2 k n)) (fun n => x6 (ix1 n)) (fun k => x0 (ix2 p k)) n := by
  unfold k1_pay1 Cert.Attn.mlp
  refine (layer32_apply _ x5 x6 p n).trans ?_
  refine congrArg (fun r => Cert.Attn.dense r (fun k n => x5 (ix2 k n)) (fun n => x6 (ix1 n)) n) (funext fun k => ?_)
  refine (layer32_apply _ x3 x4 p k).trans ?_
  refine congrArg (fun r => Cert.Attn.dense r (fun k n => x3 (ix2 k n)) (fun n => x4 (ix1 n)) k) (funext fun k' => ?_)
  exact layer64_apply x0 x1 x2 p k'

/-- The second launch's output block at `(p, n)`. The one store covers the block and every load reads a whole array, so
    the block is the stored value of the blocks handed in. -/
theorem out1_7_apply (x0 : Vec Ideal S2048x64 .f32) (x1 : Vec Ideal S64x32 .f32) (x2 : Vec Ideal S32 .f32) (x3 : Vec Ideal S32x32 .f32)
    (x4 : Vec Ideal S32 .f32) (x5 : Vec Ideal S32x32 .f32) (x6 : Vec Ideal S32 .f32) (p : Fin 2048) (n : Fin 32) :
    out1_7 (F := Ideal) x0 x1 x2 x3 x4 x5 x6 (ix2 p n)
      = Cert.Attn.mlp (fun k n => x1 (ix2 k n)) (fun n => x2 (ix1 n)) (fun k n => x3 (ix2 k n)) (fun n => x4 (ix1 n))
          (fun k n => x5 (ix2 k n)) (fun n => x6 (ix1 n)) (fun k => x0 (ix2 p k)) n := by
  unfold out1_7
  rw [View.canon_unit_zero zeros2]
  simp only [View.ld_unit_zero (S := S2048x64) zeros2, View.ld_unit_zero (S := S64x32) zeros2, View.ld_unit_zero (S := S32x32) zeros2,
    View.ld_unit_zero (S := S32) zeros1]
  exact pay1_apply x0 x1 x2 x3 x4 x5 x6 p n

end Cert.KernelIdeal.Hand

end
-- ==== Proof.KI.MlpArray.lean ====
/-
  From blocks to the array for the two perceptron regions. Each of the four grid points of a region writes back the
  2048 by 32 block of features of its 2048 input rows; the parameter arrays are read whole at every point. The
  blocks tile the 8192 rows, so after the region the output array holds, row by row, the three layers applied to
  the corresponding input row.
-/
import proofs.«146112_j85014582657267_2_alg».proof.Proof.KI.R0
import proofs.«146112_j85014582657267_2_alg».proof.Proof.KI.R1
import proofs.«146112_j85014582657267_2_alg».proof.Proof.KI.MlpValue
import proofs.«146112_j85014582657267_2_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## Region 0 -/

/-- The printed index maps over the four points: the input's and the output's row block is the point's number, every
    other block index is zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The input block at point t is rows 2048·t … 2048·t + 2047 of the input array. -/
theorem blk0_0 (c : Dev nD) (t : Fin cfg0.N) (p : Fin 2048) (k : Fin 64) (i : Fin 8192) (hi : i.val = t.val * 2048 + p.val) :
    (iblk0 V c 0 t : Vec Ideal S2048x64 .f32) (ix2 p k) = (V c main_arg0 : S8192x64.Idx → EReal) (ix2 i k) := by
  obtain ⟨e0, e1, -⟩ := idx_facts0 t
  unfold iblk0
  rw [View.read_apply]
  show (V c main_arg0 : S8192x64.Idx → EReal) _ = _
  refine congrArg _ (funext fun a => Fin.ext ?_)
  match a with
  | ⟨0, _⟩ => show win0_0.index t (0 : Fin 2) * 2048 + 1 * p.val = i.val; rw [e0, hi]; omega
  | ⟨1, _⟩ => show win0_0.index t (1 : Fin 2) * 64 + 1 * k.val = k.val; rw [e1]; omega

/-- The first weight matrix is read whole at every point. -/
theorem blk0_1 (c : Dev nD) (t : Fin cfg0.N) :
    (iblk0 V c 1 t : Vec Ideal S64x32 .f32) = (V c main_arg3 : S64x32.Idx → EReal) := by
  obtain ⟨-, -, e0, e1, -⟩ := idx_facts0 t
  unfold iblk0
  funext y
  rw [View.read_apply]
  show (V c main_arg3 : S64x32.Idx → EReal) _ = _
  refine congrArg _ (funext fun a => Fin.ext ?_)
  match a with
  | ⟨0, _⟩ => show win0_1.index t (0 : Fin 2) * 64 + 1 * (y 0).val = (y 0).val; rw [e0]; omega
  | ⟨1, _⟩ => show win0_1.index t (1 : Fin 2) * 32 + 1 * (y 1).val = (y 1).val; rw [e1]; omega

/-- The first bias is read whole at every point. -/
theorem blk0_2 (c : Dev nD) (t : Fin cfg0.N) :
    (iblk0 V c 2 t : Vec Ideal S32 .f32) = (V c main_arg4 : S32.Idx → EReal) := by
  obtain ⟨-, -, -, -, e0, -⟩ := idx_facts0 t
  unfold iblk0
  funext y
  rw [View.read_apply]
  show (V c main_arg4 : S32.Idx → EReal) _ = _
  refine congrArg _ (funext fun a => Fin.ext ?_)
  match a with
  | ⟨0, _⟩ => show win0_2.index t (0 : Fin 1) * 32 + 1 * (y 0).val = (y 0).val; rw [e0]; omega

/-- The second weight matrix is read whole at every point. -/
theorem blk0_3 (c : Dev nD) (t : Fin cfg0.N) :
    (iblk0 V c 3 t : Vec Ideal S32x32 .f32) = (V c main_arg5 : S32x32.Idx → EReal) := by
  obtain ⟨-, -, -, -, -, e0, e1, -⟩ := idx_facts0 t
  unfold iblk0
  funext y
  rw [View.read_apply]
  show (V c main_arg5 : S32x32.Idx → EReal) _ = _
  refine congrArg _ (funext fun a => Fin.ext ?_)
  match a with
  | ⟨0, _⟩ => show win0_3.index t (0 : Fin 2) * 32 + 1 * (y 0).val = (y 0).val; rw [e0]; omega
  | ⟨1, _⟩ => show win0_3.index t (1 : Fin 2) * 32 + 1 * (y 1).val = (y 1).val; rw [e1]; omega

/-- The second bias is read whole at every point. -/
theorem blk0_4 (c : Dev nD) (t : Fin cfg0.N) :
    (iblk0 V c 4 t : Vec Ideal S32 .f32) = (V c main_arg6 : S32.Idx → EReal) := by
  obtain ⟨-, -, -, -, -, -, -, e0, -⟩ := idx_facts0 t
  unfold iblk0
  funext y
  rw [View.read_apply]
  show (V c main_arg6 : S32.Idx → EReal) _ = _
  refine congrArg _ (funext fun a => Fin.ext ?_)
  match a with
  | ⟨0, _⟩ => show win0_4.index t (0 : Fin 1) * 32 + 1 * (y 0).val = (y 0).val; rw [e0]; omega

/-- The third weight matrix is read whole at every point. -/
theorem blk0_5 (c : Dev nD) (t : Fin cfg0.N) :
    (iblk0 V c 5 t : Vec Ideal S32x32 .f32) = (V c main_arg7 : S32x32.Idx → EReal) := by
  obtain ⟨-, -, -, -, -, -, -, -, e0, e1, -⟩ := idx_facts0 t
  unfold iblk0
  funext y
  rw [View.read_apply]
  show (V c main_arg7 : S32x32.Idx → EReal) _ = _
  refine congrArg _ (funext fun a => Fin.ext ?_)
  match a with
  | ⟨0, _⟩ => show win0_5.index t (0 : Fin 2) * 32 + 1 * (y 0).val = (y 0).val; rw [e0]; omega
  | ⟨1, _⟩ => show win0_5.index t (1 : Fin 2) * 32 + 1 * (y 1).val = (y 1).val; rw [e1]; omega

/-- The third bias is read whole at every point. -/
theorem blk0_6 (c : Dev nD) (t : Fin cfg0.N) :
    (iblk0 V c 6 t : Vec Ideal S32 .f32) = (V c main_arg8 : S32.Idx → EReal) := by
  obtain ⟨-, -, -, -, -, -, -, -, -, -, e0, -⟩ := idx_facts0 t
  unfold iblk0
  funext y
  rw [View.read_apply]
  show (V c main_arg8 : S32.Idx → EReal) _ = _
  refine congrArg _ (funext fun a => Fin.ext ?_)
  match a with
  | ⟨0, _⟩ => show win0_6.index t (0 : Fin 1) * 32 + 1 * (y 0).val = (y 0).val; rw [e0]; omega

/-- The whole array of features: row i is the three layers applied to row i of the input array. -/
def feats0 (c : Dev nD) : S8192x32.Idx → EReal := fun idx =>
  Cert.Attn.mlp (fun k n => (V c main_arg3 : S64x32.Idx → EReal) (ix2 k n)) (fun n => (V c main_arg4 : S32.Idx → EReal) (ix1 n))
    (fun k n => (V c main_arg5 : S32x32.Idx → EReal) (ix2 k n)) (fun n => (V c main_arg6 : S32.Idx → EReal) (ix1 n))
    (fun k n => (V c main_arg7 : S32x32.Idx → EReal) (ix2 k n)) (fun n => (V c main_arg8 : S32.Idx → EReal) (ix1 n))
    (fun k => (V c main_arg0 : S8192x64.Idx → EReal) (ix2 (idx 0) k)) (idx 1)

/-- What point t writes back is block t of the array of features. -/
theorem flushed0_eq (c : Dev nD) (t : Fin cfg0.N) :
    (dat0 (F := Ideal) V c).flushed 7 t = ((cfg0.win 7).blk t).view.read (Elt Ideal) (feats0 V c) := by
  show (cfg0.win 7).cut (grid0.coords t) ((dat0 (F := Ideal) V c).after 7 t) = _
  rw [after0_7]
  obtain ⟨-, -, -, -, -, -, -, -, -, -, -, e0, e1⟩ := idx_facts0 t
  have hN : cfg0.N = 4 := N_0
  have ht : t.val < 4 := hN ▸ t.isLt
  funext j
  obtain ⟨p, n, rfl⟩ : ∃ (p : Fin 2048) (n : Fin 32), j = ix2 p n := ⟨j 0, j 1, eq_ix2 j⟩
  have hrow : t.val * 2048 + p.val < 8192 := by have := p.isLt; omega
  rw [View.read_apply]
  have hemb : ((cfg0.win 7).blk t).view.emb (ix2 p n) = (ix2 (⟨t.val * 2048 + p.val, hrow⟩ : Fin 8192) n : S8192x32.Idx) := by
    funext a; apply Fin.ext
    match a with
    | ⟨0, _⟩ => show win0_7.index t (0 : Fin 2) * 2048 + 1 * p.val = t.val * 2048 + p.val; rw [e0]; omega
    | ⟨1, _⟩ => show win0_7.index t (1 : Fin 2) * 32 + 1 * n.val = n.val; rw [e1]; omega
  rw [hemb]
  show out0_7 (F := Ideal) (iblk0 V c 0 t) (iblk0 V c 1 t) (iblk0 V c 2 t) (iblk0 V c 3 t) (iblk0 V c 4 t) (iblk0 V c 5 t) (iblk0 V c 6 t) (ix2 p n) = _
  refine (out0_7_apply (iblk0 V c 0 t) (iblk0 V c 1 t) (iblk0 V c 2 t) (iblk0 V c 3 t) (iblk0 V c 4 t) (iblk0 V c 5 t) (iblk0 V c 6 t) p n).trans ?_
  rw [blk0_1, blk0_2, blk0_3, blk0_4, blk0_5, blk0_6]
  unfold feats0
  refine congrArg (fun row => Cert.Attn.mlp _ _ _ _ _ _ row n) (funext fun k => ?_)
  exact blk0_0 V c t p k ⟨t.val * 2048 + p.val, hrow⟩ rfl

/-- An index of the output array is in point t's block iff each coordinate is in the block's range on its axis. -/
theorem mem_blk0 (t : Fin cfg0.N) (i : S8192x32.Idx) :
    i ∈ ((cfg0.win 7).blk t).view.set ↔ ∀ a : Fin 2, win0_7.index t a * S2048x32.size a ≤ (i a).val ∧ (i a).val < win0_7.index t a * S2048x32.size a + S2048x32.size a := by
  show i ∈ ((View.whole main_v0).slice (win0_7.rect t)).set ↔ _
  rw [View.set_slice_whole, Rect.mem_set_unit]
  exact Iff.rfl

/-- Every row is in the block of the point numbered by the row's quotient by 2048. -/
theorem cover0 (i : S8192x32.Idx) :
    ∃ t : Fin cfg0.N, (cfg0.win 7).flush t = true ∧ i ∈ ((cfg0.win 7).blk t).view.set := by
  have hN : cfg0.N = 4 := N_0
  have hi0 : (i 0).val < 8192 := (i 0).isLt
  have hi1 : (i 1).val < 32 := (i 1).isLt
  let t : Fin cfg0.N := ⟨(i 0).val / 2048, by rw [hN]; omega⟩
  have htv : t.val = (i 0).val / 2048 := rfl
  obtain ⟨-, -, -, -, -, -, -, -, -, -, -, e0, e1⟩ := idx_facts0 t
  refine ⟨t, flush0_7 t, ?_⟩
  rw [mem_blk0]
  intro a
  match a with
  | ⟨0, _⟩ => show win0_7.index t (0 : Fin 2) * 2048 ≤ (i 0).val ∧ (i 0).val < win0_7.index t (0 : Fin 2) * 2048 + 2048; rw [e0, htv]; omega
  | ⟨1, _⟩ => show win0_7.index t (1 : Fin 2) * 32 ≤ (i 1).val ∧ (i 1).val < win0_7.index t (1 : Fin 2) * 32 + 32; rw [e1]; omega

/-- After the region the output array holds the features of every input row. -/
theorem final0 (c : Dev nD) (i : Fin 8192) (n : Fin 32) :
    (dat0 (F := Ideal) V c).arrAt 7 cfg0.N (ix2 i n)
      = Cert.Attn.mlp (fun k n => (V c main_arg3 : S64x32.Idx → EReal) (ix2 k n)) (fun n => (V c main_arg4 : S32.Idx → EReal) (ix1 n))
          (fun k n => (V c main_arg5 : S32x32.Idx → EReal) (ix2 k n)) (fun n => (V c main_arg6 : S32.Idx → EReal) (ix1 n))
          (fun k n => (V c main_arg7 : S32x32.Idx → EReal) (ix2 k n)) (fun n => (V c main_arg8 : S32.Idx → EReal) (ix1 n))
          (fun k => (V c main_arg0 : S8192x64.Idx → EReal) (ix2 i k)) n := by
  rw [(dat0 (F := Ideal) V c).arrAt_eq_of_cover 7 (feats0 V c) (fun t _ => flushed0_eq V c t) (cover0)]
  rfl

/-! ## Region 1 -/

/-- The printed index maps over the four points: the input's and the output's row block is the point's number, every
    other block index is zero. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- The input block at point t is rows 2048·t … 2048·t + 2047 of the input array. -/
theorem blk1_0 (c : Dev nD) (t : Fin cfg1.N) (p : Fin 2048) (k : Fin 64) (i : Fin 8192) (hi : i.val = t.val * 2048 + p.val) :
    (iblk1 V c 0 t : Vec Ideal S2048x64 .f32) (ix2 p k) = (V c main_arg1 : S8192x64.Idx → EReal) (ix2 i k) := by
  obtain ⟨e0, e1, -⟩ := idx_facts1 t
  unfold iblk1
  rw [View.read_apply]
  show (V c main_arg1 : S8192x64.Idx → EReal) _ = _
  refine congrArg _ (funext fun a => Fin.ext ?_)
  match a with
  | ⟨0, _⟩ => show win1_0.index t (0 : Fin 2) * 2048 + 1 * p.val = i.val; rw [e0, hi]; omega
  | ⟨1, _⟩ => show win1_0.index t (1 : Fin 2) * 64 + 1 * k.val = k.val; rw [e1]; omega

/-- The first weight matrix is read whole at every point. -/
theorem blk1_1 (c : Dev nD) (t : Fin cfg1.N) :
    (iblk1 V c 1 t : Vec Ideal S64x32 .f32) = (V c main_arg3 : S64x32.Idx → EReal) := by
  obtain ⟨-, -, e0, e1, -⟩ := idx_facts1 t
  unfold iblk1
  funext y
  rw [View.read_apply]
  show (V c main_arg3 : S64x32.Idx → EReal) _ = _
  refine congrArg _ (funext fun a => Fin.ext ?_)
  match a with
  | ⟨0, _⟩ => show win1_1.index t (0 : Fin 2) * 64 + 1 * (y 0).val = (y 0).val; rw [e0]; omega
  | ⟨1, _⟩ => show win1_1.index t (1 : Fin 2) * 32 + 1 * (y 1).val = (y 1).val; rw [e1]; omega

/-- The first bias is read whole at every point. -/
theorem blk1_2 (c : Dev nD) (t : Fin cfg1.N) :
    (iblk1 V c 2 t : Vec Ideal S32 .f32) = (V c main_arg4 : S32.Idx → EReal) := by
  obtain ⟨-, -, -, -, e0, -⟩ := idx_facts1 t
  unfold iblk1
  funext y
  rw [View.read_apply]
  show (V c main_arg4 : S32.Idx → EReal) _ = _
  refine congrArg _ (funext fun a => Fin.ext ?_)
  match a with
  | ⟨0, _⟩ => show win1_2.index t (0 : Fin 1) * 32 + 1 * (y 0).val = (y 0).val; rw [e0]; omega

/-- The second weight matrix is read whole at every point. -/
theorem blk1_3 (c : Dev nD) (t : Fin cfg1.N) :
    (iblk1 V c 3 t : Vec Ideal S32x32 .f32) = (V c main_arg5 : S32x32.Idx → EReal) := by
  obtain ⟨-, -, -, -, -, e0, e1, -⟩ := idx_facts1 t
  unfold iblk1
  funext y
  rw [View.read_apply]
  show (V c main_arg5 : S32x32.Idx → EReal) _ = _
  refine congrArg _ (funext fun a => Fin.ext ?_)
  match a with
  | ⟨0, _⟩ => show win1_3.index t (0 : Fin 2) * 32 + 1 * (y 0).val = (y 0).val; rw [e0]; omega
  | ⟨1, _⟩ => show win1_3.index t (1 : Fin 2) * 32 + 1 * (y 1).val = (y 1).val; rw [e1]; omega

/-- The second bias is read whole at every point. -/
theorem blk1_4 (c : Dev nD) (t : Fin cfg1.N) :
    (iblk1 V c 4 t : Vec Ideal S32 .f32) = (V c main_arg6 : S32.Idx → EReal) := by
  obtain ⟨-, -, -, -, -, -, -, e0, -⟩ := idx_facts1 t
  unfold iblk1
  funext y
  rw [View.read_apply]
  show (V c main_arg6 : S32.Idx → EReal) _ = _
  refine congrArg _ (funext fun a => Fin.ext ?_)
  match a with
  | ⟨0, _⟩ => show win1_4.index t (0 : Fin 1) * 32 + 1 * (y 0).val = (y 0).val; rw [e0]; omega

/-- The third weight matrix is read whole at every point. -/
theorem blk1_5 (c : Dev nD) (t : Fin cfg1.N) :
    (iblk1 V c 5 t : Vec Ideal S32x32 .f32) = (V c main_arg7 : S32x32.Idx → EReal) := by
  obtain ⟨-, -, -, -, -, -, -, -, e0, e1, -⟩ := idx_facts1 t
  unfold iblk1
  funext y
  rw [View.read_apply]
  show (V c main_arg7 : S32x32.Idx → EReal) _ = _
  refine congrArg _ (funext fun a => Fin.ext ?_)
  match a with
  | ⟨0, _⟩ => show win1_5.index t (0 : Fin 2) * 32 + 1 * (y 0).val = (y 0).val; rw [e0]; omega
  | ⟨1, _⟩ => show win1_5.index t (1 : Fin 2) * 32 + 1 * (y 1).val = (y 1).val; rw [e1]; omega

/-- The third bias is read whole at every point. -/
theorem blk1_6 (c : Dev nD) (t : Fin cfg1.N) :
    (iblk1 V c 6 t : Vec Ideal S32 .f32) = (V c main_arg8 : S32.Idx → EReal) := by
  obtain ⟨-, -, -, -, -, -, -, -, -, -, e0, -⟩ := idx_facts1 t
  unfold iblk1
  funext y
  rw [View.read_apply]
  show (V c main_arg8 : S32.Idx → EReal) _ = _
  refine congrArg _ (funext fun a => Fin.ext ?_)
  match a with
  | ⟨0, _⟩ => show win1_6.index t (0 : Fin 1) * 32 + 1 * (y 0).val = (y 0).val; rw [e0]; omega

/-- The whole array of features: row i is the three layers applied to row i of the input array. -/
def feats1 (c : Dev nD) : S8192x32.Idx → EReal := fun idx =>
  Cert.Attn.mlp (fun k n => (V c main_arg3 : S64x32.Idx → EReal) (ix2 k n)) (fun n => (V c main_arg4 : S32.Idx → EReal) (ix1 n))
    (fun k n => (V c main_arg5 : S32x32.Idx → EReal) (ix2 k n)) (fun n => (V c main_arg6 : S32.Idx → EReal) (ix1 n))
    (fun k n => (V c main_arg7 : S32x32.Idx → EReal) (ix2 k n)) (fun n => (V c main_arg8 : S32.Idx → EReal) (ix1 n))
    (fun k => (V c main_arg1 : S8192x64.Idx → EReal) (ix2 (idx 0) k)) (idx 1)

/-- What point t writes back is block t of the array of features. -/
theorem flushed1_eq (c : Dev nD) (t : Fin cfg1.N) :
    (dat1 (F := Ideal) V c).flushed 7 t = ((cfg1.win 7).blk t).view.read (Elt Ideal) (feats1 V c) := by
  show (cfg1.win 7).cut (grid1.coords t) ((dat1 (F := Ideal) V c).after 7 t) = _
  rw [after1_7]
  obtain ⟨-, -, -, -, -, -, -, -, -, -, -, e0, e1⟩ := idx_facts1 t
  have hN : cfg1.N = 4 := N_1
  have ht : t.val < 4 := hN ▸ t.isLt
  funext j
  obtain ⟨p, n, rfl⟩ : ∃ (p : Fin 2048) (n : Fin 32), j = ix2 p n := ⟨j 0, j 1, eq_ix2 j⟩
  have hrow : t.val * 2048 + p.val < 8192 := by have := p.isLt; omega
  rw [View.read_apply]
  have hemb : ((cfg1.win 7).blk t).view.emb (ix2 p n) = (ix2 (⟨t.val * 2048 + p.val, hrow⟩ : Fin 8192) n : S8192x32.Idx) := by
    funext a; apply Fin.ext
    match a with
    | ⟨0, _⟩ => show win1_7.index t (0 : Fin 2) * 2048 + 1 * p.val = t.val * 2048 + p.val; rw [e0]; omega
    | ⟨1, _⟩ => show win1_7.index t (1 : Fin 2) * 32 + 1 * n.val = n.val; rw [e1]; omega
  rw [hemb]
  show out1_7 (F := Ideal) (iblk1 V c 0 t) (iblk1 V c 1 t) (iblk1 V c 2 t) (iblk1 V c 3 t) (iblk1 V c 4 t) (iblk1 V c 5 t) (iblk1 V c 6 t) (ix2 p n) = _
  refine (out1_7_apply (iblk1 V c 0 t) (iblk1 V c 1 t) (iblk1 V c 2 t) (iblk1 V c 3 t) (iblk1 V c 4 t) (iblk1 V c 5 t) (iblk1 V c 6 t) p n).trans ?_
  rw [blk1_1, blk1_2, blk1_3, blk1_4, blk1_5, blk1_6]
  unfold feats1
  refine congrArg (fun row => Cert.Attn.mlp _ _ _ _ _ _ row n) (funext fun k => ?_)
  exact blk1_0 V c t p k ⟨t.val * 2048 + p.val, hrow⟩ rfl

/-- An index of the output array is in point t's block iff each coordinate is in the block's range on its axis. -/
theorem mem_blk1 (t : Fin cfg1.N) (i : S8192x32.Idx) :
    i ∈ ((cfg1.win 7).blk t).view.set ↔ ∀ a : Fin 2, win1_7.index t a * S2048x32.size a ≤ (i a).val ∧ (i a).val < win1_7.index t a * S2048x32.size a + S2048x32.size a := by
  show i ∈ ((View.whole main_v1).slice (win1_7.rect t)).set ↔ _
  rw [View.set_slice_whole, Rect.mem_set_unit]
  exact Iff.rfl

/-- Every row is in the block of the point numbered by the row's quotient by 2048. -/
theorem cover1 (i : S8192x32.Idx) :
    ∃ t : Fin cfg1.N, (cfg1.win 7).flush t = true ∧ i ∈ ((cfg1.win 7).blk t).view.set := by
  have hN : cfg1.N = 4 := N_1
  have hi0 : (i 0).val < 8192 := (i 0).isLt
  have hi1 : (i 1).val < 32 := (i 1).isLt
  let t : Fin cfg1.N := ⟨(i 0).val / 2048, by rw [hN]; omega⟩
  have htv : t.val = (i 0).val / 2048 := rfl
  obtain ⟨-, -, -, -, -, -, -, -, -, -, -, e0, e1⟩ := idx_facts1 t
  refine ⟨t, flush1_7 t, ?_⟩
  rw [mem_blk1]
  intro a
  match a with
  | ⟨0, _⟩ => show win1_7.index t (0 : Fin 2) * 2048 ≤ (i 0).val ∧ (i 0).val < win1_7.index t (0 : Fin 2) * 2048 + 2048; rw [e0, htv]; omega
  | ⟨1, _⟩ => show win1_7.index t (1 : Fin 2) * 32 ≤ (i 1).val ∧ (i 1).val < win1_7.index t (1 : Fin 2) * 32 + 32; rw [e1]; omega

/-- After the region the output array holds the features of every input row. -/
theorem final1 (c : Dev nD) (i : Fin 8192) (n : Fin 32) :
    (dat1 (F := Ideal) V c).arrAt 7 cfg1.N (ix2 i n)
      = Cert.Attn.mlp (fun k n => (V c main_arg3 : S64x32.Idx → EReal) (ix2 k n)) (fun n => (V c main_arg4 : S32.Idx → EReal) (ix1 n))
          (fun k n => (V c main_arg5 : S32x32.Idx → EReal) (ix2 k n)) (fun n => (V c main_arg6 : S32.Idx → EReal) (ix1 n))
          (fun k n => (V c main_arg7 : S32x32.Idx → EReal) (ix2 k n)) (fun n => (V c main_arg8 : S32.Idx → EReal) (ix1 n))
          (fun k => (V c main_arg1 : S8192x64.Idx → EReal) (ix2 i k)) n := by
  rw [(dat1 (F := Ideal) V c).arrAt_eq_of_cover 7 (feats1 V c) (fun t _ => flushed1_eq V c t) (cover1)]
  rfl

end Cert.KernelIdeal.Hand

end
-- ==== Proof.KI.AttnPay.lean ====
/-
  The weighting kernel's payloads read at an index, at the ideal values.

  A block of 2048 feature rows x, a block of 1024 feature rows y and the 1024 target rows that go with them come
  in. The score of row p of x against row q of y is the matrix product x·yᵀ at (p, q) less one half of the
  squared length of y_q (a ones-row times the transposed squares), and its exponential is the kernel's weight
  `kw x_p y_q`. The running total of the weights gains their sum over q, the running weighted targets gain the
  product of the weights with the target rows, and at the end the weighted targets are divided by the total.
-/
import proofs.«146112_j85014582657267_2_alg».proof.Proof.Gen.KernelIdeal.Skeleton
import proofs.«146112_j85014582657267_2_alg».proof.Proof.Spec
import proofs.«146112_j85014582657267_2_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ### A matrix product into a zero accumulator, read at an index -/

/-- A product of an `[A, K]` by a `[K, B]` matrix into the zero splat reads, at `(i, j)`, the sum over the one
    contracted coordinate `k` of the left operand at `(i, k)` times the right operand at `(k, j)`, once the four
    coordinate facts of the dimension numbers are known. -/
theorem matmul_zero_ix2 {A K B : ℕ} {φ₁ φ₂ : FTy}
    (D : DotDims ⟨2, ![A, K]⟩ ⟨2, ![K, B]⟩ ⟨2, ![A, B]⟩)
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision)
    (lhs : FVec Ideal ⟨2, ![A, K]⟩ φ₁) (rhs : FVec Ideal ⟨2, ![K, B]⟩ φ₂) (i : Fin A) (j : Fin B) :
    FloatOps.matmul D prec lhs rhs (constant (F := Ideal) ⟨2, ![A, B]⟩ .f32 0x00000000#32) (ix2 i j)
      = ∑ k : Fin K, lhs (ix2 i k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 i j) ((contrEquiv1 D K hr hs).symm k) = ix2 i k := funext fun a => Fin.ext (by
    match a with
    | ⟨0, _⟩ => exact hl0 _ _
    | ⟨1, _⟩ => exact (hl1 _ _).trans hk)
  have er : D.rhsIdx (ix2 i j) ((contrEquiv1 D K hr hs).symm k) = ix2 k j := funext fun a => Fin.ext (by
    match a with
    | ⟨0, _⟩ => exact (hr0 _ _).trans hk
    | ⟨1, _⟩ => exact hr1 _ _)
  rw [el, er]

/-- The score product `[2048, 32] × [32, 1024]`. -/
theorem matmul_score (lhs : FVec Ideal S2048x32 .bf16) (rhs : FVec Ideal S32x1024 .bf16) (p : Fin 2048) (q : Fin 1024) :
    FloatOps.matmul dot_S2048x32_S32x1024_S2048x1024_1_0_0_1_n_n none lhs rhs
        (constant (F := Ideal) S2048x1024 .f32 0x00000000#32) (ix2 p q)
      = ∑ h : Fin 32, lhs (ix2 p h) * rhs (ix2 h q) :=
  matmul_zero_ix2 dot_S2048x32_S32x1024_S2048x1024_1_0_0_1_n_n rfl rfl
    (fun i q => by
      unfold DotDims.lhsIdx
      rw [dif_neg (show ¬(0 : Fin S2048x32.rank) ∈ dot_S2048x32_S32x1024_S2048x1024_1_0_0_1_n_n.lhsBatch by decide),
        dif_pos (show (0 : Fin S2048x32.rank) ∈ dot_S2048x32_S32x1024_S2048x1024_1_0_0_1_n_n.lhsNonContracting by decide)]
      rfl)
    (fun i q => dot_S2048x32_S32x1024_S2048x1024_1_0_0_1_n_n.lhsIdx_val_of_single rfl i q)
    (fun i q => dot_S2048x32_S32x1024_S2048x1024_1_0_0_1_n_n.rhsIdx_val_of_single rfl i q)
    (fun i q => by
      unfold DotDims.rhsIdx
      rw [dif_neg (show ¬(1 : Fin S32x1024.rank) ∈ dot_S2048x32_S32x1024_S2048x1024_1_0_0_1_n_n.rhsBatch by decide),
        dif_pos (show (1 : Fin S32x1024.rank) ∈ dot_S2048x32_S32x1024_S2048x1024_1_0_0_1_n_n.rhsNonContracting by decide)]
      rfl)
    none lhs rhs p q

/-- The ones-row product `[1, 32] × [32, 1024]`. -/
theorem matmul_ones (lhs : FVec Ideal S1x32 .bf16) (rhs : FVec Ideal S32x1024 .bf16) (z : Fin 1) (q : Fin 1024) :
    FloatOps.matmul dot_S1x32_S32x1024_S1x1024_1_0_0_1_n_n none lhs rhs
        (constant (F := Ideal) S1x1024 .f32 0x00000000#32) (ix2 z q)
      = ∑ h : Fin 32, lhs (ix2 z h) * rhs (ix2 h q) :=
  matmul_zero_ix2 dot_S1x32_S32x1024_S1x1024_1_0_0_1_n_n rfl rfl
    (fun i q => by
      unfold DotDims.lhsIdx
      rw [dif_neg (show ¬(0 : Fin S1x32.rank) ∈ dot_S1x32_S32x1024_S1x1024_1_0_0_1_n_n.lhsBatch by decide),
        dif_pos (show (0 : Fin S1x32.rank) ∈ dot_S1x32_S32x1024_S1x1024_1_0_0_1_n_n.lhsNonContracting by decide)]
      rfl)
    (fun i q => dot_S1x32_S32x1024_S1x1024_1_0_0_1_n_n.lhsIdx_val_of_single rfl i q)
    (fun i q => dot_S1x32_S32x1024_S1x1024_1_0_0_1_n_n.rhsIdx_val_of_single rfl i q)
    (fun i q => by
      unfold DotDims.rhsIdx
      rw [dif_neg (show ¬(1 : Fin S32x1024.rank) ∈ dot_S1x32_S32x1024_S1x1024_1_0_0_1_n_n.rhsBatch by decide),
        dif_pos (show (1 : Fin S32x1024.rank) ∈ dot_S1x32_S32x1024_S1x1024_1_0_0_1_n_n.rhsNonContracting by decide)]
      rfl)
    none lhs rhs z q

/-- The product of the weights with the target rows, `[2048, 1024] × [1024, 8]`. -/
theorem matmul_targets (lhs : FVec Ideal S2048x1024 .bf16) (rhs : FVec Ideal S1024x8 .bf16) (p : Fin 2048) (t : Fin 8) :
    FloatOps.matmul dot_S2048x1024_S1024x8_S2048x8_1_0_0_1_n_n none lhs rhs
        (constant (F := Ideal) S2048x8 .f32 0x00000000#32) (ix2 p t)
      = ∑ q : Fin 1024, lhs (ix2 p q) * rhs (ix2 q t) :=
  matmul_zero_ix2 dot_S2048x1024_S1024x8_S2048x8_1_0_0_1_n_n rfl rfl
    (fun i q => by
      unfold DotDims.lhsIdx
      rw [dif_neg (show ¬(0 : Fin S2048x1024.rank) ∈ dot_S2048x1024_S1024x8_S2048x8_1_0_0_1_n_n.lhsBatch by decide),
        dif_pos (show (0 : Fin S2048x1024.rank) ∈ dot_S2048x1024_S1024x8_S2048x8_1_0_0_1_n_n.lhsNonContracting by decide)]
      rfl)
    (fun i q => dot_S2048x1024_S1024x8_S2048x8_1_0_0_1_n_n.lhsIdx_val_of_single rfl i q)
    (fun i q => dot_S2048x1024_S1024x8_S2048x8_1_0_0_1_n_n.rhsIdx_val_of_single rfl i q)
    (fun i q => by
      unfold DotDims.rhsIdx
      rw [dif_neg (show ¬(1 : Fin S1024x8.rank) ∈ dot_S2048x1024_S1024x8_S2048x8_1_0_0_1_n_n.rhsBatch by decide),
        dif_pos (show (1 : Fin S1024x8.rank) ∈ dot_S2048x1024_S1024x8_S2048x8_1_0_0_1_n_n.rhsNonContracting by decide)]
      rfl)
    none lhs rhs p t

/-! ### The weights -/

/-- The weight block at `(p, q)` is the kernel's weight of row `q` of the second block for row `p` of the first. -/
theorem k2_pay5_apply (x0 : Vec Ideal S2048x32 .f32) (x1 : Vec Ideal S1024x32 .f32) (p : Fin 2048) (q : Fin 1024) :
    k2_pay5 (F := Ideal) x0 x1 (ix2 p q)
      = Cert.Attn.kw (fun h => x0 (ix2 p h)) (fun h => x1 (ix2 q h)) := by
  unfold k2_pay5
  dsimp only
  rw [shapeCast_self, shapeCast_self]
  unfold Cert.Attn.kw
  refine congrArg Ideal.exp ?_
  refine congrArg₂ (· - ·) ?_ ?_
  · refine (matmul_score _ _ p q).trans ?_
    refine Finset.sum_congr rfl fun h _ => ?_
    exact congrArg₂ (· * ·) rfl (transpose_ix2_apply _ _ h q)
  · refine (broadcastTo_1b_ab_apply _ _ p q).trans ?_
    refine congrArg₂ (· * ·) Cert.Attn.Consts.ofBits_half ?_
    refine (matmul_ones _ _ 0 q).trans ?_
    refine Finset.sum_congr rfl fun h _ => ?_
    exact (congrArg₂ (· * ·) Cert.Attn.Consts.ofBits_bf16_one (transpose_ix2_apply _ _ h q)).trans (one_mul _)

/-! ### Two layout operations on a column: the unit axis at the end -/

section Column
variable {α : Type}

/-- An `[a]` array cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ### The sum of a row of weights -/

/-- The sum over axis 1 of a `[2048, 1024]` block reads, at `p`, the sum over `q` of the block at `(p, q)`. -/
theorem rowsum_apply (src : FVec Ideal S2048x1024 .f32) (h : S2048x1024.Reduces [1] S2048) (hφ : FKind.Formats .f32)
    (hacc : (0x00000000#32 : BitVec 32) = 0x00000000#32) (p : Fin 2048) :
    multiReduction (F := Ideal) .add [1] S2048 src 0x00000000#32 h hφ hacc (ix1 p)
      = ∑ q : Fin 1024, src (ix2 p q) := by
  refine (Ideal.multiReduction_add_single src 0x00000000#32 h hφ hacc (ix1 p)).trans ?_
  refine Finset.sum_congr rfl fun q _ => congrArg src ?_
  funext c
  match c with
  | ⟨0, _⟩ => rfl
  | ⟨1, _⟩ => rfl

/-! ### The payloads -/

/-- The running total of the weights gains the sum of the row's weights. -/
theorem k2_pay6_apply (x0 : Vec Ideal S2048x32 .f32) (x1 : Vec Ideal S1024x32 .f32) (l : Vec Ideal S2048x1 .f32)
    (p : Fin 2048) (z : Fin 1) :
    k2_pay6 (F := Ideal) x0 x1 l (ix2 p z)
      = l (ix2 p z) + ∑ q : Fin 1024, Cert.Attn.kw (fun h => x0 (ix2 p h)) (fun h => x1 (ix2 q h)) := by
  unfold k2_pay6
  dsimp only
  rw [shapeCast_self]
  refine (addf_apply _ _ _).trans (congrArg (l (ix2 p z) + ·) ?_)
  refine (shapeCast_a_a1_apply _ _ p z).trans ?_
  refine (rowsum_apply _ _ _ _ p).trans ?_
  exact Finset.sum_congr rfl fun q _ => k2_pay5_apply x0 x1 p q

/-- The running weighted targets gain the product of the weights with the target rows. -/
theorem k2_pay7_apply (x0 : Vec Ideal S2048x32 .f32) (x1 : Vec Ideal S1024x32 .f32) (acc : Vec Ideal S2048x8 .f32)
    (x2 : Vec Ideal S1024x8 .f32) (p : Fin 2048) (t : Fin 8) :
    k2_pay7 (F := Ideal) x0 x1 acc x2 (ix2 p t)
      = acc (ix2 p t)
        + ∑ q : Fin 1024, Cert.Attn.kw (fun h => x0 (ix2 p h)) (fun h => x1 (ix2 q h)) * x2 (ix2 q t) := by
  unfold k2_pay7
  refine (addf_apply _ _ _).trans (congrArg (acc (ix2 p t) + ·) ?_)
  refine (matmul_targets _ _ p t).trans ?_
  refine Finset.sum_congr rfl fun q _ => ?_
  exact congrArg₂ (· * ·)
    ((truncf_apply (ψ := .bf16) (k2_pay5 (F := Ideal) x0 x1) bitsLt_bf16_f32 (ix2 p q)).trans (k2_pay5_apply x0 x1 p q))
    (truncf_apply (ψ := .bf16) x2 bitsLt_bf16_f32 (ix2 q t))

/-- The value stored back into the running weighted targets is the value itself. -/
theorem k2_pay1_eq (acc : FVec Ideal S2048x8 .f32) : k2_pay1 (F := Ideal) acc = acc := by
  unfold k2_pay1
  exact shapeCast_self _ _

/-- The result: the weighted targets divided by the row's total weight. -/
theorem k2_pay2_apply (acc : Vec Ideal S2048x8 .f32) (l : Vec Ideal S2048x1 .f32) (p : Fin 2048) (t : Fin 8) :
    k2_pay2 (F := Ideal) acc l (ix2 p t) = Ideal.div (acc (ix2 p t)) (l (ix2 p (0 : Fin 1))) := by
  unfold k2_pay2
  refine (divf_apply _ _ _).trans (congrArg (Ideal.div (acc (ix2 p t))) ?_)
  exact broadcastTo_a1_ab_apply _ _ p t

/-- The running weighted targets start from zero. -/
theorem k2_pay3_apply (p : Fin 2048) (t : Fin 8) : k2_pay3 (F := Ideal) (ix2 p t) = 0 := by
  unfold k2_pay3
  rw [shapeCast_self]
  exact Ideal.ofBits_zero_f32

/-- The running total of the weights starts from zero. -/
theorem k2_pay4_apply (p : Fin 2048) (z : Fin 1) : k2_pay4 (F := Ideal) (ix2 p z) = 0 := by
  unfold k2_pay4
  rw [shapeCast_self]
  exact Ideal.ofBits_zero_f32

end Cert.KernelIdeal.Hand

end
-- ==== Proof.Algebra.lean ====
/-
  The pure mathematics of the certificate: on real entries the kernel's arrangement and the reference's
  arrangement of the same weighted average agree.

  * A dense layer with a relu sends real rows to real rows, so the three layers do (`mlp_real`).
  * The running sum over the eight blocks of 1024 rows is the plain sum over all 8192 rows (`accum_blocks`).
  * With a = |x|², b = |y|², d = x·y one has a + b - 2d = |x - y|² ≥ 0, so the reference's clamp never acts and
    its weight is exp (-a/2) · exp (d - b/2): the kernel's weight times a positive factor that does not depend
    on the row of Y. The factor cancels in the quotient (`kerOut_eq_refOut`).
  Every step first rewrites the extended-real expression as the image of an explicit real expression, so that no
  corner case of the extended reals is ever met, and then proves the identity in the reals.
-/
import proofs.«146112_j85014582657267_2_alg».proof.Proof.Spec

noncomputable section

namespace Cert.Attn

open Idealize.ShloMosaic

/-! ### Finite sums and maxima of reals inside the extended reals -/

/-- The image of a finite sum of reals is the sum of the images. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The image of `max r 0` is the maximum of the image with `0`. -/
theorem coe_max_zero (r : ℝ) : ((max r 0 : ℝ) : EReal) = max (r : EReal) 0 := by
  have h := EReal.coe_strictMono.monotone.map_max (a := r) (b := 0)
  simpa using h

/-! ### The dense layers -/

/-- A dense layer with a relu on real data is the image of the real dense layer. -/
theorem dense_coe {K N : ℕ} (x : Fin K → ℝ) (W : Fin K → Fin N → ℝ) (b : Fin N → ℝ) :
    dense (fun k => (x k : EReal)) (fun k n => (W k n : EReal)) (fun n => (b n : EReal))
      = fun n => ((max ((∑ k : Fin K, x k * W k n) + b n) 0 : ℝ) : EReal) := by
  funext n
  unfold dense
  simp only [← EReal.coe_mul, coe_sum, ← EReal.coe_add, ← coe_max_zero]

/-- The three layers send real data to real data. -/
theorem mlp_real (W1 : Fin 64 → Fin 32 → ℝ) (b1 : Fin 32 → ℝ) (W2 : Fin 32 → Fin 32 → ℝ) (b2 : Fin 32 → ℝ)
    (W3 : Fin 32 → Fin 32 → ℝ) (b3 : Fin 32 → ℝ) (x : Fin 64 → ℝ) :
    ∃ r : Fin 32 → ℝ,
      mlp (fun k n => (W1 k n : EReal)) (fun n => (b1 n : EReal)) (fun k n => (W2 k n : EReal))
        (fun n => (b2 n : EReal)) (fun k n => (W3 k n : EReal)) (fun n => (b3 n : EReal))
        (fun k => (x k : EReal)) = fun n => (r n : EReal) := by
  unfold mlp
  rw [dense_coe, dense_coe, dense_coe]
  exact ⟨_, rfl⟩

/-! ### The running sum over the blocks -/

/-- The running sum after step `n` is the sum of the contributions of steps `0, …, n`. -/
theorem accum_eq_sum (S : ℕ → EReal) (n : ℕ) : accum S n = ∑ J ∈ Finset.range (n + 1), S J := by
  induction n with
  | zero => simp [accum]
  | succ n ih => rw [accum, ih, Finset.sum_range_succ _ (n + 1)]

/-- Row `q` of block `J` is row `1024 J + q`: eight blocks of 1024 rows are the 8192 rows. -/
def blkEquiv : Fin 8 × Fin 1024 ≃ Fin 8192 where
  toFun p := ⟨p.1.val * 1024 + p.2.val, by have := p.1.isLt; have := p.2.isLt; omega⟩
  invFun j := (⟨j.val / 1024, by have := j.isLt; omega⟩, ⟨j.val % 1024, by omega⟩)
  left_inv := by
    rintro ⟨J, q⟩
    have := J.isLt; have := q.isLt
    ext <;> simp <;> omega
  right_inv := by
    intro j
    ext; simp; omega

/-- Summing block by block is summing over all rows. -/
theorem sum_blocks {M : Type*} [AddCommMonoid M] (f : Fin 8192 → M) :
    ∑ J ∈ Finset.range 8, ∑ q : Fin 1024, f (blkIdx J q) = ∑ j : Fin 8192, f j := by
  rw [← Fin.sum_univ_eq_sum_range (fun J => ∑ q : Fin 1024, f (blkIdx J q)) 8, ← Fintype.sum_prod_type']
  apply Fintype.sum_equiv blkEquiv
  rintro ⟨J, q⟩
  congr 1
  ext
  simp [blkIdx, blkEquiv, Nat.mod_eq_of_lt J.isLt]

/-- The running sum over the eight blocks is the sum over all rows. -/
theorem accum_blocks (f : Fin 8192 → EReal) :
    accum (fun J => ∑ q : Fin 1024, f (blkIdx J q)) 7 = ∑ j : Fin 8192, f j := by
  rw [accum_eq_sum]
  exact sum_blocks f

/-! ### The two weights on real data -/

/-- The kernel's weight on real rows. -/
theorem kw_coe (x y : Fin 32 → ℝ) :
    kw (fun h => (x h : EReal)) (fun h => (y h : EReal))
      = ((Real.exp ((∑ h : Fin 32, x h * y h) - 1 / 2 * ∑ h : Fin 32, y h * y h) : ℝ) : EReal) := by
  unfold kw
  simp only [← EReal.coe_mul, coe_sum, ← EReal.coe_sub, Ideal.exp_coe]

/-- The reference's weight on real rows. -/
theorem refw_coe (x y : Fin 32 → ℝ) :
    refw (fun h => (x h : EReal)) (fun h => (y h : EReal))
      = ((Real.exp (-(max (((∑ h : Fin 32, x h * x h) + ∑ h : Fin 32, y h * y h)
            - 2 * ∑ h : Fin 32, x h * y h) 0) * (1 / 2)) : ℝ) : EReal) := by
  unfold refw
  rw [Ideal.div_coe (by norm_num : (2 : ℝ) ≠ 0)]
  simp only [zero_add, ← EReal.coe_mul, coe_sum, ← EReal.coe_add, ← EReal.coe_sub, ← coe_max_zero,
    ← EReal.coe_neg, Ideal.exp_coe]

/-- |x|² + |y|² - 2 x·y = |x - y|² is not negative. -/
theorem sq_dist_nonneg (x y : Fin 32 → ℝ) :
    0 ≤ ((∑ h : Fin 32, x h * x h) + ∑ h : Fin 32, y h * y h) - 2 * ∑ h : Fin 32, x h * y h := by
  have h : ((∑ h : Fin 32, x h * x h) + ∑ h : Fin 32, y h * y h) - 2 * ∑ h : Fin 32, x h * y h
      = ∑ h : Fin 32, (x h - y h) * (x h - y h) := by
    rw [Finset.mul_sum, ← Finset.sum_add_distrib, ← Finset.sum_sub_distrib]
    apply Finset.sum_congr rfl
    intro h _
    ring
  rw [h]
  exact Finset.sum_nonneg (fun h _ => mul_self_nonneg _)

/-- The reference's weight is the kernel's weight times `exp (-|x|²/2)`. -/
theorem refw_real_eq (x y : Fin 32 → ℝ) :
    Real.exp (-(max (((∑ h : Fin 32, x h * x h) + ∑ h : Fin 32, y h * y h)
        - 2 * ∑ h : Fin 32, x h * y h) 0) * (1 / 2))
      = Real.exp (-(∑ h : Fin 32, x h * x h) / 2)
        * Real.exp ((∑ h : Fin 32, x h * y h) - 1 / 2 * ∑ h : Fin 32, y h * y h) := by
  rw [max_eq_left (sq_dist_nonneg x y), ← Real.exp_add]
  congr 1
  ring

/-! ### The two results on real data -/

/-- The kernel's result, when every weight is the image of a real and the weights' total is not zero. -/
theorem kerOut_coe_of (x : Fin 32 → EReal) (yf : Fin 8192 → Fin 32 → EReal) (yt : Fin 8192 → Fin 8 → ℝ)
    (t : Fin 8) (k : Fin 8192 → ℝ) (hk : ∀ j, kw x (yf j) = (k j : EReal)) (hK : (∑ j : Fin 8192, k j) ≠ 0) :
    kerOut x yf (fun j t => (yt j t : EReal)) t
      = (((∑ j : Fin 8192, k j * yt j t) * (1 / ∑ j : Fin 8192, k j) : ℝ) : EReal) := by
  unfold kerOut
  have h1 := accum_blocks (fun j => kw x (yf j) * (yt j t : EReal))
  have h2 := accum_blocks (fun j => kw x (yf j))
  beta_reduce at h1 h2
  rw [h1, h2]
  simp only [hk, ← EReal.coe_mul, coe_sum]
  rw [Ideal.div_coe hK, ← EReal.coe_mul]

/-- The reference's result, under the same hypotheses on its weights. -/
theorem refOut_coe_of (x : Fin 32 → EReal) (yf : Fin 8192 → Fin 32 → EReal) (yt : Fin 8192 → Fin 8 → ℝ)
    (t : Fin 8) (w : Fin 8192 → ℝ) (hw : ∀ j, refw x (yf j) = (w j : EReal)) (hW : (∑ j : Fin 8192, w j) ≠ 0) :
    refOut x yf (fun j t => (yt j t : EReal)) t
      = ((∑ j : Fin 8192, w j * (1 / ∑ j' : Fin 8192, w j') * yt j t : ℝ) : EReal) := by
  unfold refOut
  simp only [hw, zero_add, coe_sum, Ideal.div_coe hW, ← EReal.coe_mul]

/-- A positive factor common to all weights cancels in the weighted average. -/
theorem avg_scale (c : ℝ) (hc : 0 < c) (k v : Fin 8192 → ℝ) (hK : 0 < ∑ j : Fin 8192, k j) :
    (∑ j : Fin 8192, k j * v j) * (1 / ∑ j : Fin 8192, k j)
      = ∑ j : Fin 8192, (c * k j) * (1 / ∑ j' : Fin 8192, c * k j') * v j := by
  rw [← Finset.mul_sum, Finset.sum_mul]
  apply Finset.sum_congr rfl
  intro j _
  have hc' : c ≠ 0 := hc.ne'
  have hK' : (∑ j : Fin 8192, k j) ≠ 0 := hK.ne'
  field_simp

/-- On real feature rows and real targets the kernel's result is the reference's result. -/
theorem kerOut_eq_refOut (x : Fin 32 → ℝ) (yf : Fin 8192 → Fin 32 → ℝ) (yt : Fin 8192 → Fin 8 → ℝ) (t : Fin 8) :
    kerOut (fun h => (x h : EReal)) (fun j h => (yf j h : EReal)) (fun j t => (yt j t : EReal)) t
      = refOut (fun h => (x h : EReal)) (fun j h => (yf j h : EReal)) (fun j t => (yt j t : EReal)) t := by
  let k : Fin 8192 → ℝ :=
    fun j => Real.exp ((∑ h : Fin 32, x h * yf j h) - 1 / 2 * ∑ h : Fin 32, yf j h * yf j h)
  let c : ℝ := Real.exp (-(∑ h : Fin 32, x h * x h) / 2)
  have hc : 0 < c := Real.exp_pos _
  have hK : 0 < ∑ j : Fin 8192, k j := Finset.sum_pos (fun j _ => Real.exp_pos _) Finset.univ_nonempty
  have hW : (∑ j : Fin 8192, c * k j) ≠ 0 := by
    rw [← Finset.mul_sum]
    exact (mul_pos hc hK).ne'
  rw [kerOut_coe_of _ _ yt t k (fun j => kw_coe x (yf j)) hK.ne',
    refOut_coe_of _ _ yt t (fun j => c * k j) (fun j => by rw [refw_coe, refw_real_eq]) hW,
    avg_scale c hc k (fun j => yt j t) hK]

/-! ### The whole function -/

/-- On real arrays the kernel's arrangement and the reference's arrangement give the same function. -/
theorem G_eq_Gref (Xr Yr : Fin 8192 → Fin 64 → ℝ) (Ytr : Fin 8192 → Fin 8 → ℝ)
    (W1r : Fin 64 → Fin 32 → ℝ) (b1r : Fin 32 → ℝ) (W2r : Fin 32 → Fin 32 → ℝ) (b2r : Fin 32 → ℝ)
    (W3r : Fin 32 → Fin 32 → ℝ) (b3r : Fin 32 → ℝ) (i : Fin 8192) (t : Fin 8) :
    G (fun i k => (Xr i k : EReal)) (fun j k => (Yr j k : EReal)) (fun j t => (Ytr j t : EReal))
        (fun k n => (W1r k n : EReal)) (fun n => (b1r n : EReal)) (fun k n => (W2r k n : EReal))
        (fun n => (b2r n : EReal)) (fun k n => (W3r k n : EReal)) (fun n => (b3r n : EReal)) i t
      = Gref (fun i k => (Xr i k : EReal)) (fun j k => (Yr j k : EReal)) (fun j t => (Ytr j t : EReal))
        (fun k n => (W1r k n : EReal)) (fun n => (b1r n : EReal)) (fun k n => (W2r k n : EReal))
        (fun n => (b2r n : EReal)) (fun k n => (W3r k n : EReal)) (fun n => (b3r n : EReal)) i t := by
  obtain ⟨rx, hrx⟩ := mlp_real W1r b1r W2r b2r W3r b3r (Xr i)
  choose ry hry using fun j => mlp_real W1r b1r W2r b2r W3r b3r (Yr j)
  unfold G Gref
  beta_reduce
  rw [hrx, funext hry]
  exact kerOut_eq_refOut rx ry Ytr t

end Cert.Attn

end
-- ==== Proof.KI.AttnValue.lean ====
/-
  The weighting stage read entry by entry. The grid is 4 × 8: point t = 8·I + J is handed rows 2048·I … of the
  first feature array, rows 1024·J … of the second feature array and of the targets. Within a grid row I the two
  running sums start from zero at J = 0 and gain block J's contribution at every point, so after point (I, J) they
  hold, for row p of row block I, `accum` of the blocks' contributions up to J. At J = 7 the stored block is the
  quotient of the two, which is `kerOut` of the feature row against all 8192 rows. The four stored blocks tile the
  output array, so after the region row i of the output is `kerOut` of feature row i.
-/
import proofs.«146112_j85014582657267_2_alg».proof.Proof.KI.R2
import proofs.«146112_j85014582657267_2_alg».proof.Proof.KI.AttnPay
import proofs.«146112_j85014582657267_2_alg».proof.Proof.Spec
import proofs.«146112_j85014582657267_2_alg».proof.Proof.Algebra
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- Row `p` of block `I` of the 8192 rows of X (four blocks of 2048 rows). -/
def rowIdx (I : ℕ) (p : Fin 2048) : Fin 8192 :=
  ⟨(I % 4) * 2048 + p.val, by have := p.isLt; have := Nat.mod_lt I (show 4 > 0 by norm_num); omega⟩

/-- The printed index maps over the 32 points: the first input's and the output's row block is the point's quotient by 8,
    the second input's and the targets' row block is its remainder, every column block is zero. -/
theorem idx_facts2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val % 8 ∧ win2_2.index t (1 : Fin 2) = 0
    ∧ win2_3.index t (0 : Fin 2) = t.val / 8 ∧ win2_3.index t (1 : Fin 2) = 0 :=
  (by decide +kernel : ∀ t : Fin grid2.N, _)

/-- The first feature block at point t is rows 2048·(t / 8) … of the first feature array. -/
theorem blk2_0 (c : Dev nD) (t : Fin cfg2.N) (p : Fin 2048) (h : Fin 32) :
    (iblk2 V c 0 t : Vec Ideal S2048x32 .f32) (ix2 p h) = (V c main_v0 : S8192x32.Idx → EReal) (ix2 (rowIdx (t.val / 8) p) h) := by
  obtain ⟨e0, e1, -⟩ := idx_facts2 t
  have hN : cfg2.N = 32 := N_2
  have ht : t.val < 32 := hN ▸ t.isLt
  unfold iblk2
  rw [View.read_apply]
  show (V c main_v0 : S8192x32.Idx → EReal) _ = _
  refine congrArg _ (funext fun a => Fin.ext ?_)
  match a with
  | ⟨0, _⟩ => show win2_0.index t (0 : Fin 2) * 2048 + 1 * p.val = (t.val / 8 % 4) * 2048 + p.val; rw [e0]; omega
  | ⟨1, _⟩ => show win2_0.index t (1 : Fin 2) * 32 + 1 * h.val = h.val; rw [e1]; omega

/-- The second feature block at point t is rows 1024·(t % 8) … of the second feature array. -/
theorem blk2_1 (c : Dev nD) (t : Fin cfg2.N) (q : Fin 1024) (h : Fin 32) :
    (iblk2 V c 1 t : Vec Ideal S1024x32 .f32) (ix2 q h) = (V c main_v1 : S8192x32.Idx → EReal) (ix2 (Cert.Attn.blkIdx (t.val % 8) q) h) := by
  obtain ⟨-, -, e0, e1, -⟩ := idx_facts2 t
  unfold iblk2
  rw [View.read_apply]
  show (V c main_v1 : S8192x32.Idx → EReal) _ = _
  refine congrArg _ (funext fun a => Fin.ext ?_)
  match a with
  | ⟨0, _⟩ => show win2_1.index t (0 : Fin 2) * 1024 + 1 * q.val = (t.val % 8 % 8) * 1024 + q.val; rw [e0]; omega
  | ⟨1, _⟩ => show win2_1.index t (1 : Fin 2) * 32 + 1 * h.val = h.val; rw [e1]; omega

/-- The target block at point t is rows 1024·(t % 8) … of the targets. -/
theorem blk2_2 (c : Dev nD) (t : Fin cfg2.N) (q : Fin 1024) (tt : Fin 8) :
    (iblk2 V c 2 t : Vec Ideal S1024x8 .f32) (ix2 q tt) = (V c main_arg2 : S8192x8.Idx → EReal) (ix2 (Cert.Attn.blkIdx (t.val % 8) q) tt) := by
  obtain ⟨-, -, -, -, e0, e1, -⟩ := idx_facts2 t
  unfold iblk2
  rw [View.read_apply]
  show (V c main_arg2 : S8192x8.Idx → EReal) _ = _
  refine congrArg _ (funext fun a => Fin.ext ?_)
  match a with
  | ⟨0, _⟩ => show win2_2.index t (0 : Fin 2) * 1024 + 1 * q.val = (t.val % 8 % 8) * 1024 + q.val; rw [e0]; omega
  | ⟨1, _⟩ => show win2_2.index t (1 : Fin 2) * 8 + 1 * tt.val = tt.val; rw [e1]; omega

/-- Block `J`'s contribution to the weighted targets of row `p` of row block `I`, at target column `tt`. -/
def SA (c : Dev nD) (I : ℕ) (p : Fin 2048) (tt : Fin 8) (J : ℕ) : EReal :=
  ∑ q : Fin 1024, Cert.Attn.kw (fun h => (V c main_v0 : S8192x32.Idx → EReal) (ix2 (rowIdx I p) h))
    (fun h => (V c main_v1 : S8192x32.Idx → EReal) (ix2 (Cert.Attn.blkIdx J q) h)) * (V c main_arg2 : S8192x8.Idx → EReal) (ix2 (Cert.Attn.blkIdx J q) tt)

/-- Block `J`'s contribution to the total weight of row `p` of row block `I`. -/
def SL (c : Dev nD) (I : ℕ) (p : Fin 2048) (J : ℕ) : EReal :=
  ∑ q : Fin 1024, Cert.Attn.kw (fun h => (V c main_v0 : S8192x32.Idx → EReal) (ix2 (rowIdx I p) h))
    (fun h => (V c main_v1 : S8192x32.Idx → EReal) (ix2 (Cert.Attn.blkIdx J q) h))

/-- A weight between rows of the two blocks at point t is the weight between the corresponding rows of the arrays. -/
theorem kw_blk (c : Dev nD) (t : Fin cfg2.N) (p : Fin 2048) (q : Fin 1024) :
    Cert.Attn.kw (fun h => (iblk2 V c 0 t : Vec Ideal S2048x32 .f32) (ix2 p h)) (fun h => (iblk2 V c 1 t : Vec Ideal S1024x32 .f32) (ix2 q h))
      = Cert.Attn.kw (fun h => (V c main_v0 : S8192x32.Idx → EReal) (ix2 (rowIdx (t.val / 8) p) h))
          (fun h => (V c main_v1 : S8192x32.Idx → EReal) (ix2 (Cert.Attn.blkIdx (t.val % 8) q) h)) :=
  congrArg₂ Cert.Attn.kw (funext fun h => blk2_0 V c t p h) (funext fun h => blk2_1 V c t q h)

/-- Point t's contribution to the weighted targets, written over the blocks, is block (t % 8)'s contribution for row block t / 8. -/
theorem contribA_eq (c : Dev nD) (t : Fin cfg2.N) (p : Fin 2048) (tt : Fin 8) :
    (∑ q : Fin 1024, Cert.Attn.kw (fun h => (iblk2 V c 0 t : Vec Ideal S2048x32 .f32) (ix2 p h)) (fun h => (iblk2 V c 1 t : Vec Ideal S1024x32 .f32) (ix2 q h))
        * (iblk2 V c 2 t : Vec Ideal S1024x8 .f32) (ix2 q tt))
      = SA V c (t.val / 8) p tt (t.val % 8) :=
  Finset.sum_congr rfl fun q _ => congrArg₂ (· * ·) (kw_blk V c t p q) (blk2_2 V c t q tt)

/-- The same for the total weight. -/
theorem contribL_eq (c : Dev nD) (t : Fin cfg2.N) (p : Fin 2048) :
    (∑ q : Fin 1024, Cert.Attn.kw (fun h => (iblk2 V c 0 t : Vec Ideal S2048x32 .f32) (ix2 p h)) (fun h => (iblk2 V c 1 t : Vec Ideal S1024x32 .f32) (ix2 q h)))
      = SL V c (t.val / 8) p (t.val % 8) :=
  Finset.sum_congr rfl fun q _ => kw_blk V c t p q

/-- A first point leaves zero plus its block's contribution in the weighted targets' sum, -/
theorem accA_apply (c : Dev nD) (t : Fin cfg2.N) (p : Fin 2048) (tt : Fin 8) :
    accA (F := Ideal) (iblk2 V c 0 t) (iblk2 V c 1 t) (iblk2 V c 2 t) (ix2 p tt) = 0 + SA V c (t.val / 8) p tt (t.val % 8) := by
  unfold accA
  rw [k2_pay1_eq]
  refine (k2_pay7_apply _ _ _ _ p tt).trans ?_
  exact congrArg₂ (· + ·) (k2_pay3_apply p tt) (contribA_eq V c t p tt)

/-- and in the weights' sum. -/
theorem lA_apply (c : Dev nD) (t : Fin cfg2.N) (p : Fin 2048) (z : Fin 1) :
    lA (F := Ideal) (iblk2 V c 0 t) (iblk2 V c 1 t) (ix2 p z) = 0 + SL V c (t.val / 8) p (t.val % 8) := by
  unfold lA
  refine (k2_pay6_apply _ _ _ p z).trans ?_
  exact congrArg₂ (· + ·) (k2_pay4_apply p z) (contribL_eq V c t p)

/-- A later point adds its block's contribution to what it finds in the weighted targets' sum, -/
theorem accB_apply (c : Dev nD) (t : Fin cfg2.N) (xs0 : Vec Ideal S2048x8 .f32) (p : Fin 2048) (tt : Fin 8) :
    accB (F := Ideal) (iblk2 V c 0 t) (iblk2 V c 1 t) (iblk2 V c 2 t) xs0 (ix2 p tt) = xs0 (ix2 p tt) + SA V c (t.val / 8) p tt (t.val % 8) := by
  unfold accB
  rw [k2_pay1_eq]
  refine (k2_pay7_apply _ _ _ _ p tt).trans ?_
  exact congrArg (xs0 (ix2 p tt) + ·) (contribA_eq V c t p tt)

/-- and in the weights' sum. -/
theorem lB_apply (c : Dev nD) (t : Fin cfg2.N) (xs1 : Vec Ideal S2048x1 .f32) (p : Fin 2048) (z : Fin 1) :
    lB (F := Ideal) (iblk2 V c 0 t) (iblk2 V c 1 t) xs1 (ix2 p z) = xs1 (ix2 p z) + SL V c (t.val / 8) p (t.val % 8) := by
  unfold lB
  refine (k2_pay6_apply _ _ _ p z).trans ?_
  exact congrArg (xs1 (ix2 p z) + ·) (contribL_eq V c t p)

/-- The invariant: after position n the two running sums hold, for row p of row block n / 8, the accumulated
    contributions of blocks 0 … n % 8. By induction on the position: a first point of a grid row restarts from zero, a
    later one continues from the position before, which lies in the same grid row. -/
theorem sums_at (c : Dev nD) (p : Fin 2048) : ∀ (n : ℕ) (hn : n < cfg2.N),
    (∀ tt : Fin 8, (outsAt2 (F := Ideal) V c n hn).2.1 (ix2 p tt) = Cert.Attn.accum (SA V c (n / 8) p tt) (n % 8))
    ∧ (∀ z : Fin 1, (outsAt2 (F := Ideal) V c n hn).2.2 (ix2 p z) = Cert.Attn.accum (SL V c (n / 8) p) (n % 8))
  | 0, hn => by
    rw [outsAt2_first V c ⟨0, hn⟩ rfl]
    exact ⟨fun tt => accA_apply V c ⟨0, hn⟩ p tt, fun z => lA_apply V c ⟨0, hn⟩ p z⟩
  | n + 1, hn => by
    by_cases h0 : (n + 1) % 8 = 0
    · rw [outsAt2_first V c ⟨n + 1, hn⟩ h0]
      refine ⟨fun tt => (accA_apply V c ⟨n + 1, hn⟩ p tt).trans ?_, fun z => (lA_apply V c ⟨n + 1, hn⟩ p z).trans ?_⟩
      · show 0 + SA V c ((n + 1) / 8) p tt ((n + 1) % 8) = _
        rw [h0]; rfl
      · show 0 + SL V c ((n + 1) / 8) p ((n + 1) % 8) = _
        rw [h0]; rfl
    · obtain ⟨ihA, ihL⟩ := sums_at c p n (Nat.lt_of_succ_lt hn)
      have hd : (n + 1) / 8 = n / 8 := by omega
      have hm : (n + 1) % 8 = n % 8 + 1 := by omega
      rw [outsAt2_later V c ⟨n + 1, hn⟩ h0]
      refine ⟨fun tt => (accB_apply V c ⟨n + 1, hn⟩ _ p tt).trans ?_, fun z => (lB_apply V c ⟨n + 1, hn⟩ _ p z).trans ?_⟩
      · show (outsAt2 (F := Ideal) V c n _).2.1 (ix2 p tt) + SA V c ((n + 1) / 8) p tt ((n + 1) % 8) = _
        rw [ihA tt, hd, hm]; rfl
      · show (outsAt2 (F := Ideal) V c n _).2.2 (ix2 p z) + SL V c ((n + 1) / 8) p ((n + 1) % 8) = _
        rw [ihL z, hd, hm]; rfl

/-- At a last point of a grid row the stored block is the quotient of the two running sums as that point leaves them. -/
theorem out_at_last (c : Dev nD) (t : Fin cfg2.N) (h7 : t.val % 8 = 7) (p : Fin 2048) (tt : Fin 8) :
    (outsAt2 (F := Ideal) V c t.val t.isLt).1 (ix2 p tt)
      = Ideal.div ((outsAt2 (F := Ideal) V c t.val t.isLt).2.1 (ix2 p tt)) ((outsAt2 (F := Ideal) V c t.val t.isLt).2.2 (ix2 p (0 : Fin 1))) := by
  have h0 : ¬t.val % 8 = 0 := by omega
  rw [outsAt2_later V c t h0]
  dsimp only
  rw [if_pos h7]
  unfold outC
  exact k2_pay2_apply _ _ p tt

/-- The whole output array: row `i` is the kernel's quotient for feature row `i`. -/
def outArr (c : Dev nD) : S8192x8.Idx → EReal := fun idx =>
  Cert.Attn.kerOut (fun h => (V c main_v0 : S8192x32.Idx → EReal) (ix2 (idx 0) h)) (fun j h => (V c main_v1 : S8192x32.Idx → EReal) (ix2 j h))
    (fun j t => (V c main_arg2 : S8192x8.Idx → EReal) (ix2 j t)) (idx 1)

/-- so it is the output array's entry at the corresponding row: both running sums have reached block 7. -/
theorem out_at_last_eq (c : Dev nD) (t : Fin cfg2.N) (h7 : t.val % 8 = 7) (p : Fin 2048) (tt : Fin 8) :
    (outsAt2 (F := Ideal) V c t.val t.isLt).1 (ix2 p tt) = outArr V c (ix2 (rowIdx (t.val / 8) p) tt) := by
  obtain ⟨hA, hL⟩ := sums_at V c p t.val t.isLt
  rw [out_at_last V c t h7 p tt, hA tt, hL 0, h7]
  rfl

/-- What a last point of a grid row writes back is its block of the output array. -/
theorem flushed2_eq (c : Dev nD) (t : Fin cfg2.N) (h7 : t.val % 8 = 7) :
    (dat2 (F := Ideal) V c).flushed 3 t = ((cfg2.win 3).blk t).view.read (Elt Ideal) (outArr V c) := by
  show (cfg2.win 3).cut (grid2.coords t) ((dat2 (F := Ideal) V c).after 3 t) = _
  rw [after2_3]
  obtain ⟨-, -, -, -, -, -, e0, e1⟩ := idx_facts2 t
  have hN : cfg2.N = 32 := N_2
  have ht : t.val < 32 := hN ▸ t.isLt
  funext j
  obtain ⟨p, tt, rfl⟩ : ∃ (p : Fin 2048) (tt : Fin 8), j = ix2 p tt := ⟨j 0, j 1, eq_ix2 j⟩
  rw [View.read_apply]
  have hemb : ((cfg2.win 3).blk t).view.emb (ix2 p tt) = (ix2 (rowIdx (t.val / 8) p) tt : S8192x8.Idx) := by
    funext a; apply Fin.ext
    match a with
    | ⟨0, _⟩ => show win2_3.index t (0 : Fin 2) * 2048 + 1 * p.val = (t.val / 8 % 4) * 2048 + p.val; rw [e0]; omega
    | ⟨1, _⟩ => show win2_3.index t (1 : Fin 2) * 8 + 1 * tt.val = tt.val; rw [e1]; omega
  rw [hemb]
  show (outsAt2 (F := Ideal) V c t.val t.isLt).1 (ix2 p tt) = _
  exact out_at_last_eq V c t h7 p tt

/-- An index of the output array is in point t's block iff each coordinate is in the block's range on its axis. -/
theorem mem_blk2 (t : Fin cfg2.N) (i : S8192x8.Idx) :
    i ∈ ((cfg2.win 3).blk t).view.set ↔ ∀ a : Fin 2, win2_3.index t a * S2048x8.size a ≤ (i a).val ∧ (i a).val < win2_3.index t a * S2048x8.size a + S2048x8.size a := by
  show i ∈ ((View.whole main_v2).slice (win2_3.rect t)).set ↔ _
  rw [View.set_slice_whole, Rect.mem_set_unit]
  exact Iff.rfl

/-- Every row is in the block written back by the last point of the grid row numbered by the row's quotient by 2048. -/
theorem cover2 (i : S8192x8.Idx) :
    ∃ t : Fin cfg2.N, (cfg2.win 3).flush t = true ∧ i ∈ ((cfg2.win 3).blk t).view.set := by
  have hN : cfg2.N = 32 := N_2
  have hi0 : (i 0).val < 8192 := (i 0).isLt
  have hi1 : (i 1).val < 8 := (i 1).isLt
  let t : Fin cfg2.N := ⟨8 * ((i 0).val / 2048) + 7, by rw [hN]; omega⟩
  have htv : t.val = 8 * ((i 0).val / 2048) + 7 := rfl
  obtain ⟨-, -, -, -, -, -, e0, e1⟩ := idx_facts2 t
  refine ⟨t, (flush2_3 t).mpr (by rw [htv]; omega), ?_⟩
  rw [mem_blk2]
  intro a
  match a with
  | ⟨0, _⟩ => show win2_3.index t (0 : Fin 2) * 2048 ≤ (i 0).val ∧ (i 0).val < win2_3.index t (0 : Fin 2) * 2048 + 2048; rw [e0, htv]; omega
  | ⟨1, _⟩ => show win2_3.index t (1 : Fin 2) * 8 ≤ (i 1).val ∧ (i 1).val < win2_3.index t (1 : Fin 2) * 8 + 8; rw [e1]; omega

/-- After the region the output array holds, at row i and column tt, the kernel's quotient for feature row i. -/
theorem final2 (c : Dev nD) (i : Fin 8192) (tt : Fin 8) :
    (dat2 (F := Ideal) V c).arrAt 3 cfg2.N (ix2 i tt)
      = Cert.Attn.kerOut (fun h => (V c main_v0 : S8192x32.Idx → EReal) (ix2 i h)) (fun j h => (V c main_v1 : S8192x32.Idx → EReal) (ix2 j h))
          (fun j t => (V c main_arg2 : S8192x8.Idx → EReal) (ix2 j t)) tt := by
  rw [(dat2 (F := Ideal) V c).arrAt_eq_of_cover 3 (outArr V c) (fun t hf => flushed2_eq V c t ((flush2_3 t).mp hf)) (cover2)]
  rfl

end Cert.KernelIdeal.Hand

end
-- ==== Proof.KI.Main.lean ====
/-
  The kernel's run read as mathematics. Region 0 leaves in its output array the feature rows of X, region 1 those of
  Y, and region 2, entered with both and with the target rows, leaves the block-by-block weighted quotient of the
  specification. Read back through the fold of the buffers' contents, the result buffer after the whole run is the
  specification's function G of the nine argument arrays as launched.
-/
import proofs.«146112_j85014582657267_2_alg».proof.Proof.KI.FrameMain
import proofs.«146112_j85014582657267_2_alg».proof.Proof.KI.MlpArray
import proofs.«146112_j85014582657267_2_alg».proof.Proof.KI.AttnValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The arguments at the inner boundaries -/

/-- Region 0 does not stage the second input. -/
theorem W1_main_arg1 (c : Dev nD) : W1 m ρ c (Proc.devRef .tc main_arg1) = m ((c : Thread nD τ).loc main_arg1) :=
  (W1_of_ne m ρ c main_arg1 (by decide)).trans rfl

/-- Regions 0 and 1 do not stage the targets. -/
theorem W2_main_arg2 (c : Dev nD) : W2 m ρ c (Proc.devRef .tc main_arg2) = m ((c : Thread nD τ).loc main_arg2) :=
  (W2_of_ne m ρ c main_arg2 (by decide)).trans ((W1_of_ne m ρ c main_arg2 (by decide)).trans rfl)

/-- Region 0 reads the first weight matrix whole through an input window. -/
theorem W1_main_arg3 (c : Dev nD) : W1 m ρ c (Proc.devRef .tc main_arg3) = m ((c : Thread nD τ).loc main_arg3) :=
  (W1_arr m ρ c 1).trans (((dat0 (V0 m ρ) c).arrAt_in 1 rfl _).trans ((A_eq0 (V0 m ρ) c 1).trans rfl))
theorem W1_main_arg4 (c : Dev nD) : W1 m ρ c (Proc.devRef .tc main_arg4) = m ((c : Thread nD τ).loc main_arg4) :=
  (W1_arr m ρ c 2).trans (((dat0 (V0 m ρ) c).arrAt_in 2 rfl _).trans ((A_eq0 (V0 m ρ) c 2).trans rfl))
theorem W1_main_arg5 (c : Dev nD) : W1 m ρ c (Proc.devRef .tc main_arg5) = m ((c : Thread nD τ).loc main_arg5) :=
  (W1_arr m ρ c 3).trans (((dat0 (V0 m ρ) c).arrAt_in 3 rfl _).trans ((A_eq0 (V0 m ρ) c 3).trans rfl))
theorem W1_main_arg6 (c : Dev nD) : W1 m ρ c (Proc.devRef .tc main_arg6) = m ((c : Thread nD τ).loc main_arg6) :=
  (W1_arr m ρ c 4).trans (((dat0 (V0 m ρ) c).arrAt_in 4 rfl _).trans ((A_eq0 (V0 m ρ) c 4).trans rfl))
theorem W1_main_arg7 (c : Dev nD) : W1 m ρ c (Proc.devRef .tc main_arg7) = m ((c : Thread nD τ).loc main_arg7) :=
  (W1_arr m ρ c 5).trans (((dat0 (V0 m ρ) c).arrAt_in 5 rfl _).trans ((A_eq0 (V0 m ρ) c 5).trans rfl))
theorem W1_main_arg8 (c : Dev nD) : W1 m ρ c (Proc.devRef .tc main_arg8) = m ((c : Thread nD τ).loc main_arg8) :=
  (W1_arr m ρ c 6).trans (((dat0 (V0 m ρ) c).arrAt_in 6 rfl _).trans ((A_eq0 (V0 m ρ) c 6).trans rfl))

/-! ## The feature arrays -/

/-- After region 0 its output array holds the feature rows of X. -/
theorem V1_main_v0 (c : Dev nD) (i : Fin 8192) (n : Fin 32) :
    (V1 m ρ c main_v0 : S8192x32.Idx → EReal) (ix2 i n)
      = Cert.Attn.mlp (fun k n => (m ((c : Thread nD τ).loc main_arg3) : S64x32.Idx → EReal) (ix2 k n))
          (fun n => (m ((c : Thread nD τ).loc main_arg4) : S32.Idx → EReal) (ix1 n))
          (fun k n => (m ((c : Thread nD τ).loc main_arg5) : S32x32.Idx → EReal) (ix2 k n))
          (fun n => (m ((c : Thread nD τ).loc main_arg6) : S32.Idx → EReal) (ix1 n))
          (fun k n => (m ((c : Thread nD τ).loc main_arg7) : S32x32.Idx → EReal) (ix2 k n))
          (fun n => (m ((c : Thread nD τ).loc main_arg8) : S32.Idx → EReal) (ix1 n))
          (fun k => (m ((c : Thread nD τ).loc main_arg0) : S8192x64.Idx → EReal) (ix2 i k)) n :=
  (congrFun (W1_arr m ρ c 7) (ix2 i n)).trans (final0 (V0 m ρ) c i n)

/-- Region 1 does not stage the feature rows of X. -/
theorem V2_main_v0 (c : Dev nD) : V2 m ρ c main_v0 = V1 m ρ c main_v0 := W2_of_ne m ρ c main_v0 (by decide)

/-- After region 1 its output array holds the feature rows of Y. -/
theorem V2_main_v1 (c : Dev nD) (j : Fin 8192) (n : Fin 32) :
    (V2 m ρ c main_v1 : S8192x32.Idx → EReal) (ix2 j n)
      = Cert.Attn.mlp (fun k n => (m ((c : Thread nD τ).loc main_arg3) : S64x32.Idx → EReal) (ix2 k n))
          (fun n => (m ((c : Thread nD τ).loc main_arg4) : S32.Idx → EReal) (ix1 n))
          (fun k n => (m ((c : Thread nD τ).loc main_arg5) : S32x32.Idx → EReal) (ix2 k n))
          (fun n => (m ((c : Thread nD τ).loc main_arg6) : S32.Idx → EReal) (ix1 n))
          (fun k n => (m ((c : Thread nD τ).loc main_arg7) : S32x32.Idx → EReal) (ix2 k n))
          (fun n => (m ((c : Thread nD τ).loc main_arg8) : S32.Idx → EReal) (ix1 n))
          (fun k => (m ((c : Thread nD τ).loc main_arg1) : S8192x64.Idx → EReal) (ix2 j k)) n := by
  refine (congrFun (W2_arr m ρ c 7) (ix2 j n)).trans ((final1 (V1 m ρ) c j n).trans ?_)
  rw [show V1 m ρ c main_arg1 = m ((c : Thread nD τ).loc main_arg1) from W1_main_arg1 m ρ c,
    show V1 m ρ c main_arg3 = m ((c : Thread nD τ).loc main_arg3) from W1_main_arg3 m ρ c,
    show V1 m ρ c main_arg4 = m ((c : Thread nD τ).loc main_arg4) from W1_main_arg4 m ρ c,
    show V1 m ρ c main_arg5 = m ((c : Thread nD τ).loc main_arg5) from W1_main_arg5 m ρ c,
    show V1 m ρ c main_arg6 = m ((c : Thread nD τ).loc main_arg6) from W1_main_arg6 m ρ c,
    show V1 m ρ c main_arg7 = m ((c : Thread nD τ).loc main_arg7) from W1_main_arg7 m ρ c,
    show V1 m ρ c main_arg8 = m ((c : Thread nD τ).loc main_arg8) from W1_main_arg8 m ρ c]

/-- Region 2 is entered with the targets as launched. -/
theorem V2_main_arg2 (c : Dev nD) : V2 m ρ c main_arg2 = m ((c : Thread nD τ).loc main_arg2) := W2_main_arg2 m ρ c

/-! ## The result -/

/-- After the whole run the result buffer holds the specification's function of the launched arguments. -/
theorem W3_main_v2 (c : Dev nD) (i : Fin 8192) (tt : Fin 8) :
    (W3 (F := Ideal) m ρ c (Proc.devRef .tc main_v2) : S8192x8.Idx → EReal) (ix2 i tt)
      = Cert.Attn.G (fun i k => (m ((c : Thread nD τ).loc main_arg0) : S8192x64.Idx → EReal) (ix2 i k))
          (fun j k => (m ((c : Thread nD τ).loc main_arg1) : S8192x64.Idx → EReal) (ix2 j k))
          (fun j t => (m ((c : Thread nD τ).loc main_arg2) : S8192x8.Idx → EReal) (ix2 j t))
          (fun k n => (m ((c : Thread nD τ).loc main_arg3) : S64x32.Idx → EReal) (ix2 k n))
          (fun n => (m ((c : Thread nD τ).loc main_arg4) : S32.Idx → EReal) (ix1 n))
          (fun k n => (m ((c : Thread nD τ).loc main_arg5) : S32x32.Idx → EReal) (ix2 k n))
          (fun n => (m ((c : Thread nD τ).loc main_arg6) : S32.Idx → EReal) (ix1 n))
          (fun k n => (m ((c : Thread nD τ).loc main_arg7) : S32x32.Idx → EReal) (ix2 k n))
          (fun n => (m ((c : Thread nD τ).loc main_arg8) : S32.Idx → EReal) (ix1 n)) i tt := by
  refine (congrFun (W3_arr m ρ c 3) (ix2 i tt)).trans ((final2 (V2 m ρ) c i tt).trans ?_)
  unfold Cert.Attn.G
  have e1 : (fun h => (V2 m ρ c main_v0 : S8192x32.Idx → EReal) (ix2 i h)) = _ :=
    funext fun h => (congrFun (V2_main_v0 m ρ c) (ix2 i h)).trans (V1_main_v0 m ρ c i h)
  have e2 : (fun j h => (V2 m ρ c main_v1 : S8192x32.Idx → EReal) (ix2 j h)) = _ :=
    funext fun j => funext fun h => V2_main_v1 m ρ c j h
  rw [e1, e2, V2_main_arg2]

/-- Every weakly fair execution of the kernel terminates and leaves, on every core, the result buffer at the
    specification's function of that core's nine launched arguments read as row functions, and the arguments unchanged. -/
theorem run_value : θ_run (defs (F := Ideal)) (onTc (τ := τ) (main (F := Ideal))) ⟨m, fun _ => 0, ρ⟩ (fun r => ∀ c : Dev nD,
      r.2.mem ((c.tc : Thread nD τ).loc main_v2) = (fun idx => Cert.Attn.G
          (fun i k => m ((c.tc : Thread nD τ).loc main_arg0) (ix2 i k))
          (fun j k => m ((c.tc : Thread nD τ).loc main_arg1) (ix2 j k))
          (fun j t => m ((c.tc : Thread nD τ).loc main_arg2) (ix2 j t))
          (fun k n => m ((c.tc : Thread nD τ).loc main_arg3) (ix2 k n))
          (fun n => m ((c.tc : Thread nD τ).loc main_arg4) (ix1 n))
          (fun k n => m ((c.tc : Thread nD τ).loc main_arg5) (ix2 k n))
          (fun n => m ((c.tc : Thread nD τ).loc main_arg6) (ix1 n))
          (fun k n => m ((c.tc : Thread nD τ).loc main_arg7) (ix2 k n))
          (fun n => m ((c.tc : Thread nD τ).loc main_arg8) (ix1 n)) (idx 0) (idx 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v2 (by decide))).trans (funext fun idx =>
        (congrArg _ (eq_ix2 idx)).trans (W3_main_v2 m ρ c (idx 0) (idx 1))),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c)⟩)
    (run_all m ρ)

end Cert.KernelIdeal.Hand

end
-- ==== Proof.RefValue.lean ====
/-
  The reference program read as mathematics. Its run ends with the last operation's buffer holding a composed
  term of the nine argument arrays; this module shows that term, index by index, to be the function Gref of
  the shared specification: three dense layers with a relu on the rows of X and of Y, the squared distance of
  two feature rows expanded as |x|² + |y|² - 2 x·y and clamped at zero, the exponential of minus half of it, the
  division by the row total and the contraction with the target rows.
-/
import proofs.«146112_j85014582657267_2_alg».proof.Proof.Gen.ReferenceIdeal.Read
import proofs.«146112_j85014582657267_2_alg».proof.Proof.Spec
import proofs.«146112_j85014582657267_2_alg».proof.Proof.Consts

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

/-! ## Indices -/

/-- Two rank-2 indices with equal coordinates are equal. -/
theorem idx2_ext {n0 n1 : Nat} (f g : (⟨2, ![n0, n1]⟩ : Shape).Idx) (h0 : f 0 = g 0) (h1 : f 1 = g 1) : f = g := by
  funext a; match a with | ⟨0, _⟩ => exact h0 | ⟨1, _⟩ => exact h1

/-- Two rank-1 indices with equal coordinates are equal. -/
theorem idx1_ext {n : Nat} (f g : (⟨1, ![n]⟩ : Shape).Idx) (h0 : f 0 = g 0) : f = g := by
  funext a; match a with | ⟨0, _⟩ => exact h0

abbrev A8192x64 := (⟨S8192x64, .f32⟩ : BufTy).Contents (Elt Ideal)
abbrev A8192x8 := (⟨S8192x8, .f32⟩ : BufTy).Contents (Elt Ideal)
abbrev A64x32 := (⟨S64x32, .f32⟩ : BufTy).Contents (Elt Ideal)
abbrev A32x32 := (⟨S32x32, .f32⟩ : BufTy).Contents (Elt Ideal)
abbrev A32 := (⟨S32, .f32⟩ : BufTy).Contents (Elt Ideal)

/-! ## The three dense layers on the rows of X

Each layer's contraction reads the previous layer's row and a column of the weight matrix; the bias is broadcast
along the rows, and the relu is the maximum with the zero constant. -/

theorem v0_ix (x0 : A8192x64) (x3 : A64x32) (i : Fin 8192) (n : Fin 32) :
    val_main_v0 (F := Ideal) x0 x3 (ix2 i n) = ∑ k : Fin 64, x0 (ix2 i k) * x3 (ix2 k n) := by
  rw [val_main_v0_apply]
  refine Finset.sum_congr rfl fun k _ => ?_
  rw [show lidx_main_v0 (ix2 i n) k = ix2 i k from idx2_ext _ _ rfl rfl,
    show ridx_main_v0 (ix2 i n) k = ix2 k n from idx2_ext _ _ rfl rfl]

theorem v2_ix (x4 : A32) (i : Fin 8192) (n : Fin 32) :
    val_main_v2 (F := Ideal) x4 (ix2 i n) = x4 (ix1 n) := by
  rw [val_main_v2_apply, val_main_v1_apply]
  exact congrArg x4 (idx1_ext _ _ rfl)

theorem v4_ix (x0 : A8192x64) (x3 : A64x32) (x4 : A32) (i : Fin 8192) (n : Fin 32) :
    val_main_v4 (F := Ideal) x0 x3 x4 (ix2 i n)
      = dense (fun k => x0 (ix2 i k)) (fun k n => x3 (ix2 k n)) (fun n => x4 (ix1 n)) n := by
  rw [val_main_v4_apply, val_main_v3_apply, v0_ix, v2_ix, val_main_call0_v0_apply, val_main_call0_cst_apply,
    Ideal.maximumf_def, Ideal.addf_def, Ideal.ofBits_def, Ideal.ofBits_zero_f32]
  rfl

theorem v5_ix (x0 : A8192x64) (x3 : A64x32) (x4 : A32) (x5 : A32x32) (i : Fin 8192) (n : Fin 32) :
    val_main_v5 (F := Ideal) x0 x3 x4 x5 (ix2 i n)
      = ∑ k : Fin 32, val_main_v4 (F := Ideal) x0 x3 x4 (ix2 i k) * x5 (ix2 k n) := by
  rw [val_main_v5_apply]
  refine Finset.sum_congr rfl fun k _ => ?_
  rw [show lidx_main_v5 (ix2 i n) k = ix2 i k from idx2_ext _ _ rfl rfl,
    show ridx_main_v5 (ix2 i n) k = ix2 k n from idx2_ext _ _ rfl rfl]

theorem v7_ix (x6 : A32) (i : Fin 8192) (n : Fin 32) :
    val_main_v7 (F := Ideal) x6 (ix2 i n) = x6 (ix1 n) := by
  rw [val_main_v7_apply, val_main_v6_apply]
  exact congrArg x6 (idx1_ext _ _ rfl)

theorem v9_ix (x0 : A8192x64) (x3 : A64x32) (x4 : A32) (x5 : A32x32) (x6 : A32) (i : Fin 8192) (n : Fin 32) :
    val_main_v9 (F := Ideal) x0 x3 x4 x5 x6 (ix2 i n)
      = dense (fun k => val_main_v4 (F := Ideal) x0 x3 x4 (ix2 i k)) (fun k n => x5 (ix2 k n)) (fun n => x6 (ix1 n)) n := by
  rw [val_main_v9_apply, val_main_v8_apply, v5_ix, v7_ix, val_main_call1_v0_apply, val_main_call1_cst_apply,
    Ideal.maximumf_def, Ideal.addf_def, Ideal.ofBits_def, Ideal.ofBits_zero_f32]
  rfl

theorem v10_ix (x0 : A8192x64) (x3 : A64x32) (x4 : A32) (x5 : A32x32) (x6 : A32) (x7 : A32x32) (i : Fin 8192) (n : Fin 32) :
    val_main_v10 (F := Ideal) x0 x3 x4 x5 x6 x7 (ix2 i n)
      = ∑ k : Fin 32, val_main_v9 (F := Ideal) x0 x3 x4 x5 x6 (ix2 i k) * x7 (ix2 k n) := by
  rw [val_main_v10_apply]
  refine Finset.sum_congr rfl fun k _ => ?_
  rw [show lidx_main_v10 (ix2 i n) k = ix2 i k from idx2_ext _ _ rfl rfl,
    show ridx_main_v10 (ix2 i n) k = ix2 k n from idx2_ext _ _ rfl rfl]

theorem v12_ix (x8 : A32) (i : Fin 8192) (n : Fin 32) :
    val_main_v12 (F := Ideal) x8 (ix2 i n) = x8 (ix1 n) := by
  rw [val_main_v12_apply, val_main_v11_apply]
  exact congrArg x8 (idx1_ext _ _ rfl)

theorem v14_dense (x0 : A8192x64) (x3 : A64x32) (x4 : A32) (x5 : A32x32) (x6 : A32) (x7 : A32x32) (x8 : A32)
    (i : Fin 8192) (n : Fin 32) :
    val_main_v14 (F := Ideal) x0 x3 x4 x5 x6 x7 x8 (ix2 i n)
      = dense (fun k => val_main_v9 (F := Ideal) x0 x3 x4 x5 x6 (ix2 i k)) (fun k n => x7 (ix2 k n)) (fun n => x8 (ix1 n)) n := by
  rw [val_main_v14_apply, val_main_v13_apply, v10_ix, v12_ix, val_main_call2_v0_apply, val_main_call2_cst_apply,
    Ideal.maximumf_def, Ideal.addf_def, Ideal.ofBits_def, Ideal.ofBits_zero_f32]
  rfl

/-- The feature row of row i of an 8192 by 64 array: the three layers applied to that row. -/
abbrev feat (x : A8192x64) (x3 : A64x32) (x4 : A32) (x5 : A32x32) (x6 : A32) (x7 : A32x32) (x8 : A32)
    (i : Fin 8192) : Fin 32 → EReal :=
  mlp (fun k n => x3 (ix2 k n)) (fun n => x4 (ix1 n)) (fun k n => x5 (ix2 k n)) (fun n => x6 (ix1 n))
    (fun k n => x7 (ix2 k n)) (fun n => x8 (ix1 n)) (fun k => x (ix2 i k))

theorem v14_ix (x0 : A8192x64) (x3 : A64x32) (x4 : A32) (x5 : A32x32) (x6 : A32) (x7 : A32x32) (x8 : A32)
    (i : Fin 8192) (h : Fin 32) :
    val_main_v14 (F := Ideal) x0 x3 x4 x5 x6 x7 x8 (ix2 i h) = feat x0 x3 x4 x5 x6 x7 x8 i h := by
  rw [v14_dense]
  simp only [v9_ix, v4_ix]
  rfl

/-! ## The same layers on the rows of Y

The program repeats the same operations, with the same weights, on the second array: the terms coincide. -/

theorem v29_eq (x1 : A8192x64) (x3 : A64x32) (x4 : A32) (x5 : A32x32) (x6 : A32) (x7 : A32x32) (x8 : A32) :
    val_main_v29 (F := Ideal) x1 x3 x4 x5 x6 x7 x8 = val_main_v14 (F := Ideal) x1 x3 x4 x5 x6 x7 x8 := rfl

theorem v29_ix (x1 : A8192x64) (x3 : A64x32) (x4 : A32) (x5 : A32x32) (x6 : A32) (x7 : A32x32) (x8 : A32)
    (j : Fin 8192) (h : Fin 32) :
    val_main_v29 (F := Ideal) x1 x3 x4 x5 x6 x7 x8 (ix2 j h) = feat x1 x3 x4 x5 x6 x7 x8 j h := by
  rw [v29_eq]; exact v14_ix x1 x3 x4 x5 x6 x7 x8 j h

/-! ## Squared norms, the Gram matrix and the weight -/

theorem v31_ix (x0 : A8192x64) (x3 : A64x32) (x4 : A32) (x5 : A32x32) (x6 : A32) (x7 : A32x32) (x8 : A32)
    (i : Fin 8192) :
    val_main_v31 (F := Ideal) x0 x3 x4 x5 x6 x7 x8 (ix1 i)
      = 0 + ∑ h : Fin 32, feat x0 x3 x4 x5 x6 x7 x8 i h * feat x0 x3 x4 x5 x6 x7 x8 i h := by
  rw [val_main_v31_apply, val_main_cst_apply, Ideal.ofBits_def, Ideal.ofBits_zero_f32]
  refine congrArg (0 + ·) (Finset.sum_congr rfl fun h _ => ?_)
  rw [show idx_main_v31 (ix1 i) h = ix2 i h from idx2_ext _ _ rfl rfl, val_main_v30_apply, v14_ix, Ideal.mulf_def]

theorem v34_eq (x1 : A8192x64) (x3 : A64x32) (x4 : A32) (x5 : A32x32) (x6 : A32) (x7 : A32x32) (x8 : A32) :
    val_main_v34 (F := Ideal) x1 x3 x4 x5 x6 x7 x8 = val_main_v31 (F := Ideal) x1 x3 x4 x5 x6 x7 x8 := rfl

theorem v38_ix (x0 x1 : A8192x64) (x3 : A64x32) (x4 : A32) (x5 : A32x32) (x6 : A32) (x7 : A32x32) (x8 : A32)
    (i j : Fin 8192) :
    val_main_v38 (F := Ideal) x0 x1 x3 x4 x5 x6 x7 x8 (ix2 i j)
      = (0 + ∑ h : Fin 32, feat x0 x3 x4 x5 x6 x7 x8 i h * feat x0 x3 x4 x5 x6 x7 x8 i h)
        + (0 + ∑ h : Fin 32, feat x1 x3 x4 x5 x6 x7 x8 j h * feat x1 x3 x4 x5 x6 x7 x8 j h) := by
  rw [val_main_v38_apply, val_main_v36_apply, val_main_v32_apply, val_main_v37_apply, val_main_v35_apply,
    Ideal.addf_def, v34_eq,
    show idx_main_v32 (idx_main_v36 (ix2 i j)) = ix1 i from idx1_ext _ _ rfl,
    show idx_main_v35 (idx_main_v37 (ix2 i j)) = ix1 j from idx1_ext _ _ rfl, v31_ix, v31_ix]

theorem v40_ix (x0 x1 : A8192x64) (x3 : A64x32) (x4 : A32) (x5 : A32x32) (x6 : A32) (x7 : A32x32) (x8 : A32)
    (i j : Fin 8192) :
    val_main_v40 (F := Ideal) x0 x1 x3 x4 x5 x6 x7 x8 (ix2 i j)
      = ∑ h : Fin 32, feat x0 x3 x4 x5 x6 x7 x8 i h * feat x1 x3 x4 x5 x6 x7 x8 j h := by
  rw [val_main_v40_apply]
  refine Finset.sum_congr rfl fun k _ => ?_
  rw [show lidx_main_v40 (ix2 i j) k = ix2 i k from idx2_ext _ _ rfl rfl,
    show ridx_main_v40 (ix2 i j) k = ix2 k j from idx2_ext _ _ rfl rfl, val_main_v39_apply,
    show idx_main_v39 (ix2 k j) = ix2 j k from idx2_ext _ _ rfl rfl, v14_ix, v29_ix]

/-- The weight of row j of Y for row i of X. -/
theorem v49_ix (x0 x1 : A8192x64) (x3 : A64x32) (x4 : A32) (x5 : A32x32) (x6 : A32) (x7 : A32x32) (x8 : A32)
    (i j : Fin 8192) :
    val_main_v49 (F := Ideal) x0 x1 x3 x4 x5 x6 x7 x8 (ix2 i j)
      = refw (feat x0 x3 x4 x5 x6 x7 x8 i) (feat x1 x3 x4 x5 x6 x7 x8 j) := by
  rw [val_main_v49_apply, val_main_v48_apply, val_main_v46_apply, val_main_v45_apply, val_main_v43_apply,
    val_main_v42_apply, val_main_v41_apply, val_main_cst_1_apply, val_main_v44_apply, val_main_cst_2_apply,
    val_main_v47_apply, val_main_cst_3_apply, v38_ix, v40_ix]
  simp only [Ideal.hostUnary_exp_def, Ideal.hostDivf_def, Ideal.hostNegf_def, Ideal.negf_def, Ideal.maximumf_def,
    Ideal.subf_def, Ideal.mulf_def, Ideal.ofBits_def, Ideal.ofBits_zero_f32, Cert.Attn.Consts.ofBits_two]
  rfl

/-! ## The normalisation and the last contraction -/

theorem v50_ix (x0 x1 : A8192x64) (x3 : A64x32) (x4 : A32) (x5 : A32x32) (x6 : A32) (x7 : A32x32) (x8 : A32)
    (i : Fin 8192) :
    val_main_v50 (F := Ideal) x0 x1 x3 x4 x5 x6 x7 x8 (ix1 i)
      = 0 + ∑ j : Fin 8192, refw (feat x0 x3 x4 x5 x6 x7 x8 i) (feat x1 x3 x4 x5 x6 x7 x8 j) := by
  rw [val_main_v50_apply, val_main_cst_4_apply, Ideal.ofBits_def, Ideal.ofBits_zero_f32]
  refine congrArg (0 + ·) (Finset.sum_congr rfl fun j _ => ?_)
  rw [show idx_main_v50 (ix1 i) j = ix2 i j from idx2_ext _ _ rfl rfl, v49_ix]

theorem v53_ix (x0 x1 : A8192x64) (x3 : A64x32) (x4 : A32) (x5 : A32x32) (x6 : A32) (x7 : A32x32) (x8 : A32)
    (i j : Fin 8192) :
    val_main_v53 (F := Ideal) x0 x1 x3 x4 x5 x6 x7 x8 (ix2 i j)
      = Ideal.div (refw (feat x0 x3 x4 x5 x6 x7 x8 i) (feat x1 x3 x4 x5 x6 x7 x8 j))
          (0 + ∑ j' : Fin 8192, refw (feat x0 x3 x4 x5 x6 x7 x8 i) (feat x1 x3 x4 x5 x6 x7 x8 j')) := by
  rw [val_main_v53_apply, val_main_v52_apply, val_main_v51_apply, Ideal.hostDivf_def, v49_ix,
    show idx_main_v51 (idx_main_v52 (ix2 i j)) = ix1 i from idx1_ext _ _ rfl, v50_ix]

/-- The reference's result, index by index, is the specification's function of the nine argument arrays. -/
theorem ref_is_spec (a0 a1 : A8192x64) (a2 : A8192x8) (a3 : A64x32) (a4 : A32) (a5 : A32x32) (a6 : A32) (a7 : A32x32)
    (a8 : A32) (i : Fin 8192) (t : Fin 8) :
    val_main_v54 (F := Ideal) a0 a1 a2 a3 a4 a5 a6 a7 a8 (ix2 i t)
      = Gref (fun i k => a0 (ix2 i k)) (fun j k => a1 (ix2 j k)) (fun j t => a2 (ix2 j t))
          (fun k n => a3 (ix2 k n)) (fun n => a4 (ix1 n)) (fun k n => a5 (ix2 k n)) (fun n => a6 (ix1 n))
          (fun k n => a7 (ix2 k n)) (fun n => a8 (ix1 n)) i t := by
  rw [val_main_v54_apply]
  unfold Gref refOut
  refine Finset.sum_congr rfl fun j _ => ?_
  rw [show lidx_main_v54 (ix2 i t) j = ix2 i j from idx2_ext _ _ rfl rfl,
    show ridx_main_v54 (ix2 i t) j = ix2 j t from idx2_ext _ _ rfl rfl, v53_ix]

/-! ## The packaged run -/

/-- Every weakly fair execution of the reference ends with its result buffer holding, on every core, the
    specification's function of that core's nine argument arrays read as row functions, and with the arguments
    unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v54) = (fun idx => Gref
          (fun i k => m' ((c.tc : Thread nD τ).loc main_arg0) (ix2 i k))
          (fun j k => m' ((c.tc : Thread nD τ).loc main_arg1) (ix2 j k))
          (fun j t => m' ((c.tc : Thread nD τ).loc main_arg2) (ix2 j t))
          (fun k n => m' ((c.tc : Thread nD τ).loc main_arg3) (ix2 k n))
          (fun n => m' ((c.tc : Thread nD τ).loc main_arg4) (ix1 n))
          (fun k n => m' ((c.tc : Thread nD τ).loc main_arg5) (ix2 k n))
          (fun n => m' ((c.tc : Thread nD τ).loc main_arg6) (ix1 n))
          (fun k n => m' ((c.tc : Thread nD τ).loc main_arg7) (ix2 k n))
          (fun n => m' ((c.tc : Thread nD τ).loc main_arg8) (ix1 n)) (idx 0) (idx 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)) := by
  refine (θ_run (defs (F := Ideal)) _ _).mono (fun _ h c => ⟨(h c).1.trans ?_, (h c).2⟩)
    (Cert.ReferenceIdeal.Value.run (F := Ideal) m' ρ')
  refine (val_main_v54_eq m' c).trans ?_
  funext idx
  exact (congrArg _ (eq_ix2 idx)).trans (ref_is_spec _ _ _ _ _ _ _ _ _ (idx 0) (idx 1))

end Cert.ReferenceIdeal.RefValue

end
-- ==== Proof.Finite.lean ====
/-
  Finiteness. The precondition of the certificate says of each of the nine argument arrays that the conjunction over
  all of its entries of `|x| < +∞` holds, and that the conjunction of the nine is true. Over the extended reals
  `|x| = max x (-x)`, so `|x| < ⊤` excludes both `⊤` and `⊥`: every entry is a real number. `real_of_pre` says
  so entry by entry; `rows_of_pre` collects the reals into row functions, the form the rest of the proof reads
  the arrays through.
-/
import proofs.«146112_j85014582657267_2_alg».proof.Pre_finite_inputs
import Idealize.ShloMosaic.Lib.ReduceAll
import Idealize.ShloMosaic.Lib.ValueIdx
import Idealize.ShloMosaic.PureOps.Ideal

noncomputable section

namespace Cert.Attn.Finite

open Idealize.ShloMosaic Idealize.ShloMosaic.ValueIdx Cert.Pre_finite_inputs

/-- The scalar shape has one index: a function out of the empty set of axes. -/
instance subsingleton_scalar_idx : Subsingleton S_.Idx := ⟨fun a b => funext fun d => d.elim0⟩

/-- One entry: if `max x (-x) < +∞` then `x` is neither infinity, hence a real number. The pattern
    `0x7F800000` denotes `⊤`; at `x = ⊤` the maximum is `⊤`, at `x = ⊥` it is `-⊥ = ⊤`, and `⊤ < ⊤` is false. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

/-- One array of any shape: if the conjunction over all entries of `|x| < +∞` is true, every entry is a real. A
    conjunction that is true started true and met only true conjuncts, so the comparison holds at every index. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
        (cmpf .olt (Host.absf x) (broadcastInDim s ![] hb (constant (F := Ideal) S_ .f32 0x7F800000#32)))
        (constantI S_ 1 1#1) hr hu ix0 = 1#1) :
    ∀ idx, ∃ r : ℝ, x idx = (r : EReal) := by
  intro idx
  have e := Host.reduce_andi_all _ _ hr hu ix0 h idx
  exact real_of_abs_lt (x idx) e

/-- A conjunction of two truth values at the scalar index is true only if both are. -/
theorem andi_split (a b : IVec S_ 1) (h : andi a b ix0 = 1#1) : a ix0 = 1#1 ∧ b ix0 = 1#1 :=
  IntOp.andi_eq_one.1 h

variable [Facts]

/-- Under the precondition every entry of each of the nine argument arrays is a real number: the precondition is
    a left-nested conjunction of nine whole-array conjunctions, split from the outside in. -/
theorem real_of_pre (x0 x1 : FVec Ideal S8192x64 .f32) (x2 : FVec Ideal S8192x8 .f32) (x3 : FVec Ideal S64x32 .f32)
    (x4 : FVec Ideal S32 .f32) (x5 : FVec Ideal S32x32 .f32) (x6 : FVec Ideal S32 .f32) (x7 : FVec Ideal S32x32 .f32)
    (x8 : FVec Ideal S32 .f32)
    (h : Cert.Pre_finite_inputs.fn (F := Ideal) x0 x1 x2 x3 x4 x5 x6 x7 x8 = fun _ => 1#1) :
    (∀ idx, ∃ r : ℝ, x0 idx = (r : EReal)) ∧ (∀ idx, ∃ r : ℝ, x1 idx = (r : EReal)) ∧
    (∀ idx, ∃ r : ℝ, x2 idx = (r : EReal)) ∧ (∀ idx, ∃ r : ℝ, x3 idx = (r : EReal)) ∧
    (∀ idx, ∃ r : ℝ, x4 idx = (r : EReal)) ∧ (∀ idx, ∃ r : ℝ, x5 idx = (r : EReal)) ∧
    (∀ idx, ∃ r : ℝ, x6 idx = (r : EReal)) ∧ (∀ idx, ∃ r : ℝ, x7 idx = (r : EReal)) ∧
    (∀ idx, ∃ r : ℝ, x8 idx = (r : EReal)) := by
  have h0 := congrFun h ix0
  unfold fn fn_part1 fn_part2 at h0
  dsimp only at h0
  obtain ⟨h0, h8⟩ := andi_split _ _ h0
  obtain ⟨h0, h7⟩ := andi_split _ _ h0
  obtain ⟨h0, h6⟩ := andi_split _ _ h0
  obtain ⟨h0, h5⟩ := andi_split _ _ h0
  obtain ⟨h0, h4⟩ := andi_split _ _ h0
  obtain ⟨h0, h3⟩ := andi_split _ _ h0
  obtain ⟨h0, h2⟩ := andi_split _ _ h0
  obtain ⟨h0, h1⟩ := andi_split _ _ h0
  exact ⟨all_real x0 _ _ _ h0, all_real x1 _ _ _ h1, all_real x2 _ _ _ h2, all_real x3 _ _ _ h3,
    all_real x4 _ _ _ h4, all_real x5 _ _ _ h5, all_real x6 _ _ _ h6, all_real x7 _ _ _ h7, all_real x8 _ _ _ h8⟩

/-- The same, with the reals collected into row functions: each array read by coordinates is the coercion of a
    real-valued function of the coordinates. -/
theorem rows_of_pre (x0 x1 : FVec Ideal S8192x64 .f32) (x2 : FVec Ideal S8192x8 .f32) (x3 : FVec Ideal S64x32 .f32)
    (x4 : FVec Ideal S32 .f32) (x5 : FVec Ideal S32x32 .f32) (x6 : FVec Ideal S32 .f32) (x7 : FVec Ideal S32x32 .f32)
    (x8 : FVec Ideal S32 .f32)
    (h : Cert.Pre_finite_inputs.fn (F := Ideal) x0 x1 x2 x3 x4 x5 x6 x7 x8 = fun _ => 1#1) :
    ∃ (X Y : Fin 8192 → Fin 64 → ℝ) (Yt : Fin 8192 → Fin 8 → ℝ) (W1 : Fin 64 → Fin 32 → ℝ) (b1 : Fin 32 → ℝ)
      (W2 : Fin 32 → Fin 32 → ℝ) (b2 : Fin 32 → ℝ) (W3 : Fin 32 → Fin 32 → ℝ) (b3 : Fin 32 → ℝ),
      (fun i k => x0 (ix2 i k)) = (fun i k => (X i k : EReal)) ∧
      (fun j k => x1 (ix2 j k)) = (fun j k => (Y j k : EReal)) ∧
      (fun j t => x2 (ix2 j t)) = (fun j t => (Yt j t : EReal)) ∧
      (fun k n => x3 (ix2 k n)) = (fun k n => (W1 k n : EReal)) ∧
      (fun n => x4 (ix1 n)) = (fun n => (b1 n : EReal)) ∧
      (fun k n => x5 (ix2 k n)) = (fun k n => (W2 k n : EReal)) ∧
      (fun n => x6 (ix1 n)) = (fun n => (b2 n : EReal)) ∧
      (fun k n => x7 (ix2 k n)) = (fun k n => (W3 k n : EReal)) ∧
      (fun n => x8 (ix1 n)) = (fun n => (b3 n : EReal)) := by
  obtain ⟨r0, r1, r2, r3, r4, r5, r6, r7, r8⟩ := real_of_pre x0 x1 x2 x3 x4 x5 x6 x7 x8 h
  choose f0 e0 using r0
  choose f1 e1 using r1
  choose f2 e2 using r2
  choose f3 e3 using r3
  choose f4 e4 using r4
  choose f5 e5 using r5
  choose f6 e6 using r6
  choose f7 e7 using r7
  choose f8 e8 using r8
  exact ⟨fun i k => f0 (ix2 i k), fun j k => f1 (ix2 j k), fun j t => f2 (ix2 j t), fun k n => f3 (ix2 k n),
    fun n => f4 (ix1 n), fun k n => f5 (ix2 k n), fun n => f6 (ix1 n), fun k n => f7 (ix2 k n), fun n => f8 (ix1 n),
    funext fun i => funext fun k => e0 _, funext fun j => funext fun k => e1 _, funext fun j => funext fun t => e2 _,
    funext fun k => funext fun n => e3 _, funext fun n => e4 _, funext fun k => funext fun n => e5 _,
    funext fun n => e6 _, funext fun k => funext fun n => e7 _, funext fun n => e8 _⟩

end Cert.Attn.Finite

end
-- ==== Proof.lean ====
/-
  The certificate of a kernel-regression forward pass. Both programs send the rows of X and of Y through the same
  three dense layers with a relu after each, giving feature rows x_i, y_j of length 32, and return for every i the
  average of the target rows weighted by a Gaussian kernel of the feature rows, Σ_j w_ij · target_j / Σ_j w_ij.

  The reference takes w_ij = exp (-(max (|x_i|² + |y_j|² - 2 x_i·y_j) 0) / 2), normalises each weight by the row's total and
  then contracts with the targets. The kernel is three launches: the perceptron on X, the perceptron on Y, and a
  single pass over Y in eight blocks of 1024 rows that keeps two running sums per row of X — of
  exp (x_i·y_j - |y_j|²/2) and of that times the target row — and divides them after the last block.

  The two agree on extended reals whose entries are real numbers: |x|² + |y|² - 2 x·y = |x - y|² ≥ 0, so the clamp never
  acts, and the reference's weight is the kernel's times exp (-|x_i|²/2), a positive factor that does not depend on j and
  cancels between numerator and denominator; the block-by-block sums are the sums over all of Y by associativity and
  commutativity. Realness of every entry is what the precondition provides (every input finite, hence every feature).

  The frames: each region is run point by point over its grid; the third region's invariant carries the two running
  sums from one grid point to the next. The same text, read at the word-level values, gives the word-level program's
  frame. Nothing was rewritten between the program and its idealization, so that conjunct is trivial.
-/
import proofs.«146112_j85014582657267_2_alg».proof.Defs
import proofs.«146112_j85014582657267_2_alg».proof.Proof.Gen.Kernel
import proofs.«146112_j85014582657267_2_alg».proof.Proof.Gen.KernelIdeal
import proofs.«146112_j85014582657267_2_alg».proof.Proof.Gen.ReferenceIdeal
import proofs.«146112_j85014582657267_2_alg».proof.Proof.Gen.ReferenceIdeal.Run
import proofs.«146112_j85014582657267_2_alg».proof.Proof.Gen.ReferenceIdeal.Read
import proofs.«146112_j85014582657267_2_alg».proof.Proof.Gen.Pre_finite_inputs
import proofs.«146112_j85014582657267_2_alg».proof.Proof.K.FrameMain
import proofs.«146112_j85014582657267_2_alg».proof.Proof.KI.Main
import proofs.«146112_j85014582657267_2_alg».proof.Proof.RefValue
import proofs.«146112_j85014582657267_2_alg».proof.Proof.Finite
import proofs.«146112_j85014582657267_2_alg».proof.Proof.Algebra
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs to the end, faults nowhere and leaves its arguments as they were. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- And the reference: its run with the result dropped. -/
theorem frame_ri : Cert.frame_ReferenceIdeal := fun m ρ _ =>
  (θ_run Cert.ReferenceIdeal.defs _ _).mono (fun _ h c => (h c).2) (Cert.ReferenceIdeal.RefValue.ref_run m ρ)

/-- The kernel's three launches and the reference end with the same array: both are the weighted average above, the
    kernel's as `G`, the reference's as `Gref`, of argument arrays that agree and whose entries are real numbers. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.RefValue.ref_run m' ρ')
  obtain ⟨h0, h1, h2, h3, h4, h5, h6, h7, h8⟩ := hagree c
  obtain ⟨X, Y, Yt, W1, b1, W2, b2, W3, b3, e0, e1, e2, e3, e4, e5, e6, e7, e8⟩ :=
    Cert.Attn.Finite.rows_of_pre _ _ _ _ _ _ _ _ _ (hpre c)
  funext idx
  rw [h0, h1, h2, h3, h4, h5, h6, h7, h8]
  rw [e0, e1, e2, e3, e4, e5, e6, e7, e8]
  exact (Cert.Attn.G_eq_Gref X Y Yt W1 b1 W2 b2 W3 b3 _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
